-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x64 : Shape := ⟨3, ![32, 4096, 64]⟩
abbrev S4096x4120 : Shape := ⟨2, ![4096, 4120]⟩
abbrev S4096 : Shape := ⟨1, ![4096]⟩
abbrev S_ : Shape := ⟨0, ![]⟩

class Facts : Prop where
  bcast_S_S32x4096x64 : S_.BroadcastsInDim S32x4096x64 (![] : Fin 0 → Fin S32x4096x64.rank)
  reducesTo_S32x4096x64_S_d0_1_2 : S32x4096x64.ReducesTo [0, 1, 2] S_
  h_S_ : 0 < S_.numel
  bcast_S_S4096x4120 : S_.BroadcastsInDim S4096x4120 (![] : Fin 0 → Fin S4096x4120.rank)
  reducesTo_S4096x4120_S_d0_1 : S4096x4120.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S32x4096x64 .f32) (main_arg1 : FVec F S4096x4120 .f32) (main_arg2 : FVec F S4096 .f32) : IVec S_ 1 :=
  let main_v0 : FVec F S32x4096x64 .f32 := Host.absf main_arg0
  let main_cst : FVec F S_ .f32 := constant S_ .f32 0x7F800000#32
  let main_v1 : FVec F S32x4096x64 .f32 := broadcastInDim S32x4096x64 ![] bcast_S_S32x4096x64 main_cst
  let main_v2 : IVec S32x4096x64 1 := cmpf .olt main_v0 main_v1
  let main_c : IVec S_ 1 := constantI S_ 1 1#1
  let main_v3 : IVec S_ 1 := (fun x v => Host.reduce IntOp.andi x v reducesTo_S32x4096x64_S_d0_1_2 h_S_) main_v2 main_c
  let main_v4 : FVec F S4096x4120 .f32 := Host.absf main_arg1
  let main_cst_0 : FVec F S_ .f32 := constant S_ .f32 0x7F800000#32
  let main_v5 : FVec F S4096x4120 .f32 := broadcastInDim S4096x4120 ![] bcast_S_S4096x4120 main_cst_0
  let main_v6 : IVec S4096x4120 1 := cmpf .olt main_v4 main_v5
  let main_c_1 : IVec S_ 1 := constantI S_ 1 1#1
  let main_v7 : IVec S_ 1 := (fun x v => Host.reduce IntOp.andi x v reducesTo_S4096x4120_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S32x4096x64 : Shape := ⟨3, ![32, 4096, 64]⟩
abbrev S4096x4120 : Shape := ⟨2, ![4096, 4120]⟩
abbrev S4096 : Shape := ⟨1, ![4096]⟩
abbrev S_ : Shape := ⟨0, ![]⟩
abbrev S4096x1 : Shape := ⟨2, ![4096, 1]⟩
abbrev S4096x2 : Shape := ⟨2, ![4096, 2]⟩
abbrev S4096x16 : Shape := ⟨2, ![4096, 16]⟩
abbrev S4096x9 : Shape := ⟨2, ![4096, 9]⟩
abbrev S4096x25 : Shape := ⟨2, ![4096, 25]⟩
abbrev S4x4096x64 : Shape := ⟨3, ![4, 4096, 64]⟩
abbrev S1024x25 : Shape := ⟨2, ![1024, 25]⟩
abbrev S1024x1 : Shape := ⟨2, ![1024, 1]⟩
abbrev S4x1024x64 : Shape := ⟨3, ![4, 1024, 64]⟩
abbrev S4x4120x64 : Shape := ⟨3, ![4, 4120, 64]⟩
abbrev S4x12x64 : Shape := ⟨3, ![4, 12, 64]⟩
abbrev S1024 : Shape := ⟨1, ![1024]⟩
abbrev S1x1024x1 : Shape := ⟨3, ![1, 1024, 1]⟩

abbrev nBuf : Space → Nat
  | .hbm => 605
  | .vmem => 9
  | .smem => 0
  | _ => 0

abbrev hbmTy0_0 (i : Nat) : BufTy := match i % 128 with
  | 0 => ⟨S32x4096x64, .f32⟩
  | 1 => ⟨S4096x4120, .f32⟩
  | 2 => ⟨S4096, .f32⟩
  | 3 => ⟨S4096, .i32⟩
  | 4 => ⟨S4096, .i32⟩
  | 5 => ⟨S_, .i32⟩
  | 6 => ⟨S4096, .i32⟩
  | 7 => ⟨S4096, .i1⟩
  | 8 => ⟨S_, .i32⟩
  | 9 => ⟨S4096, .i32⟩
  | 10 => ⟨S4096, .i32⟩
  | 11 => ⟨S4096, .i32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S4096x1, .i32⟩
  | 20 => ⟨S4096x1, .i32⟩
  | 21 => ⟨S4096x2, .i32⟩
  | 22 => ⟨S4096, .f32⟩
  | 23 => ⟨S4096, .i32⟩
  | 24 => ⟨S4096, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i1⟩
  | 31 => ⟨S_, .i32⟩
  | 32 => ⟨S4096, .i32⟩
  | 33 => ⟨S4096, .i32⟩
  | 34 => ⟨S4096, .i32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S4096x1, .i32⟩
  | 43 => ⟨S4096x1, .i32⟩
  | 44 => ⟨S4096x2, .i32⟩
  | 45 => ⟨S4096, .f32⟩
  | 46 => ⟨S4096, .i32⟩
  | 47 => ⟨S4096, .i32⟩
  | 48 => ⟨S_, .i32⟩
  | 49 => ⟨S4096, .i32⟩
  | 50 => ⟨S4096, .i32⟩
  | 51 => ⟨S_, .i32⟩
  | 52 => ⟨S4096, .i32⟩
  | 53 => ⟨S4096, .i1⟩
  | 54 => ⟨S_, .i32⟩
  | 55 => ⟨S4096, .i32⟩
  | 56 => ⟨S4096, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S4096x1, .i32⟩
  | 66 => ⟨S4096x1, .i32⟩
  | 67 => ⟨S4096x2, .i32⟩
  | 68 => ⟨S4096, .f32⟩
  | 69 => ⟨S4096, .i32⟩
  | 70 => ⟨S4096, .i32⟩
  | 71 => ⟨S_, .i32⟩
  | 72 => ⟨S4096, .i32⟩
  | 73 => ⟨S4096, .i32⟩
  | 74 => ⟨S_, .i32⟩
  | 75 => ⟨S4096, .i32⟩
  | 76 => ⟨S4096, .i1⟩
  | 77 => ⟨S_, .i32⟩
  | 78 => ⟨S4096, .i32⟩
  | 79 => ⟨S4096, .i32⟩
  | 80 => ⟨S4096, .i32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S4096x1, .i32⟩
  | 90 => ⟨S4096x2, .i32⟩
  | 91 => ⟨S4096, .f32⟩
  | 92 => ⟨S4096, .i32⟩
  | 93 => ⟨S4096, .i32⟩
  | 94 => ⟨S_, .i32⟩
  | 95 => ⟨S4096, .i32⟩
  | 96 => ⟨S4096, .i32⟩
  | 97 => ⟨S_, .i32⟩
  | 98 => ⟨S4096, .i32⟩
  | 99 => ⟨S4096, .i1⟩
  | 100 => ⟨S_, .i32⟩
  | 101 => ⟨S4096, .i32⟩
  | 102 => ⟨S4096, .i32⟩
  | 103 => ⟨S4096, .i32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S4096x1, .i32⟩
  | 112 => ⟨S4096x1, .i32⟩
  | 113 => ⟨S4096x2, .i32⟩
  | 114 => ⟨S4096, .f32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i1⟩
  | 123 => ⟨S_, .i32⟩
  | 124 => ⟨S4096, .i32⟩
  | 125 => ⟨S4096, .i32⟩
  | 126 => ⟨S4096, .i32⟩
  | 127 => ⟨S_, .i32⟩
  | _ => ⟨S32x4096x64, .f32⟩

abbrev hbmTy0_1 (i : Nat) : BufTy := match i % 128 with
  | 0 => ⟨S4096, .i32⟩
  | 1 => ⟨S4096, .i1⟩
  | 2 => ⟨S_, .i32⟩
  | 3 => ⟨S4096, .i32⟩
  | 4 => ⟨S4096, .i32⟩
  | 5 => ⟨S4096, .i32⟩
  | 6 => ⟨S4096x1, .i32⟩
  | 7 => ⟨S4096x1, .i32⟩
  | 8 => ⟨S4096x2, .i32⟩
  | 9 => ⟨S4096, .f32⟩
  | 10 => ⟨S4096, .i32⟩
  | 11 => ⟨S4096, .i32⟩
  | 12 => ⟨S_, .i32⟩
  | 13 => ⟨S4096, .i32⟩
  | 14 => ⟨S4096, .i32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096x1, .i32⟩
  | 31 => ⟨S4096x2, .i32⟩
  | 32 => ⟨S4096, .f32⟩
  | 33 => ⟨S4096, .i32⟩
  | 34 => ⟨S4096, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S4096, .i32⟩
  | 52 => ⟨S4096x1, .i32⟩
  | 53 => ⟨S4096x1, .i32⟩
  | 54 => ⟨S4096x2, .i32⟩
  | 55 => ⟨S4096, .f32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S_, .i32⟩
  | 69 => ⟨S4096, .i32⟩
  | 70 => ⟨S4096, .i1⟩
  | 71 => ⟨S_, .i32⟩
  | 72 => ⟨S4096, .i32⟩
  | 73 => ⟨S4096, .i32⟩
  | 74 => ⟨S4096, .i32⟩
  | 75 => ⟨S4096x1, .i32⟩
  | 76 => ⟨S4096x1, .i32⟩
  | 77 => ⟨S4096x2, .i32⟩
  | 78 => ⟨S4096, .f32⟩
  | 79 => ⟨S4096, .i32⟩
  | 80 => ⟨S4096, .i32⟩
  | 81 => ⟨S_, .i32⟩
  | 82 => ⟨S4096, .i32⟩
  | 83 => ⟨S4096, .i32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S_, .i32⟩
  | 92 => ⟨S4096, .i32⟩
  | 93 => ⟨S4096, .i1⟩
  | 94 => ⟨S_, .i32⟩
  | 95 => ⟨S4096, .i32⟩
  | 96 => ⟨S4096, .i32⟩
  | 97 => ⟨S4096, .i32⟩
  | 98 => ⟨S4096x1, .i32⟩
  | 99 => ⟨S4096x1, .i32⟩
  | 100 => ⟨S4096x2, .i32⟩
  | 101 => ⟨S4096, .f32⟩
  | 102 => ⟨S4096, .i32⟩
  | 103 => ⟨S4096, .i32⟩
  | 104 => ⟨S_, .i32⟩
  | 105 => ⟨S4096, .i32⟩
  | 106 => ⟨S4096, .i32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S_, .i32⟩
  | 115 => ⟨S4096, .i32⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S4096x1, .i32⟩
  | 123 => ⟨S4096x2, .i32⟩
  | 124 => ⟨S4096, .f32⟩
  | 125 => ⟨S4096, .i32⟩
  | 126 => ⟨S4096, .i32⟩
  | 127 => ⟨S_, .i32⟩
  | _ => ⟨S32x4096x64, .f32⟩

abbrev hbmTy0_2 (i : Nat) : BufTy := match i % 128 with
  | 0 => ⟨S4096, .i32⟩
  | 1 => ⟨S4096, .i32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S4096x1, .i32⟩
  | 18 => ⟨S4096x2, .i32⟩
  | 19 => ⟨S4096, .f32⟩
  | 20 => ⟨S4096, .i32⟩
  | 21 => ⟨S4096, .i32⟩
  | 22 => ⟨S_, .i32⟩
  | 23 => ⟨S4096, .i32⟩
  | 24 => ⟨S4096, .i32⟩
  | 25 => ⟨S_, .i32⟩
  | 26 => ⟨S4096, .i32⟩
  | 27 => ⟨S4096, .i1⟩
  | 28 => ⟨S_, .i32⟩
  | 29 => ⟨S4096, .i32⟩
  | 30 => ⟨S4096, .i32⟩
  | 31 => ⟨S4096, .i32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096x1, .i32⟩
  | 41 => ⟨S4096x2, .i32⟩
  | 42 => ⟨S4096, .f32⟩
  | 43 => ⟨S4096, .i32⟩
  | 44 => ⟨S4096, .i32⟩
  | 45 => ⟨S_, .i32⟩
  | 46 => ⟨S4096, .i32⟩
  | 47 => ⟨S4096, .i32⟩
  | 48 => ⟨S_, .i32⟩
  | 49 => ⟨S4096, .i32⟩
  | 50 => ⟨S4096, .i1⟩
  | 51 => ⟨S_, .i32⟩
  | 52 => ⟨S4096, .i32⟩
  | 53 => ⟨S4096, .i32⟩
  | 54 => ⟨S4096, .i32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S4096x1, .i32⟩
  | 63 => ⟨S4096x1, .i32⟩
  | 64 => ⟨S4096x2, .i32⟩
  | 65 => ⟨S4096, .f32⟩
  | 66 => ⟨S4096, .i32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i1⟩
  | 74 => ⟨S_, .i32⟩
  | 75 => ⟨S4096, .i32⟩
  | 76 => ⟨S4096, .i32⟩
  | 77 => ⟨S4096, .i32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S4096x1, .i32⟩
  | 87 => ⟨S4096x2, .i32⟩
  | 88 => ⟨S4096, .f32⟩
  | 89 => ⟨S4096, .i32⟩
  | 90 => ⟨S4096, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i1⟩
  | 97 => ⟨S_, .i32⟩
  | 98 => ⟨S4096, .i32⟩
  | 99 => ⟨S4096, .i32⟩
  | 100 => ⟨S4096, .i32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S4096, .i32⟩
  | 108 => ⟨S4096x1, .i32⟩
  | 109 => ⟨S4096x1, .i32⟩
  | 110 => ⟨S4096x2, .i32⟩
  | 111 => ⟨S4096, .f32⟩
  | 112 => ⟨S4096, .i32⟩
  | 113 => ⟨S4096, .i32⟩
  | 114 => ⟨S_, .i32⟩
  | 115 => ⟨S4096, .i32⟩
  | 116 => ⟨S4096, .i32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S_, .i32⟩
  | 125 => ⟨S4096, .i32⟩
  | 126 => ⟨S4096, .i1⟩
  | 127 => ⟨S_, .i32⟩
  | _ => ⟨S32x4096x64, .f32⟩

abbrev hbmTy0_3 (i : Nat) : BufTy := match i % 128 with
  | 0 => ⟨S4096, .i32⟩
  | 1 => ⟨S4096, .i32⟩
  | 2 => ⟨S4096, .i32⟩
  | 3 => ⟨S4096x1, .i32⟩
  | 4 => ⟨S4096x1, .i32⟩
  | 5 => ⟨S4096x2, .i32⟩
  | 6 => ⟨S4096, .f32⟩
  | 7 => ⟨S4096, .i32⟩
  | 8 => ⟨S4096, .i32⟩
  | 9 => ⟨S_, .i32⟩
  | 10 => ⟨S4096, .i32⟩
  | 11 => ⟨S4096, .i32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S4096x1, .i32⟩
  | 28 => ⟨S4096x2, .i32⟩
  | 29 => ⟨S4096, .f32⟩
  | 30 => ⟨S4096, .i32⟩
  | 31 => ⟨S4096, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i1⟩
  | 38 => ⟨S_, .i32⟩
  | 39 => ⟨S4096, .i32⟩
  | 40 => ⟨S4096, .i32⟩
  | 41 => ⟨S4096, .i32⟩
  | 42 => ⟨S_, .i32⟩
  | 43 => ⟨S4096, .i32⟩
  | 44 => ⟨S4096, .i1⟩
  | 45 => ⟨S_, .i32⟩
  | 46 => ⟨S4096, .i32⟩
  | 47 => ⟨S4096, .i32⟩
  | 48 => ⟨S4096, .i32⟩
  | 49 => ⟨S4096x1, .i32⟩
  | 50 => ⟨S4096x1, .i32⟩
  | 51 => ⟨S4096x2, .i32⟩
  | 52 => ⟨S4096, .f32⟩
  | 53 => ⟨S4096, .i32⟩
  | 54 => ⟨S4096, .i32⟩
  | 55 => ⟨S_, .i32⟩
  | 56 => ⟨S4096, .i32⟩
  | 57 => ⟨S4096, .i32⟩
  | 58 => ⟨S_, .i32⟩
  | 59 => ⟨S4096, .i32⟩
  | 60 => ⟨S4096, .i1⟩
  | 61 => ⟨S_, .i32⟩
  | 62 => ⟨S4096, .i32⟩
  | 63 => ⟨S4096, .i32⟩
  | 64 => ⟨S4096, .i32⟩
  | 65 => ⟨S_, .i32⟩
  | 66 => ⟨S4096, .i32⟩
  | 67 => ⟨S4096, .i1⟩
  | 68 => ⟨S_, .i32⟩
  | 69 => ⟨S4096, .i32⟩
  | 70 => ⟨S4096, .i32⟩
  | 71 => ⟨S4096, .i32⟩
  | 72 => ⟨S4096x1, .i32⟩
  | 73 => ⟨S4096x1, .i32⟩
  | 74 => ⟨S4096x2, .i32⟩
  | 75 => ⟨S4096, .f32⟩
  | 76 => ⟨S4096, .i32⟩
  | 77 => ⟨S4096, .i32⟩
  | 78 => ⟨S_, .i32⟩
  | 79 => ⟨S4096, .i32⟩
  | 80 => ⟨S4096, .i32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S_, .i32⟩
  | 89 => ⟨S4096, .i32⟩
  | 90 => ⟨S4096, .i1⟩
  | 91 => ⟨S_, .i32⟩
  | 92 => ⟨S4096, .i32⟩
  | 93 => ⟨S4096, .i32⟩
  | 94 => ⟨S4096, .i32⟩
  | 95 => ⟨S4096x1, .i32⟩
  | 96 => ⟨S4096x1, .i32⟩
  | 97 => ⟨S4096x2, .i32⟩
  | 98 => ⟨S4096, .f32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S4096, .i32⟩
  | 111 => ⟨S_, .i32⟩
  | 112 => ⟨S4096, .i32⟩
  | 113 => ⟨S4096, .i1⟩
  | 114 => ⟨S_, .i32⟩
  | 115 => ⟨S4096, .i32⟩
  | 116 => ⟨S4096, .i32⟩
  | 117 => ⟨S4096, .i32⟩
  | 118 => ⟨S4096x1, .i32⟩
  | 119 => ⟨S4096x1, .i32⟩
  | 120 => ⟨S4096x2, .i32⟩
  | 121 => ⟨S4096, .f32⟩
  | 122 => ⟨S4096, .i32⟩
  | 123 => ⟨S4096, .i32⟩
  | 124 => ⟨S_, .i32⟩
  | 125 => ⟨S4096, .i32⟩
  | 126 => ⟨S4096, .i32⟩
  | 127 => ⟨S_, .i32⟩
  | _ => ⟨S32x4096x64, .f32⟩

abbrev hbmTy0_4 (i : Nat) : BufTy := match i % 128 with
  | 0 => ⟨S4096, .i32⟩
  | 1 => ⟨S4096, .i1⟩
  | 2 => ⟨S_, .i32⟩
  | 3 => ⟨S4096, .i32⟩
  | 4 => ⟨S4096, .i32⟩
  | 5 => ⟨S4096, .i32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S4096x1, .i32⟩
  | 15 => ⟨S4096x2, .i32⟩
  | 16 => ⟨S4096, .f32⟩
  | 17 => ⟨S4096, .i32⟩
  | 18 => ⟨S4096, .i32⟩
  | 19 => ⟨S_, .i32⟩
  | 20 => ⟨S4096, .i32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S_, .i32⟩
  | 30 => ⟨S4096, .i32⟩
  | 31 => ⟨S4096, .i1⟩
  | 32 => ⟨S_, .i32⟩
  | 33 => ⟨S4096, .i32⟩
  | 34 => ⟨S4096, .i32⟩
  | 35 => ⟨S4096, .i32⟩
  | 36 => ⟨S4096x1, .i32⟩
  | 37 => ⟨S4096x1, .i32⟩
  | 38 => ⟨S4096x2, .i32⟩
  | 39 => ⟨S4096, .f32⟩
  | 40 => ⟨S4096, .i32⟩
  | 41 => ⟨S4096, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i1⟩
  | 48 => ⟨S_, .i32⟩
  | 49 => ⟨S4096, .i32⟩
  | 50 => ⟨S4096, .i32⟩
  | 51 => ⟨S4096, .i32⟩
  | 52 => ⟨S_, .i32⟩
  | 53 => ⟨S4096, .i32⟩
  | 54 => ⟨S4096, .i1⟩
  | 55 => ⟨S_, .i32⟩
  | 56 => ⟨S4096, .i32⟩
  | 57 => ⟨S4096, .i32⟩
  | 58 => ⟨S4096, .i32⟩
  | 59 => ⟨S4096x1, .i32⟩
  | 60 => ⟨S4096x1, .i32⟩
  | 61 => ⟨S4096x2, .i32⟩
  | 62 => ⟨S4096, .f32⟩
  | 63 => ⟨S4096x1, .f32⟩
  | 64 => ⟨S4096x1, .f32⟩
  | 65 => ⟨S4096x1, .f32⟩
  | 66 => ⟨S4096x1, .f32⟩
  | 67 => ⟨S4096x1, .f32⟩
  | 68 => ⟨S4096x1, .f32⟩
  | 69 => ⟨S4096x1, .f32⟩
  | 70 => ⟨S4096x1, .f32⟩
  | 71 => ⟨S4096x1, .f32⟩
  | 72 => ⟨S4096x1, .f32⟩
  | 73 => ⟨S4096x1, .f32⟩
  | 74 => ⟨S4096x1, .f32⟩
  | 75 => ⟨S4096x1, .f32⟩
  | 76 => ⟨S4096x1, .f32⟩
  | 77 => ⟨S4096x1, .f32⟩
  | 78 => ⟨S4096x1, .f32⟩
  | 79 => ⟨S4096x1, .f32⟩
  | 80 => ⟨S4096x1, .f32⟩
  | 81 => ⟨S4096x1, .f32⟩
  | 82 => ⟨S4096x1, .f32⟩
  | 83 => ⟨S4096x1, .f32⟩
  | 84 => ⟨S4096x1, .f32⟩
  | 85 => ⟨S4096x1, .f32⟩
  | 86 => ⟨S4096x1, .f32⟩
  | 87 => ⟨S4096x1, .f32⟩
  | 88 => ⟨S4096x16, .f32⟩
  | 89 => ⟨S4096x9, .f32⟩
  | 90 => ⟨S4096x25, .f32⟩
  | 91 => ⟨S4096x1, .f32⟩
  | 92 => ⟨S32x4096x64, .f32⟩
  | _ => ⟨S32x4096x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x4096x64, .f32⟩

abbrev bufTy : (tb : Table) → Fin (tcTables nBuf tb) → BufTy
  | .hbm, ⟨i, _⟩ => hbmTy i
  | .local _ .vmem, ⟨0, _⟩ => ⟨S4x4096x64, .f32⟩
  | .local _ .vmem, ⟨1, _⟩ => ⟨S4x4096x64, .f32⟩
  | .local _ .vmem, ⟨2, _⟩ => ⟨S1024x25, .f32⟩
  | .local _ .vmem, ⟨3, _⟩ => ⟨S1024x25, .f32⟩
  | .local _ .vmem, ⟨4, _⟩ => ⟨S1024x1, .f32⟩
  | .local _ .vmem, ⟨5, _⟩ => ⟨S1024x1, .f32⟩
  | .local _ .vmem, ⟨6, _⟩ => ⟨S4x1024x64, .f32⟩
  | .local _ .vmem, ⟨7, _⟩ => ⟨S4x1024x64, .f32⟩
  | .local _ .vmem, ⟨8, _⟩ => ⟨S4x4120x64, .f32⟩
  | _, _ => ⟨S32x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_c_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_c_1 : Ref sig .tc := ⟨.hbm, 12, rfl⟩
abbrev main_call0_v7 : Ref sig .tc := ⟨.hbm, 13, rfl⟩
abbrev main_call0_v8 : Ref sig .tc := ⟨.hbm, 14, rfl⟩
abbrev main_call0_c_2 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_v0 : Ref sig .tc := ⟨.hbm, 22, rfl⟩
abbrev main_call1_v0 : Ref sig .tc := ⟨.hbm, 23, rfl⟩
abbrev main_call1_v1 : Ref sig .tc := ⟨.hbm, 24, rfl⟩
abbrev main_call1_c : Ref sig .tc := ⟨.hbm, 25, rfl⟩
abbrev main_call1_v2 : Ref sig .tc := ⟨.hbm, 26, rfl⟩
abbrev main_call1_v3 : Ref sig .tc := ⟨.hbm, 27, rfl⟩
abbrev main_call1_c_0 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c_2 : Ref sig .tc := ⟨.hbm, 35, rfl⟩
abbrev main_call1_v9 : Ref sig .tc := ⟨.hbm, 36, rfl⟩
abbrev main_call1_v10 : Ref sig .tc := ⟨.hbm, 37, rfl⟩
abbrev main_call1_c_3 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_call1_v15 : Ref sig .tc := ⟨.hbm, 43, rfl⟩
abbrev main_call1_v16 : Ref sig .tc := ⟨.hbm, 44, rfl⟩
abbrev main_v1 : Ref sig .tc := ⟨.hbm, 45, rfl⟩
abbrev main_call2_v0 : Ref sig .tc := ⟨.hbm, 46, rfl⟩
abbrev main_call2_v1 : Ref sig .tc := ⟨.hbm, 47, rfl⟩
abbrev main_call2_c : Ref sig .tc := ⟨.hbm, 48, rfl⟩
abbrev main_call2_v2 : Ref sig .tc := ⟨.hbm, 49, rfl⟩
abbrev main_call2_v3 : Ref sig .tc := ⟨.hbm, 50, rfl⟩
abbrev main_call2_c_0 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_c_2 : Ref sig .tc := ⟨.hbm, 58, rfl⟩
abbrev main_call2_v9 : Ref sig .tc := ⟨.hbm, 59, rfl⟩
abbrev main_call2_v10 : Ref sig .tc := ⟨.hbm, 60, rfl⟩
abbrev main_call2_c_3 : Ref sig .tc := ⟨.hbm, 61, rfl⟩
abbrev main_call2_v11 : Ref sig .tc := ⟨.hbm, 62, rfl⟩
abbrev main_call2_v12 : Ref sig .tc := ⟨.hbm, 63, rfl⟩
abbrev main_call2_v13 : Ref sig .tc := ⟨.hbm, 64, rfl⟩
abbrev main_call2_v14 : Ref sig .tc := ⟨.hbm, 65, rfl⟩
abbrev main_call2_v15 : Ref sig .tc := ⟨.hbm, 66, rfl⟩
abbrev main_call2_v16 : Ref sig .tc := ⟨.hbm, 67, rfl⟩
abbrev main_v2 : Ref sig .tc := ⟨.hbm, 68, rfl⟩
abbrev main_call3_v0 : Ref sig .tc := ⟨.hbm, 69, rfl⟩
abbrev main_call3_v1 : Ref sig .tc := ⟨.hbm, 70, rfl⟩
abbrev main_call3_c : Ref sig .tc := ⟨.hbm, 71, rfl⟩
abbrev main_call3_v2 : Ref sig .tc := ⟨.hbm, 72, rfl⟩
abbrev main_call3_v3 : Ref sig .tc := ⟨.hbm, 73, rfl⟩
abbrev main_call3_c_0 : Ref sig .tc := ⟨.hbm, 74, rfl⟩
abbrev main_call3_v4 : Ref sig .tc := ⟨.hbm, 75, rfl⟩
abbrev main_call3_v5 : Ref sig .tc := ⟨.hbm, 76, rfl⟩
abbrev main_call3_c_1 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_c_2 : Ref sig .tc := ⟨.hbm, 81, rfl⟩
abbrev main_call3_v9 : Ref sig .tc := ⟨.hbm, 82, rfl⟩
abbrev main_call3_v10 : Ref sig .tc := ⟨.hbm, 83, rfl⟩
abbrev main_call3_c_3 : Ref sig .tc := ⟨.hbm, 84, rfl⟩
abbrev main_call3_v11 : Ref sig .tc := ⟨.hbm, 85, rfl⟩
abbrev main_call3_v12 : Ref sig .tc := ⟨.hbm, 86, rfl⟩
abbrev main_call3_v13 : Ref sig .tc := ⟨.hbm, 87, rfl⟩
abbrev main_call3_v14 : Ref sig .tc := ⟨.hbm, 88, rfl⟩
abbrev main_call3_v15 : Ref sig .tc := ⟨.hbm, 89, rfl⟩
abbrev main_call3_v16 : Ref sig .tc := ⟨.hbm, 90, rfl⟩
abbrev main_v3 : Ref sig .tc := ⟨.hbm, 91, rfl⟩
abbrev main_call4_v0 : Ref sig .tc := ⟨.hbm, 92, rfl⟩
abbrev main_call4_v1 : Ref sig .tc := ⟨.hbm, 93, rfl⟩
abbrev main_call4_c : Ref sig .tc := ⟨.hbm, 94, rfl⟩
abbrev main_call4_v2 : Ref sig .tc := ⟨.hbm, 95, rfl⟩
abbrev main_call4_v3 : Ref sig .tc := ⟨.hbm, 96, rfl⟩
abbrev main_call4_c_0 : Ref sig .tc := ⟨.hbm, 97, rfl⟩
abbrev main_call4_v4 : Ref sig .tc := ⟨.hbm, 98, rfl⟩
abbrev main_call4_v5 : Ref sig .tc := ⟨.hbm, 99, rfl⟩
abbrev main_call4_c_1 : Ref sig .tc := ⟨.hbm, 100, rfl⟩
abbrev main_call4_v6 : Ref sig .tc := ⟨.hbm, 101, rfl⟩
abbrev main_call4_v7 : Ref sig .tc := ⟨.hbm, 102, rfl⟩
abbrev main_call4_v8 : Ref sig .tc := ⟨.hbm, 103, rfl⟩
abbrev main_call4_c_2 : Ref sig .tc := ⟨.hbm, 104, rfl⟩
abbrev main_call4_v9 : Ref sig .tc := ⟨.hbm, 105, rfl⟩
abbrev main_call4_v10 : Ref sig .tc := ⟨.hbm, 106, rfl⟩
abbrev main_call4_c_3 : Ref sig .tc := ⟨.hbm, 107, rfl⟩
abbrev main_call4_v11 : Ref sig .tc := ⟨.hbm, 108, rfl⟩
abbrev main_call4_v12 : Ref sig .tc := ⟨.hbm, 109, rfl⟩
abbrev main_call4_v13 : Ref sig .tc := ⟨.hbm, 110, rfl⟩
abbrev main_call4_v14 : Ref sig .tc := ⟨.hbm, 111, rfl⟩
abbrev main_call4_v15 : Ref sig .tc := ⟨.hbm, 112, rfl⟩
abbrev main_call4_v16 : Ref sig .tc := ⟨.hbm, 113, rfl⟩
abbrev main_v4 : Ref sig .tc := ⟨.hbm, 114, rfl⟩
abbrev main_call5_v0 : Ref sig .tc := ⟨.hbm, 115, rfl⟩
abbrev main_call5_v1 : Ref sig .tc := ⟨.hbm, 116, rfl⟩
abbrev main_call5_c : Ref sig .tc := ⟨.hbm, 117, rfl⟩
abbrev main_call5_v2 : Ref sig .tc := ⟨.hbm, 118, rfl⟩
abbrev main_call5_v3 : Ref sig .tc := ⟨.hbm, 119, rfl⟩
abbrev main_call5_c_0 : Ref sig .tc := ⟨.hbm, 120, rfl⟩
abbrev main_call5_v4 : Ref sig .tc := ⟨.hbm, 121, rfl⟩
abbrev main_call5_v5 : Ref sig .tc := ⟨.hbm, 122, rfl⟩
abbrev main_call5_c_1 : Ref sig .tc := ⟨.hbm, 123, rfl⟩
abbrev main_call5_v6 : Ref sig .tc := ⟨.hbm, 124, rfl⟩
abbrev main_call5_v7 : Ref sig .tc := ⟨.hbm, 125, rfl⟩
abbrev main_call5_v8 : Ref sig .tc := ⟨.hbm, 126, rfl⟩
abbrev main_call5_c_2 : Ref sig .tc := ⟨.hbm, 127, rfl⟩
abbrev main_call5_v9 : Ref sig .tc := ⟨.hbm, 128, rfl⟩
abbrev main_call5_v10 : Ref sig .tc := ⟨.hbm, 129, rfl⟩
abbrev main_call5_c_3 : Ref sig .tc := ⟨.hbm, 130, rfl⟩
abbrev main_call5_v11 : Ref sig .tc := ⟨.hbm, 131, rfl⟩
abbrev main_call5_v12 : Ref sig .tc := ⟨.hbm, 132, rfl⟩
abbrev main_call5_v13 : Ref sig .tc := ⟨.hbm, 133, rfl⟩
abbrev main_call5_v14 : Ref sig .tc := ⟨.hbm, 134, rfl⟩
abbrev main_call5_v15 : Ref sig .tc := ⟨.hbm, 135, rfl⟩
abbrev main_call5_v16 : Ref sig .tc := ⟨.hbm, 136, rfl⟩
abbrev main_v5 : Ref sig .tc := ⟨.hbm, 137, rfl⟩
abbrev main_call6_v0 : Ref sig .tc := ⟨.hbm, 138, rfl⟩
abbrev main_call6_v1 : Ref sig .tc := ⟨.hbm, 139, rfl⟩
abbrev main_call6_c : Ref sig .tc := ⟨.hbm, 140, rfl⟩
abbrev main_call6_v2 : Ref sig .tc := ⟨.hbm, 141, rfl⟩
abbrev main_call6_v3 : Ref sig .tc := ⟨.hbm, 142, rfl⟩
abbrev main_call6_c_0 : Ref sig .tc := ⟨.hbm, 143, rfl⟩
abbrev main_call6_v4 : Ref sig .tc := ⟨.hbm, 144, rfl⟩
abbrev main_call6_v5 : Ref sig .tc := ⟨.hbm, 145, rfl⟩
abbrev main_call6_c_1 : Ref sig .tc := ⟨.hbm, 146, rfl⟩
abbrev main_call6_v6 : Ref sig .tc := ⟨.hbm, 147, rfl⟩
abbrev main_call6_v7 : Ref sig .tc := ⟨.hbm, 148, rfl⟩
abbrev main_call6_v8 : Ref sig .tc := ⟨.hbm, 149, rfl⟩
abbrev main_call6_c_2 : Ref sig .tc := ⟨.hbm, 150, rfl⟩
abbrev main_call6_v9 : Ref sig .tc := ⟨.hbm, 151, rfl⟩
abbrev main_call6_v10 : Ref sig .tc := ⟨.hbm, 152, rfl⟩
abbrev main_call6_c_3 : Ref sig .tc := ⟨.hbm, 153, rfl⟩
abbrev main_call6_v11 : Ref sig .tc := ⟨.hbm, 154, rfl⟩
abbrev main_call6_v12 : Ref sig .tc := ⟨.hbm, 155, rfl⟩
abbrev main_call6_v13 : Ref sig .tc := ⟨.hbm, 156, rfl⟩
abbrev main_call6_v14 : Ref sig .tc := ⟨.hbm, 157, rfl⟩
abbrev main_call6_v15 : Ref sig .tc := ⟨.hbm, 158, rfl⟩
abbrev main_call6_v16 : Ref sig .tc := ⟨.hbm, 159, rfl⟩
abbrev main_v6 : Ref sig .tc := ⟨.hbm, 160, rfl⟩
abbrev main_call7_v0 : Ref sig .tc := ⟨.hbm, 161, rfl⟩
abbrev main_call7_v1 : Ref sig .tc := ⟨.hbm, 162, rfl⟩
abbrev main_call7_c : Ref sig .tc := ⟨.hbm, 163, rfl⟩
abbrev main_call7_v2 : Ref sig .tc := ⟨.hbm, 164, rfl⟩
abbrev main_call7_v3 : Ref sig .tc := ⟨.hbm, 165, rfl⟩
abbrev main_call7_c_0 : Ref sig .tc := ⟨.hbm, 166, rfl⟩
abbrev main_call7_v4 : Ref sig .tc := ⟨.hbm, 167, rfl⟩
abbrev main_call7_v5 : Ref sig .tc := ⟨.hbm, 168, rfl⟩
abbrev main_call7_c_1 : Ref sig .tc := ⟨.hbm, 169, rfl⟩
abbrev main_call7_v6 : Ref sig .tc := ⟨.hbm, 170, rfl⟩
abbrev main_call7_v7 : Ref sig .tc := ⟨.hbm, 171, rfl⟩
abbrev main_call7_v8 : Ref sig .tc := ⟨.hbm, 172, rfl⟩
abbrev main_call7_c_2 : Ref sig .tc := ⟨.hbm, 173, rfl⟩
abbrev main_call7_v9 : Ref sig .tc := ⟨.hbm, 174, rfl⟩
abbrev main_call7_v10 : Ref sig .tc := ⟨.hbm, 175, rfl⟩
abbrev main_call7_c_3 : Ref sig .tc := ⟨.hbm, 176, rfl⟩
abbrev main_call7_v11 : Ref sig .tc := ⟨.hbm, 177, rfl⟩
abbrev main_call7_v12 : Ref sig .tc := ⟨.hbm, 178, rfl⟩
abbrev main_call7_v13 : Ref sig .tc := ⟨.hbm, 179, rfl⟩
abbrev main_call7_v14 : Ref sig .tc := ⟨.hbm, 180, rfl⟩
abbrev main_call7_v15 : Ref sig .tc := ⟨.hbm, 181, rfl⟩
abbrev main_call7_v16 : Ref sig .tc := ⟨.hbm, 182, rfl⟩
abbrev main_v7 : Ref sig .tc := ⟨.hbm, 183, rfl⟩
abbrev main_call8_v0 : Ref sig .tc := ⟨.hbm, 184, rfl⟩
abbrev main_call8_v1 : Ref sig .tc := ⟨.hbm, 185, rfl⟩
abbrev main_call8_c : Ref sig .tc := ⟨.hbm, 186, rfl⟩
abbrev main_call8_v2 : Ref sig .tc := ⟨.hbm, 187, rfl⟩
abbrev main_call8_v3 : Ref sig .tc := ⟨.hbm, 188, rfl⟩
abbrev main_call8_c_0 : Ref sig .tc := ⟨.hbm, 189, rfl⟩
abbrev main_call8_v4 : Ref sig .tc := ⟨.hbm, 190, rfl⟩
abbrev main_call8_v5 : Ref sig .tc := ⟨.hbm, 191, rfl⟩
abbrev main_call8_c_1 : Ref sig .tc := ⟨.hbm, 192, rfl⟩
abbrev main_call8_v6 : Ref sig .tc := ⟨.hbm, 193, rfl⟩
abbrev main_call8_v7 : Ref sig .tc := ⟨.hbm, 194, rfl⟩
abbrev main_call8_v8 : Ref sig .tc := ⟨.hbm, 195, rfl⟩
abbrev main_call8_c_2 : Ref sig .tc := ⟨.hbm, 196, rfl⟩
abbrev main_call8_v9 : Ref sig .tc := ⟨.hbm, 197, rfl⟩
abbrev main_call8_v10 : Ref sig .tc := ⟨.hbm, 198, rfl⟩
abbrev main_call8_c_3 : Ref sig .tc := ⟨.hbm, 199, rfl⟩
abbrev main_call8_v11 : Ref sig .tc := ⟨.hbm, 200, rfl⟩
abbrev main_call8_v12 : Ref sig .tc := ⟨.hbm, 201, rfl⟩
abbrev main_call8_v13 : Ref sig .tc := ⟨.hbm, 202, rfl⟩
abbrev main_call8_v14 : Ref sig .tc := ⟨.hbm, 203, rfl⟩
abbrev main_call8_v15 : Ref sig .tc := ⟨.hbm, 204, rfl⟩
abbrev main_call8_v16 : Ref sig .tc := ⟨.hbm, 205, rfl⟩
abbrev main_v8 : Ref sig .tc := ⟨.hbm, 206, rfl⟩
abbrev main_call9_v0 : Ref sig .tc := ⟨.hbm, 207, rfl⟩
abbrev main_call9_v1 : Ref sig .tc := ⟨.hbm, 208, rfl⟩
abbrev main_call9_c : Ref sig .tc := ⟨.hbm, 209, rfl⟩
abbrev main_call9_v2 : Ref sig .tc := ⟨.hbm, 210, rfl⟩
abbrev main_call9_v3 : Ref sig .tc := ⟨.hbm, 211, rfl⟩
abbrev main_call9_c_0 : Ref sig .tc := ⟨.hbm, 212, rfl⟩
abbrev main_call9_v4 : Ref sig .tc := ⟨.hbm, 213, rfl⟩
abbrev main_call9_v5 : Ref sig .tc := ⟨.hbm, 214, rfl⟩
abbrev main_call9_c_1 : Ref sig .tc := ⟨.hbm, 215, rfl⟩
abbrev main_call9_v6 : Ref sig .tc := ⟨.hbm, 216, rfl⟩
abbrev main_call9_v7 : Ref sig .tc := ⟨.hbm, 217, rfl⟩
abbrev main_call9_v8 : Ref sig .tc := ⟨.hbm, 218, rfl⟩
abbrev main_call9_c_2 : Ref sig .tc := ⟨.hbm, 219, rfl⟩
abbrev main_call9_v9 : Ref sig .tc := ⟨.hbm, 220, rfl⟩
abbrev main_call9_v10 : Ref sig .tc := ⟨.hbm, 221, rfl⟩
abbrev main_call9_c_3 : Ref sig .tc := ⟨.hbm, 222, rfl⟩
abbrev main_call9_v11 : Ref sig .tc := ⟨.hbm, 223, rfl⟩
abbrev main_call9_v12 : Ref sig .tc := ⟨.hbm, 224, rfl⟩
abbrev main_call9_v13 : Ref sig .tc := ⟨.hbm, 225, rfl⟩
abbrev main_call9_v14 : Ref sig .tc := ⟨.hbm, 226, rfl⟩
abbrev main_call9_v15 : Ref sig .tc := ⟨.hbm, 227, rfl⟩
abbrev main_call9_v16 : Ref sig .tc := ⟨.hbm, 228, rfl⟩
abbrev main_v9 : Ref sig .tc := ⟨.hbm, 229, rfl⟩
abbrev main_call10_v0 : Ref sig .tc := ⟨.hbm, 230, rfl⟩
abbrev main_call10_v1 : Ref sig .tc := ⟨.hbm, 231, rfl⟩
abbrev main_call10_c : Ref sig .tc := ⟨.hbm, 232, rfl⟩
abbrev main_call10_v2 : Ref sig .tc := ⟨.hbm, 233, rfl⟩
abbrev main_call10_v3 : Ref sig .tc := ⟨.hbm, 234, rfl⟩
abbrev main_call10_c_0 : Ref sig .tc := ⟨.hbm, 235, rfl⟩
abbrev main_call10_v4 : Ref sig .tc := ⟨.hbm, 236, rfl⟩
abbrev main_call10_v5 : Ref sig .tc := ⟨.hbm, 237, rfl⟩
abbrev main_call10_c_1 : Ref sig .tc := ⟨.hbm, 238, rfl⟩
abbrev main_call10_v6 : Ref sig .tc := ⟨.hbm, 239, rfl⟩
abbrev main_call10_v7 : Ref sig .tc := ⟨.hbm, 240, rfl⟩
abbrev main_call10_v8 : Ref sig .tc := ⟨.hbm, 241, rfl⟩
abbrev main_call10_c_2 : Ref sig .tc := ⟨.hbm, 242, rfl⟩
abbrev main_call10_v9 : Ref sig .tc := ⟨.hbm, 243, rfl⟩
abbrev main_call10_v10 : Ref sig .tc := ⟨.hbm, 244, rfl⟩
abbrev main_call10_c_3 : Ref sig .tc := ⟨.hbm, 245, rfl⟩
abbrev main_call10_v11 : Ref sig .tc := ⟨.hbm, 246, rfl⟩
abbrev main_call10_v12 : Ref sig .tc := ⟨.hbm, 247, rfl⟩
abbrev main_call10_v13 : Ref sig .tc := ⟨.hbm, 248, rfl⟩
abbrev main_call10_v14 : Ref sig .tc := ⟨.hbm, 249, rfl⟩
abbrev main_call10_v15 : Ref sig .tc := ⟨.hbm, 250, rfl⟩
abbrev main_call10_v16 : Ref sig .tc := ⟨.hbm, 251, rfl⟩
abbrev main_v10 : Ref sig .tc := ⟨.hbm, 252, rfl⟩
abbrev main_call11_v0 : Ref sig .tc := ⟨.hbm, 253, rfl⟩
abbrev main_call11_v1 : Ref sig .tc := ⟨.hbm, 254, rfl⟩
abbrev main_call11_c : Ref sig .tc := ⟨.hbm, 255, rfl⟩
abbrev main_call11_v2 : Ref sig .tc := ⟨.hbm, 256, rfl⟩
abbrev main_call11_v3 : Ref sig .tc := ⟨.hbm, 257, rfl⟩
abbrev main_call11_c_0 : Ref sig .tc := ⟨.hbm, 258, rfl⟩
abbrev main_call11_v4 : Ref sig .tc := ⟨.hbm, 259, rfl⟩
abbrev main_call11_v5 : Ref sig .tc := ⟨.hbm, 260, rfl⟩
abbrev main_call11_c_1 : Ref sig .tc := ⟨.hbm, 261, rfl⟩
abbrev main_call11_v6 : Ref sig .tc := ⟨.hbm, 262, rfl⟩
abbrev main_call11_v7 : Ref sig .tc := ⟨.hbm, 263, rfl⟩
abbrev main_call11_v8 : Ref sig .tc := ⟨.hbm, 264, rfl⟩
abbrev main_call11_c_2 : Ref sig .tc := ⟨.hbm, 265, rfl⟩
abbrev main_call11_v9 : Ref sig .tc := ⟨.hbm, 266, rfl⟩
abbrev main_call11_v10 : Ref sig .tc := ⟨.hbm, 267, rfl⟩
abbrev main_call11_c_3 : Ref sig .tc := ⟨.hbm, 268, rfl⟩
abbrev main_call11_v11 : Ref sig .tc := ⟨.hbm, 269, rfl⟩
abbrev main_call11_v12 : Ref sig .tc := ⟨.hbm, 270, rfl⟩
abbrev main_call11_v13 : Ref sig .tc := ⟨.hbm, 271, rfl⟩
abbrev main_call11_v14 : Ref sig .tc := ⟨.hbm, 272, rfl⟩
abbrev main_call11_v15 : Ref sig .tc := ⟨.hbm, 273, rfl⟩
abbrev main_call11_v16 : Ref sig .tc := ⟨.hbm, 274, rfl⟩
abbrev main_v11 : Ref sig .tc := ⟨.hbm, 275, rfl⟩
abbrev main_call12_v0 : Ref sig .tc := ⟨.hbm, 276, rfl⟩
abbrev main_call12_v1 : Ref sig .tc := ⟨.hbm, 277, rfl⟩
abbrev main_call12_c : Ref sig .tc := ⟨.hbm, 278, rfl⟩
abbrev main_call12_v2 : Ref sig .tc := ⟨.hbm, 279, rfl⟩
abbrev main_call12_v3 : Ref sig .tc := ⟨.hbm, 280, rfl⟩
abbrev main_call12_c_0 : Ref sig .tc := ⟨.hbm, 281, rfl⟩
abbrev main_call12_v4 : Ref sig .tc := ⟨.hbm, 282, rfl⟩
abbrev main_call12_v5 : Ref sig .tc := ⟨.hbm, 283, rfl⟩
abbrev main_call12_c_1 : Ref sig .tc := ⟨.hbm, 284, rfl⟩
abbrev main_call12_v6 : Ref sig .tc := ⟨.hbm, 285, rfl⟩
abbrev main_call12_v7 : Ref sig .tc := ⟨.hbm, 286, rfl⟩
abbrev main_call12_v8 : Ref sig .tc := ⟨.hbm, 287, rfl⟩
abbrev main_call12_c_2 : Ref sig .tc := ⟨.hbm, 288, rfl⟩
abbrev main_call12_v9 : Ref sig .tc := ⟨.hbm, 289, rfl⟩
abbrev main_call12_v10 : Ref sig .tc := ⟨.hbm, 290, rfl⟩
abbrev main_call12_c_3 : Ref sig .tc := ⟨.hbm, 291, rfl⟩
abbrev main_call12_v11 : Ref sig .tc := ⟨.hbm, 292, rfl⟩
abbrev main_call12_v12 : Ref sig .tc := ⟨.hbm, 293, rfl⟩
abbrev main_call12_v13 : Ref sig .tc := ⟨.hbm, 294, rfl⟩
abbrev main_call12_v14 : Ref sig .tc := ⟨.hbm, 295, rfl⟩
abbrev main_call12_v15 : Ref sig .tc := ⟨.hbm, 296, rfl⟩
abbrev main_call12_v16 : Ref sig .tc := ⟨.hbm, 297, rfl⟩
abbrev main_v12 : Ref sig .tc := ⟨.hbm, 298, rfl⟩
abbrev main_call13_v0 : Ref sig .tc := ⟨.hbm, 299, rfl⟩
abbrev main_call13_v1 : Ref sig .tc := ⟨.hbm, 300, rfl⟩
abbrev main_call13_c : Ref sig .tc := ⟨.hbm, 301, rfl⟩
abbrev main_call13_v2 : Ref sig .tc := ⟨.hbm, 302, rfl⟩
abbrev main_call13_v3 : Ref sig .tc := ⟨.hbm, 303, rfl⟩
abbrev main_call13_c_0 : Ref sig .tc := ⟨.hbm, 304, rfl⟩
abbrev main_call13_v4 : Ref sig .tc := ⟨.hbm, 305, rfl⟩
abbrev main_call13_v5 : Ref sig .tc := ⟨.hbm, 306, rfl⟩
abbrev main_call13_c_1 : Ref sig .tc := ⟨.hbm, 307, rfl⟩
abbrev main_call13_v6 : Ref sig .tc := ⟨.hbm, 308, rfl⟩
abbrev main_call13_v7 : Ref sig .tc := ⟨.hbm, 309, rfl⟩
abbrev main_call13_v8 : Ref sig .tc := ⟨.hbm, 310, rfl⟩
abbrev main_call13_c_2 : Ref sig .tc := ⟨.hbm, 311, rfl⟩
abbrev main_call13_v9 : Ref sig .tc := ⟨.hbm, 312, rfl⟩
abbrev main_call13_v10 : Ref sig .tc := ⟨.hbm, 313, rfl⟩
abbrev main_call13_c_3 : Ref sig .tc := ⟨.hbm, 314, rfl⟩
abbrev main_call13_v11 : Ref sig .tc := ⟨.hbm, 315, rfl⟩
abbrev main_call13_v12 : Ref sig .tc := ⟨.hbm, 316, rfl⟩
abbrev main_call13_v13 : Ref sig .tc := ⟨.hbm, 317, rfl⟩
abbrev main_call13_v14 : Ref sig .tc := ⟨.hbm, 318, rfl⟩
abbrev main_call13_v15 : Ref sig .tc := ⟨.hbm, 319, rfl⟩
abbrev main_call13_v16 : Ref sig .tc := ⟨.hbm, 320, rfl⟩
abbrev main_v13 : Ref sig .tc := ⟨.hbm, 321, rfl⟩
abbrev main_call14_v0 : Ref sig .tc := ⟨.hbm, 322, rfl⟩
abbrev main_call14_v1 : Ref sig .tc := ⟨.hbm, 323, rfl⟩
abbrev main_call14_c : Ref sig .tc := ⟨.hbm, 324, rfl⟩
abbrev main_call14_v2 : Ref sig .tc := ⟨.hbm, 325, rfl⟩
abbrev main_call14_v3 : Ref sig .tc := ⟨.hbm, 326, rfl⟩
abbrev main_call14_c_0 : Ref sig .tc := ⟨.hbm, 327, rfl⟩
abbrev main_call14_v4 : Ref sig .tc := ⟨.hbm, 328, rfl⟩
abbrev main_call14_v5 : Ref sig .tc := ⟨.hbm, 329, rfl⟩
abbrev main_call14_c_1 : Ref sig .tc := ⟨.hbm, 330, rfl⟩
abbrev main_call14_v6 : Ref sig .tc := ⟨.hbm, 331, rfl⟩
abbrev main_call14_v7 : Ref sig .tc := ⟨.hbm, 332, rfl⟩
abbrev main_call14_v8 : Ref sig .tc := ⟨.hbm, 333, rfl⟩
abbrev main_call14_c_2 : Ref sig .tc := ⟨.hbm, 334, rfl⟩
abbrev main_call14_v9 : Ref sig .tc := ⟨.hbm, 335, rfl⟩
abbrev main_call14_v10 : Ref sig .tc := ⟨.hbm, 336, rfl⟩
abbrev main_call14_c_3 : Ref sig .tc := ⟨.hbm, 337, rfl⟩
abbrev main_call14_v11 : Ref sig .tc := ⟨.hbm, 338, rfl⟩
abbrev main_call14_v12 : Ref sig .tc := ⟨.hbm, 339, rfl⟩
abbrev main_call14_v13 : Ref sig .tc := ⟨.hbm, 340, rfl⟩
abbrev main_call14_v14 : Ref sig .tc := ⟨.hbm, 341, rfl⟩
abbrev main_call14_v15 : Ref sig .tc := ⟨.hbm, 342, rfl⟩
abbrev main_call14_v16 : Ref sig .tc := ⟨.hbm, 343, rfl⟩
abbrev main_v14 : Ref sig .tc := ⟨.hbm, 344, rfl⟩
abbrev main_call15_v0 : Ref sig .tc := ⟨.hbm, 345, rfl⟩
abbrev main_call15_v1 : Ref sig .tc := ⟨.hbm, 346, rfl⟩
abbrev main_call15_c : Ref sig .tc := ⟨.hbm, 347, rfl⟩
abbrev main_call15_v2 : Ref sig .tc := ⟨.hbm, 348, rfl⟩
abbrev main_call15_v3 : Ref sig .tc := ⟨.hbm, 349, rfl⟩
abbrev main_call15_c_0 : Ref sig .tc := ⟨.hbm, 350, rfl⟩
abbrev main_call15_v4 : Ref sig .tc := ⟨.hbm, 351, rfl⟩
abbrev main_call15_v5 : Ref sig .tc := ⟨.hbm, 352, rfl⟩
abbrev main_call15_c_1 : Ref sig .tc := ⟨.hbm, 353, rfl⟩
abbrev main_call15_v6 : Ref sig .tc := ⟨.hbm, 354, rfl⟩
abbrev main_call15_v7 : Ref sig .tc := ⟨.hbm, 355, rfl⟩
abbrev main_call15_v8 : Ref sig .tc := ⟨.hbm, 356, rfl⟩
abbrev main_call15_c_2 : Ref sig .tc := ⟨.hbm, 357, rfl⟩
abbrev main_call15_v9 : Ref sig .tc := ⟨.hbm, 358, rfl⟩
abbrev main_call15_v10 : Ref sig .tc := ⟨.hbm, 359, rfl⟩
abbrev main_call15_c_3 : Ref sig .tc := ⟨.hbm, 360, rfl⟩
abbrev main_call15_v11 : Ref sig .tc := ⟨.hbm, 361, rfl⟩
abbrev main_call15_v12 : Ref sig .tc := ⟨.hbm, 362, rfl⟩
abbrev main_call15_v13 : Ref sig .tc := ⟨.hbm, 363, rfl⟩
abbrev main_call15_v14 : Ref sig .tc := ⟨.hbm, 364, rfl⟩
abbrev main_call15_v15 : Ref sig .tc := ⟨.hbm, 365, rfl⟩
abbrev main_call15_v16 : Ref sig .tc := ⟨.hbm, 366, rfl⟩
abbrev main_v15 : Ref sig .tc := ⟨.hbm, 367, rfl⟩
abbrev main_call16_v0 : Ref sig .tc := ⟨.hbm, 368, rfl⟩
abbrev main_call16_v1 : Ref sig .tc := ⟨.hbm, 369, rfl⟩
abbrev main_call16_c : Ref sig .tc := ⟨.hbm, 370, rfl⟩
abbrev main_call16_v2 : Ref sig .tc := ⟨.hbm, 371, rfl⟩
abbrev main_call16_v3 : Ref sig .tc := ⟨.hbm, 372, rfl⟩
abbrev main_call16_c_0 : Ref sig .tc := ⟨.hbm, 373, rfl⟩
abbrev main_call16_v4 : Ref sig .tc := ⟨.hbm, 374, rfl⟩
abbrev main_call16_v5 : Ref sig .tc := ⟨.hbm, 375, rfl⟩
abbrev main_call16_c_1 : Ref sig .tc := ⟨.hbm, 376, rfl⟩
abbrev main_call16_v6 : Ref sig .tc := ⟨.hbm, 377, rfl⟩
abbrev main_call16_v7 : Ref sig .tc := ⟨.hbm, 378, rfl⟩
abbrev main_call16_v8 : Ref sig .tc := ⟨.hbm, 379, rfl⟩
abbrev main_call16_c_2 : Ref sig .tc := ⟨.hbm, 380, rfl⟩
abbrev main_call16_v9 : Ref sig .tc := ⟨.hbm, 381, rfl⟩
abbrev main_call16_v10 : Ref sig .tc := ⟨.hbm, 382, rfl⟩
abbrev main_call16_c_3 : Ref sig .tc := ⟨.hbm, 383, rfl⟩
abbrev main_call16_v11 : Ref sig .tc := ⟨.hbm, 384, rfl⟩
abbrev main_call16_v12 : Ref sig .tc := ⟨.hbm, 385, rfl⟩
abbrev main_call16_v13 : Ref sig .tc := ⟨.hbm, 386, rfl⟩
abbrev main_call16_v14 : Ref sig .tc := ⟨.hbm, 387, rfl⟩
abbrev main_call16_v15 : Ref sig .tc := ⟨.hbm, 388, rfl⟩
abbrev main_call16_v16 : Ref sig .tc := ⟨.hbm, 389, rfl⟩
abbrev main_v16 : Ref sig .tc := ⟨.hbm, 390, rfl⟩
abbrev main_call17_v0 : Ref sig .tc := ⟨.hbm, 391, rfl⟩
abbrev main_call17_v1 : Ref sig .tc := ⟨.hbm, 392, rfl⟩
abbrev main_call17_c : Ref sig .tc := ⟨.hbm, 393, rfl⟩
abbrev main_call17_v2 : Ref sig .tc := ⟨.hbm, 394, rfl⟩
abbrev main_call17_v3 : Ref sig .tc := ⟨.hbm, 395, rfl⟩
abbrev main_call17_c_0 : Ref sig .tc := ⟨.hbm, 396, rfl⟩
abbrev main_call17_v4 : Ref sig .tc := ⟨.hbm, 397, rfl⟩
abbrev main_call17_v5 : Ref sig .tc := ⟨.hbm, 398, rfl⟩
abbrev main_call17_c_1 : Ref sig .tc := ⟨.hbm, 399, rfl⟩
abbrev main_call17_v6 : Ref sig .tc := ⟨.hbm, 400, rfl⟩
abbrev main_call17_v7 : Ref sig .tc := ⟨.hbm, 401, rfl⟩
abbrev main_call17_v8 : Ref sig .tc := ⟨.hbm, 402, rfl⟩
abbrev main_call17_c_2 : Ref sig .tc := ⟨.hbm, 403, rfl⟩
abbrev main_call17_v9 : Ref sig .tc := ⟨.hbm, 404, rfl⟩
abbrev main_call17_v10 : Ref sig .tc := ⟨.hbm, 405, rfl⟩
abbrev main_call17_c_3 : Ref sig .tc := ⟨.hbm, 406, rfl⟩
abbrev main_call17_v11 : Ref sig .tc := ⟨.hbm, 407, rfl⟩
abbrev main_call17_v12 : Ref sig .tc := ⟨.hbm, 408, rfl⟩
abbrev main_call17_v13 : Ref sig .tc := ⟨.hbm, 409, rfl⟩
abbrev main_call17_v14 : Ref sig .tc := ⟨.hbm, 410, rfl⟩
abbrev main_call17_v15 : Ref sig .tc := ⟨.hbm, 411, rfl⟩
abbrev main_call17_v16 : Ref sig .tc := ⟨.hbm, 412, rfl⟩
abbrev main_v17 : Ref sig .tc := ⟨.hbm, 413, rfl⟩
abbrev main_call18_v0 : Ref sig .tc := ⟨.hbm, 414, rfl⟩
abbrev main_call18_v1 : Ref sig .tc := ⟨.hbm, 415, rfl⟩
abbrev main_call18_c : Ref sig .tc := ⟨.hbm, 416, rfl⟩
abbrev main_call18_v2 : Ref sig .tc := ⟨.hbm, 417, rfl⟩
abbrev main_call18_v3 : Ref sig .tc := ⟨.hbm, 418, rfl⟩
abbrev main_call18_c_0 : Ref sig .tc := ⟨.hbm, 419, rfl⟩
abbrev main_call18_v4 : Ref sig .tc := ⟨.hbm, 420, rfl⟩
abbrev main_call18_v5 : Ref sig .tc := ⟨.hbm, 421, rfl⟩
abbrev main_call18_c_1 : Ref sig .tc := ⟨.hbm, 422, rfl⟩
abbrev main_call18_v6 : Ref sig .tc := ⟨.hbm, 423, rfl⟩
abbrev main_call18_v7 : Ref sig .tc := ⟨.hbm, 424, rfl⟩
abbrev main_call18_v8 : Ref sig .tc := ⟨.hbm, 425, rfl⟩
abbrev main_call18_c_2 : Ref sig .tc := ⟨.hbm, 426, rfl⟩
abbrev main_call18_v9 : Ref sig .tc := ⟨.hbm, 427, rfl⟩
abbrev main_call18_v10 : Ref sig .tc := ⟨.hbm, 428, rfl⟩
abbrev main_call18_c_3 : Ref sig .tc := ⟨.hbm, 429, rfl⟩
abbrev main_call18_v11 : Ref sig .tc := ⟨.hbm, 430, rfl⟩
abbrev main_call18_v12 : Ref sig .tc := ⟨.hbm, 431, rfl⟩
abbrev main_call18_v13 : Ref sig .tc := ⟨.hbm, 432, rfl⟩
abbrev main_call18_v14 : Ref sig .tc := ⟨.hbm, 433, rfl⟩
abbrev main_call18_v15 : Ref sig .tc := ⟨.hbm, 434, rfl⟩
abbrev main_call18_v16 : Ref sig .tc := ⟨.hbm, 435, rfl⟩
abbrev main_v18 : Ref sig .tc := ⟨.hbm, 436, rfl⟩
abbrev main_call19_v0 : Ref sig .tc := ⟨.hbm, 437, rfl⟩
abbrev main_call19_v1 : Ref sig .tc := ⟨.hbm, 438, rfl⟩
abbrev main_call19_c : Ref sig .tc := ⟨.hbm, 439, rfl⟩
abbrev main_call19_v2 : Ref sig .tc := ⟨.hbm, 440, rfl⟩
abbrev main_call19_v3 : Ref sig .tc := ⟨.hbm, 441, rfl⟩
abbrev main_call19_c_0 : Ref sig .tc := ⟨.hbm, 442, rfl⟩
abbrev main_call19_v4 : Ref sig .tc := ⟨.hbm, 443, rfl⟩
abbrev main_call19_v5 : Ref sig .tc := ⟨.hbm, 444, rfl⟩
abbrev main_call19_c_1 : Ref sig .tc := ⟨.hbm, 445, rfl⟩
abbrev main_call19_v6 : Ref sig .tc := ⟨.hbm, 446, rfl⟩
abbrev main_call19_v7 : Ref sig .tc := ⟨.hbm, 447, rfl⟩
abbrev main_call19_v8 : Ref sig .tc := ⟨.hbm, 448, rfl⟩
abbrev main_call19_c_2 : Ref sig .tc := ⟨.hbm, 449, rfl⟩
abbrev main_call19_v9 : Ref sig .tc := ⟨.hbm, 450, rfl⟩
abbrev main_call19_v10 : Ref sig .tc := ⟨.hbm, 451, rfl⟩
abbrev main_call19_c_3 : Ref sig .tc := ⟨.hbm, 452, rfl⟩
abbrev main_call19_v11 : Ref sig .tc := ⟨.hbm, 453, rfl⟩
abbrev main_call19_v12 : Ref sig .tc := ⟨.hbm, 454, rfl⟩
abbrev main_call19_v13 : Ref sig .tc := ⟨.hbm, 455, rfl⟩
abbrev main_call19_v14 : Ref sig .tc := ⟨.hbm, 456, rfl⟩
abbrev main_call19_v15 : Ref sig .tc := ⟨.hbm, 457, rfl⟩
abbrev main_call19_v16 : Ref sig .tc := ⟨.hbm, 458, rfl⟩
abbrev main_v19 : Ref sig .tc := ⟨.hbm, 459, rfl⟩
abbrev main_call20_v0 : Ref sig .tc := ⟨.hbm, 460, rfl⟩
abbrev main_call20_v1 : Ref sig .tc := ⟨.hbm, 461, rfl⟩
abbrev main_call20_c : Ref sig .tc := ⟨.hbm, 462, rfl⟩
abbrev main_call20_v2 : Ref sig .tc := ⟨.hbm, 463, rfl⟩
abbrev main_call20_v3 : Ref sig .tc := ⟨.hbm, 464, rfl⟩
abbrev main_call20_c_0 : Ref sig .tc := ⟨.hbm, 465, rfl⟩
abbrev main_call20_v4 : Ref sig .tc := ⟨.hbm, 466, rfl⟩
abbrev main_call20_v5 : Ref sig .tc := ⟨.hbm, 467, rfl⟩
abbrev main_call20_c_1 : Ref sig .tc := ⟨.hbm, 468, rfl⟩
abbrev main_call20_v6 : Ref sig .tc := ⟨.hbm, 469, rfl⟩
abbrev main_call20_v7 : Ref sig .tc := ⟨.hbm, 470, rfl⟩
abbrev main_call20_v8 : Ref sig .tc := ⟨.hbm, 471, rfl⟩
abbrev main_call20_c_2 : Ref sig .tc := ⟨.hbm, 472, rfl⟩
abbrev main_call20_v9 : Ref sig .tc := ⟨.hbm, 473, rfl⟩
abbrev main_call20_v10 : Ref sig .tc := ⟨.hbm, 474, rfl⟩
abbrev main_call20_c_3 : Ref sig .tc := ⟨.hbm, 475, rfl⟩
abbrev main_call20_v11 : Ref sig .tc := ⟨.hbm, 476, rfl⟩
abbrev main_call20_v12 : Ref sig .tc := ⟨.hbm, 477, rfl⟩
abbrev main_call20_v13 : Ref sig .tc := ⟨.hbm, 478, rfl⟩
abbrev main_call20_v14 : Ref sig .tc := ⟨.hbm, 479, rfl⟩
abbrev main_call20_v15 : Ref sig .tc := ⟨.hbm, 480, rfl⟩
abbrev main_call20_v16 : Ref sig .tc := ⟨.hbm, 481, rfl⟩
abbrev main_v20 : Ref sig .tc := ⟨.hbm, 482, rfl⟩
abbrev main_call21_v0 : Ref sig .tc := ⟨.hbm, 483, rfl⟩
abbrev main_call21_v1 : Ref sig .tc := ⟨.hbm, 484, rfl⟩
abbrev main_call21_c : Ref sig .tc := ⟨.hbm, 485, rfl⟩
abbrev main_call21_v2 : Ref sig .tc := ⟨.hbm, 486, rfl⟩
abbrev main_call21_v3 : Ref sig .tc := ⟨.hbm, 487, rfl⟩
abbrev main_call21_c_0 : Ref sig .tc := ⟨.hbm, 488, rfl⟩
abbrev main_call21_v4 : Ref sig .tc := ⟨.hbm, 489, rfl⟩
abbrev main_call21_v5 : Ref sig .tc := ⟨.hbm, 490, rfl⟩
abbrev main_call21_c_1 : Ref sig .tc := ⟨.hbm, 491, rfl⟩
abbrev main_call21_v6 : Ref sig .tc := ⟨.hbm, 492, rfl⟩
abbrev main_call21_v7 : Ref sig .tc := ⟨.hbm, 493, rfl⟩
abbrev main_call21_v8 : Ref sig .tc := ⟨.hbm, 494, rfl⟩
abbrev main_call21_c_2 : Ref sig .tc := ⟨.hbm, 495, rfl⟩
abbrev main_call21_v9 : Ref sig .tc := ⟨.hbm, 496, rfl⟩
abbrev main_call21_v10 : Ref sig .tc := ⟨.hbm, 497, rfl⟩
abbrev main_call21_c_3 : Ref sig .tc := ⟨.hbm, 498, rfl⟩
abbrev main_call21_v11 : Ref sig .tc := ⟨.hbm, 499, rfl⟩
abbrev main_call21_v12 : Ref sig .tc := ⟨.hbm, 500, rfl⟩
abbrev main_call21_v13 : Ref sig .tc := ⟨.hbm, 501, rfl⟩
abbrev main_call21_v14 : Ref sig .tc := ⟨.hbm, 502, rfl⟩
abbrev main_call21_v15 : Ref sig .tc := ⟨.hbm, 503, rfl⟩
abbrev main_call21_v16 : Ref sig .tc := ⟨.hbm, 504, rfl⟩
abbrev main_v21 : Ref sig .tc := ⟨.hbm, 505, rfl⟩
abbrev main_call22_v0 : Ref sig .tc := ⟨.hbm, 506, rfl⟩
abbrev main_call22_v1 : Ref sig .tc := ⟨.hbm, 507, rfl⟩
abbrev main_call22_c : Ref sig .tc := ⟨.hbm, 508, rfl⟩
abbrev main_call22_v2 : Ref sig .tc := ⟨.hbm, 509, rfl⟩
abbrev main_call22_v3 : Ref sig .tc := ⟨.hbm, 510, rfl⟩
abbrev main_call22_c_0 : Ref sig .tc := ⟨.hbm, 511, rfl⟩
abbrev main_call22_v4 : Ref sig .tc := ⟨.hbm, 512, rfl⟩
abbrev main_call22_v5 : Ref sig .tc := ⟨.hbm, 513, rfl⟩
abbrev main_call22_c_1 : Ref sig .tc := ⟨.hbm, 514, rfl⟩
abbrev main_call22_v6 : Ref sig .tc := ⟨.hbm, 515, rfl⟩
abbrev main_call22_v7 : Ref sig .tc := ⟨.hbm, 516, rfl⟩
abbrev main_call22_v8 : Ref sig .tc := ⟨.hbm, 517, rfl⟩
abbrev main_call22_c_2 : Ref sig .tc := ⟨.hbm, 518, rfl⟩
abbrev main_call22_v9 : Ref sig .tc := ⟨.hbm, 519, rfl⟩
abbrev main_call22_v10 : Ref sig .tc := ⟨.hbm, 520, rfl⟩
abbrev main_call22_c_3 : Ref sig .tc := ⟨.hbm, 521, rfl⟩
abbrev main_call22_v11 : Ref sig .tc := ⟨.hbm, 522, rfl⟩
abbrev main_call22_v12 : Ref sig .tc := ⟨.hbm, 523, rfl⟩
abbrev main_call22_v13 : Ref sig .tc := ⟨.hbm, 524, rfl⟩
abbrev main_call22_v14 : Ref sig .tc := ⟨.hbm, 525, rfl⟩
abbrev main_call22_v15 : Ref sig .tc := ⟨.hbm, 526, rfl⟩
abbrev main_call22_v16 : Ref sig .tc := ⟨.hbm, 527, rfl⟩
abbrev main_v22 : Ref sig .tc := ⟨.hbm, 528, rfl⟩
abbrev main_call23_v0 : Ref sig .tc := ⟨.hbm, 529, rfl⟩
abbrev main_call23_v1 : Ref sig .tc := ⟨.hbm, 530, rfl⟩
abbrev main_call23_c : Ref sig .tc := ⟨.hbm, 531, rfl⟩
abbrev main_call23_v2 : Ref sig .tc := ⟨.hbm, 532, rfl⟩
abbrev main_call23_v3 : Ref sig .tc := ⟨.hbm, 533, rfl⟩
abbrev main_call23_c_0 : Ref sig .tc := ⟨.hbm, 534, rfl⟩
abbrev main_call23_v4 : Ref sig .tc := ⟨.hbm, 535, rfl⟩
abbrev main_call23_v5 : Ref sig .tc := ⟨.hbm, 536, rfl⟩
abbrev main_call23_c_1 : Ref sig .tc := ⟨.hbm, 537, rfl⟩
abbrev main_call23_v6 : Ref sig .tc := ⟨.hbm, 538, rfl⟩
abbrev main_call23_v7 : Ref sig .tc := ⟨.hbm, 539, rfl⟩
abbrev main_call23_v8 : Ref sig .tc := ⟨.hbm, 540, rfl⟩
abbrev main_call23_c_2 : Ref sig .tc := ⟨.hbm, 541, rfl⟩
abbrev main_call23_v9 : Ref sig .tc := ⟨.hbm, 542, rfl⟩
abbrev main_call23_v10 : Ref sig .tc := ⟨.hbm, 543, rfl⟩
abbrev main_call23_c_3 : Ref sig .tc := ⟨.hbm, 544, rfl⟩
abbrev main_call23_v11 : Ref sig .tc := ⟨.hbm, 545, rfl⟩
abbrev main_call23_v12 : Ref sig .tc := ⟨.hbm, 546, rfl⟩
abbrev main_call23_v13 : Ref sig .tc := ⟨.hbm, 547, rfl⟩
abbrev main_call23_v14 : Ref sig .tc := ⟨.hbm, 548, rfl⟩
abbrev main_call23_v15 : Ref sig .tc := ⟨.hbm, 549, rfl⟩
abbrev main_call23_v16 : Ref sig .tc := ⟨.hbm, 550, rfl⟩
abbrev main_v23 : Ref sig .tc := ⟨.hbm, 551, rfl⟩
abbrev main_call24_v0 : Ref sig .tc := ⟨.hbm, 552, rfl⟩
abbrev main_call24_v1 : Ref sig .tc := ⟨.hbm, 553, rfl⟩
abbrev main_call24_c : Ref sig .tc := ⟨.hbm, 554, rfl⟩
abbrev main_call24_v2 : Ref sig .tc := ⟨.hbm, 555, rfl⟩
abbrev main_call24_v3 : Ref sig .tc := ⟨.hbm, 556, rfl⟩
abbrev main_call24_c_0 : Ref sig .tc := ⟨.hbm, 557, rfl⟩
abbrev main_call24_v4 : Ref sig .tc := ⟨.hbm, 558, rfl⟩
abbrev main_call24_v5 : Ref sig .tc := ⟨.hbm, 559, rfl⟩
abbrev main_call24_c_1 : Ref sig .tc := ⟨.hbm, 560, rfl⟩
abbrev main_call24_v6 : Ref sig .tc := ⟨.hbm, 561, rfl⟩
abbrev main_call24_v7 : Ref sig .tc := ⟨.hbm, 562, rfl⟩
abbrev main_call24_v8 : Ref sig .tc := ⟨.hbm, 563, rfl⟩
abbrev main_call24_c_2 : Ref sig .tc := ⟨.hbm, 564, rfl⟩
abbrev main_call24_v9 : Ref sig .tc := ⟨.hbm, 565, rfl⟩
abbrev main_call24_v10 : Ref sig .tc := ⟨.hbm, 566, rfl⟩
abbrev main_call24_c_3 : Ref sig .tc := ⟨.hbm, 567, rfl⟩
abbrev main_call24_v11 : Ref sig .tc := ⟨.hbm, 568, rfl⟩
abbrev main_call24_v12 : Ref sig .tc := ⟨.hbm, 569, rfl⟩
abbrev main_call24_v13 : Ref sig .tc := ⟨.hbm, 570, rfl⟩
abbrev main_call24_v14 : Ref sig .tc := ⟨.hbm, 571, rfl⟩
abbrev main_call24_v15 : Ref sig .tc := ⟨.hbm, 572, rfl⟩
abbrev main_call24_v16 : Ref sig .tc := ⟨.hbm, 573, rfl⟩
abbrev main_v24 : Ref sig .tc := ⟨.hbm, 574, rfl⟩
abbrev main_v25 : Ref sig .tc := ⟨.hbm, 575, rfl⟩
abbrev main_v26 : Ref sig .tc := ⟨.hbm, 576, rfl⟩
abbrev main_v27 : Ref sig .tc := ⟨.hbm, 577, rfl⟩
abbrev main_v28 : Ref sig .tc := ⟨.hbm, 578, rfl⟩
abbrev main_v29 : Ref sig .tc := ⟨.hbm, 579, rfl⟩
abbrev main_v30 : Ref sig .tc := ⟨.hbm, 580, rfl⟩
abbrev main_v31 : Ref sig .tc := ⟨.hbm, 581, rfl⟩
abbrev main_v32 : Ref sig .tc := ⟨.hbm, 582, rfl⟩
abbrev main_v33 : Ref sig .tc := ⟨.hbm, 583, rfl⟩
abbrev main_v34 : Ref sig .tc := ⟨.hbm, 584, rfl⟩
abbrev main_v35 : Ref sig .tc := ⟨.hbm, 585, rfl⟩
abbrev main_v36 : Ref sig .tc := ⟨.hbm, 586, rfl⟩
abbrev main_v37 : Ref sig .tc := ⟨.hbm, 587, rfl⟩
abbrev main_v38 : Ref sig .tc := ⟨.hbm, 588, rfl⟩
abbrev main_v39 : Ref sig .tc := ⟨.hbm, 589, rfl⟩
abbrev main_v40 : Ref sig .tc := ⟨.hbm, 590, rfl⟩
abbrev main_v41 : Ref sig .tc := ⟨.hbm, 591, rfl⟩
abbrev main_v42 : Ref sig .tc := ⟨.hbm, 592, rfl⟩
abbrev main_v43 : Ref sig .tc := ⟨.hbm, 593, rfl⟩
abbrev main_v44 : Ref sig .tc := ⟨.hbm, 594, rfl⟩
abbrev main_v45 : Ref sig .tc := ⟨.hbm, 595, rfl⟩
abbrev main_v46 : Ref sig .tc := ⟨.hbm, 596, rfl⟩
abbrev main_v47 : Ref sig .tc := ⟨.hbm, 597, rfl⟩
abbrev main_v48 : Ref sig .tc := ⟨.hbm, 598, rfl⟩
abbrev main_v49 : Ref sig .tc := ⟨.hbm, 599, rfl⟩
abbrev main_v50 : Ref sig .tc := ⟨.hbm, 600, rfl⟩
abbrev main_v51 : Ref sig .tc := ⟨.hbm, 601, rfl⟩
abbrev main_v52 : Ref sig .tc := ⟨.hbm, 602, rfl⟩
abbrev main_v53 : Ref sig .tc := ⟨.hbm, 603, rfl⟩
abbrev main_v54 : Ref sig .tc := ⟨.hbm, 604, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) (c0_i32_1 : BitVec 32) : Fin 3 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v6 : BitVec 32 := Scalar.addi v4 c0_i32_1
  let v7 : Index := Scalar.indexCast v6
  let c0_2 : Index := 0#32
  ![0, v7.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x25 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  concatenates_S4096x1_S4096x1_S4096x1_S4096x1_S4096x1_S4096x1_S4096x1_S4096x1_S4096x1_S4096x1_S4096x1_S4096x1_S4096x1_S4096x1_S4096x1_S4096x1_S4096x16_d1 : Shape.Concatenates [S4096x1, S4096x1, S4096x1, S4096x1, S4096x1, S4096x1, S4096x1, S4096x1, S4096x1, S4096x1, S4096x1, S4096x1, S4096x1, S4096x1, S4096x1, S4096x1] S4096x16 1
  concatenates_S4096x1_S4096x1_S4096x1_S4096x1_S4096x1_S4096x1_S4096x1_S4096x1_S4096x1_S4096x9_d1 : Shape.Concatenates [S4096x1, S4096x1, S4096x1, S4096x1, S4096x1, S4096x1, S4096x1, S4096x1, S4096x1] S4096x9 1
  concatenates_S4096x16_S4096x9_S4096x25_d1 : Shape.Concatenates [S4096x16, S4096x9] S4096x25 1
  shapeCasts_S4096_S4096x1 : S4096.ShapeCasts S4096x1
  inb_S4x4096x64_S4x12x64_0_0_0 : ∀ a, (![0, 0, 0] : Fin 3 → Nat) a + S4x12x64.size a ≤ S4x4096x64.size a
  h_S4x12x64 : 0 < S4x12x64.numel
  inb_S4x4120x64_S4x12x64_0_0_0 : ∀ a, (![0, 0, 0] : Fin 3 → Nat) a + S4x12x64.size a ≤ S4x4120x64.size a
  shapeCasts_S4x12x64_S4x12x64 : S4x12x64.ShapeCasts S4x12x64
  inb_S4x4096x64_S4x4096x64_0_0_0 : ∀ a, (![0, 0, 0] : Fin 3 → Nat) a + S4x4096x64.size a ≤ S4x4096x64.size a
  h_S4x4096x64 : 0 < S4x4096x64.numel
  inb_S4x4120x64_S4x4096x64_0_12_0 : ∀ a, (![0, 12, 0] : Fin 3 → Nat) a + S4x4096x64.size a ≤ S4x4120x64.size a
  shapeCasts_S4x4096x64_S4x4096x64 : S4x4096x64.ShapeCasts S4x4096x64
  inb_S4x4096x64_S4x12x64_0_4084_0 : ∀ a, (![0, 4084, 0] : Fin 3 → Nat) a + S4x12x64.size a ≤ S4x4096x64.size a
  inb_S4x4120x64_S4x12x64_0_4108_0 : ∀ a, (![0, 4108, 0] : Fin 3 → Nat) a + S4x12x64.size a ≤ S4x4120x64.size a
  h_S4x1024x64 : 0 < S4x1024x64.numel
  inb_S1024x25_S1024x1_0_0 : ∀ a, (![0, 0] : Fin 2 → Nat) a + S1024x1.size a ≤ S1024x25.size a
  h_S1024x1 : 0 < S1024x1.numel
  shapeCasts_S1024x1_S1024 : S1024x1.ShapeCasts S1024
  shapeCasts_S1024_S1x1024x1 : S1024.ShapeCasts S1x1024x1
  broadcasts_S1x1024x1_S4x1024x64 : S1x1024x1.Broadcasts S4x1024x64
  inb_S1024x25_S1024x1_0_1 : ∀ a, (![0, 1] : Fin 2 → Nat) a + S1024x1.size a ≤ S1024x25.size a
  inb_S1024x25_S1024x1_0_2 : ∀ a, (![0, 2] : Fin 2 → Nat) a + S1024x1.size a ≤ S1024x25.size a
  inb_S1024x25_S1024x1_0_3 : ∀ a, (![0, 3] : Fin 2 → Nat) a + S1024x1.size a ≤ S1024x25.size a
  inb_S1024x25_S1024x1_0_4 : ∀ a, (![0, 4] : Fin 2 → Nat) a + S1024x1.size a ≤ S1024x25.size a
  inb_S1024x25_S1024x1_0_5 : ∀ a, (![0, 5] : Fin 2 → Nat) a + S1024x1.size a ≤ S1024x25.size a
  inb_S1024x25_S1024x1_0_6 : ∀ a, (![0, 6] : Fin 2 → Nat) a + S1024x1.size a ≤ S1024x25.size a
  inb_S1024x25_S1024x1_0_7 : ∀ a, (![0, 7] : Fin 2 → Nat) a + S1024x1.size a ≤ S1024x25.size a
  inb_S1024x25_S1024x1_0_8 : ∀ a, (![0, 8] : Fin 2 → Nat) a + S1024x1.size a ≤ S1024x25.size a
  inb_S1024x25_S1024x1_0_9 : ∀ a, (![0, 9] : Fin 2 → Nat) a + S1024x1.size a ≤ S1024x25.size a
  inb_S1024x25_S1024x1_0_10 : ∀ a, (![0, 10] : Fin 2 → Nat) a + S1024x1.size a ≤ S1024x25.size a
  inb_S1024x25_S1024x1_0_11 : ∀ a, (![0, 11] : Fin 2 → Nat) a + S1024x1.size a ≤ S1024x25.size a
  inb_S1024x25_S1024x1_0_12 : ∀ a, (![0, 12] : Fin 2 → Nat) a + S1024x1.size a ≤ S1024x25.size a
  inb_S1024x25_S1024x1_0_13 : ∀ a, (![0, 13] : Fin 2 → Nat) a + S1024x1.size a ≤ S1024x25.size a
  inb_S1024x25_S1024x1_0_14 : ∀ a, (![0, 14] : Fin 2 → Nat) a + S1024x1.size a ≤ S1024x25.size a
  inb_S1024x25_S1024x1_0_15 : ∀ a, (![0, 15] : Fin 2 → Nat) a + S1024x1.size a ≤ S1024x25.size a
  inb_S1024x25_S1024x1_0_16 : ∀ a, (![0, 16] : Fin 2 → Nat) a + S1024x1.size a ≤ S1024x25.size a
  inb_S1024x25_S1024x1_0_17 : ∀ a, (![0, 17] : Fin 2 → Nat) a + S1024x1.size a ≤ S1024x25.size a
  inb_S1024x25_S1024x1_0_18 : ∀ a, (![0, 18] : Fin 2 → Nat) a + S1024x1.size a ≤ S1024x25.size a
  inb_S1024x25_S1024x1_0_19 : ∀ a, (![0, 19] : Fin 2 → Nat) a + S1024x1.size a ≤ S1024x25.size a
  inb_S1024x25_S1024x1_0_20 : ∀ a, (![0, 20] : Fin 2 → Nat) a + S1024x1.size a ≤ S1024x25.size a
  inb_S1024x25_S1024x1_0_21 : ∀ a, (![0, 21] : Fin 2 → Nat) a + S1024x1.size a ≤ S1024x25.size a
  inb_S1024x25_S1024x1_0_22 : ∀ a, (![0, 22] : Fin 2 → Nat) a + S1024x1.size a ≤ S1024x25.size a
  inb_S1024x25_S1024x1_0_23 : ∀ a, (![0, 23] : Fin 2 → Nat) a + S1024x1.size a ≤ S1024x25.size a
  inb_S1024x25_S1024x1_0_24 : ∀ a, (![0, 24] : Fin 2 → Nat) a + S1024x1.size a ≤ S1024x25.size a
  inb_S1024x1_S1024x1_0_0 : ∀ a, (![0, 0] : Fin 2 → Nat) a + S1024x1.size a ≤ S1024x1.size a
  inb_S4x1024x64_S4x1024x64_0_0_0 : ∀ a, (![0, 0, 0] : Fin 3 → Nat) a + S4x1024x64.size a ≤ S4x1024x64.size a
  gather_S4096x4120_S4096x2_S4096_n_01_n_n_01_1_11_wf : GatherDims.WF S4096x4120 S4096x2 S4096 [] [0, 1] [] [0, 1] [] 1 ![1, 1]
  hrank0 : 0 < grid0.rank
  k0_mult1_dvd : ∀ i : grid0.Coords, 1024 ∣ (k0_mult1 i).toNat
  k0_off1_inb : ∀ i : grid0.Coords, ∀ (r : Fin 25), ∀ a, (k0_off1 i (BitVec.ofNat 32 r.val)) a + S4x1024x64.size a ≤ S4x4120x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096x64.size a ≤ S32x4096x64.size a
  hwx0_0 : ∀ i : grid0.Coords, EltTy.bits .f32 = 32 ∨ (Rect.block (s := S32x4096x64) S4x4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x25.size a ≤ S4096x25.size a
  hwx0_1 : ∀ i : grid0.Coords, EltTy.bits .f32 = 32 ∨ (Rect.block (s := S4096x25) S1024x25.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1024x64.size a ≤ S32x4096x64.size a
  hwx0_3 : ∀ i : grid0.Coords, EltTy.bits .f32 = 32 ∨ (Rect.block (s := S32x4096x64) S4x1024x64.size (cc0_transform_3 i) (hinb0_3 i)).WholeWords (EltTy.packing .f32)

variable [Facts₀]

def gather_S4096x4120_S4096x2_S4096_n_01_n_n_01_1_11 : GatherDims S4096x4120 S4096x2 S4096 where
  offsetDims := []
  collapsedSliceDims := [0, 1]
  operandBatchingDims := []
  startIndicesBatchingDims := []
  startIndexMap := [0, 1]
  indexVectorDim := 1
  sliceSizes := ![1, 1]
  wf := gather_S4096x4120_S4096x2_S4096_n_01_n_n_01_1_11_wf

abbrev win0_0 : Pipeline.Window sig grid0 :=
  Pipeline.Window.ofSpec (Memref.whole main_arg0) S4x4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1024x25.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S4x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096x64 : Shape := ⟨3, ![32, 4096, 64]⟩
abbrev S4096x4120 : Shape := ⟨2, ![4096, 4120]⟩
abbrev S4096 : Shape := ⟨1, ![4096]⟩
abbrev S32x64x4096 : Shape := ⟨3, ![32, 64, 4096]⟩
abbrev S32x64x12 : Shape := ⟨3, ![32, 64, 12]⟩
abbrev S32x64x4120 : Shape := ⟨3, ![32, 64, 4120]⟩
abbrev S4096x1 : Shape := ⟨2, ![4096, 1]⟩
abbrev S_ : Shape := ⟨0, ![]⟩
abbrev S4120 : Shape := ⟨1, ![4120]⟩
abbrev S1x4120 : Shape := ⟨2, ![1, 4120]⟩
abbrev S1x1x4096 : Shape := ⟨3, ![1, 1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S32x4096x64, .f32⟩
  | .hbm, ⟨1, _⟩ => ⟨S4096x4120, .f32⟩
  | .hbm, ⟨2, _⟩ => ⟨S4096, .f32⟩
  | .hbm, ⟨3, _⟩ => ⟨S32x64x4096, .f32⟩
  | .hbm, ⟨4, _⟩ => ⟨S32x64x12, .f32⟩
  | .hbm, ⟨5, _⟩ => ⟨S32x64x12, .f32⟩
  | .hbm, ⟨6, _⟩ => ⟨S32x64x4120, .f32⟩
  | .hbm, ⟨7, _⟩ => ⟨S4096, .i32⟩
  | .hbm, ⟨8, _⟩ => ⟨S4096x1, .i32⟩
  | .hbm, ⟨9, _⟩ => ⟨S_, .i32⟩
  | .hbm, ⟨10, _⟩ => ⟨S4096x1, .i32⟩
  | .hbm, ⟨11, _⟩ => ⟨S4096x1, .i32⟩
  | .hbm, ⟨12, _⟩ => ⟨S4120, .i32⟩
  | .hbm, ⟨13, _⟩ => ⟨S1x4120, .i32⟩
  | .hbm, ⟨14, _⟩ => ⟨S4096x4120, .i32⟩
  | .hbm, ⟨15, _⟩ => ⟨S4096x4120, .i32⟩
  | .hbm, ⟨16, _⟩ => ⟨S4096x4120, .i1⟩
  | .hbm, ⟨17, _⟩ => ⟨S_, .i32⟩
  | .hbm, ⟨18, _⟩ => ⟨S4096x1, .i32⟩
  | .hbm, ⟨19, _⟩ => ⟨S4096x1, .i32⟩
  | .hbm, ⟨20, _⟩ => ⟨S4096x4120, .i32⟩
  | .hbm, ⟨21, _⟩ => ⟨S4096x4120, .i32⟩
  | .hbm, ⟨22, _⟩ => ⟨S4096x4120, .i1⟩
  | .hbm, ⟨23, _⟩ => ⟨S4096x4120, .i1⟩
  | .hbm, ⟨24, _⟩ => ⟨S4096x4120, .f32⟩
  | .hbm, ⟨25, _⟩ => ⟨S4096x4120, .f32⟩
  | .hbm, ⟨26, _⟩ => ⟨S32x64x4096, .f32⟩
  | .hbm, ⟨27, _⟩ => ⟨S1x1x4096, .f32⟩
  | .hbm, ⟨28, _⟩ => ⟨S32x64x4096, .f32⟩
  | .hbm, ⟨29, _⟩ => ⟨S32x64x4096, .f32⟩
  | .hbm, ⟨30, _⟩ => ⟨S32x4096x64, .f32⟩
  | _, _ => ⟨S32x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]

class Facts₀ : Prop where
  transposes_S32x4096x64_S32x64x4096_0_2_1 : S32x4096x64.Transposes [0, 2, 1] S32x64x4096
  slices_S32x64x4096_S32x64x12_0_0_0 : S32x64x4096.Slices ![0, 0, 0] S32x64x12
  slices_S32x64x4096_S32x64x12_0_0_4084 : S32x64x4096.Slices ![0, 0, 4084] S32x64x12
  concatenates_S32x64x12_S32x64x4096_S32x64x12_S32x64x4120_d2 : Shape.Concatenates [S32x64x12, S32x64x4096, S32x64x12] S32x64x4120 2
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4120_S1x4120_1 : S4120.BroadcastsInDim S1x4120 (![1] : Fin 1 → Fin S1x4120.rank)
  bcast_S1x4120_S4096x4120_0_1 : S1x4120.BroadcastsInDim S4096x4120 (![0, 1] : Fin 2 → Fin S4096x4120.rank)
  bcast_S4096x1_S4096x4120_0_1 : S4096x1.BroadcastsInDim S4096x4120 (![0, 1] : Fin 2 → Fin S4096x4120.rank)
  bcast_S4096_S1x1x4096_2 : S4096.BroadcastsInDim S1x1x4096 (![2] : Fin 1 → Fin S1x1x4096.rank)
  bcast_S1x1x4096_S32x64x4096_0_1_2 : S1x1x4096.BroadcastsInDim S32x64x4096 (![0, 1, 2] : Fin 3 → Fin S32x64x4096.rank)
  transposes_S32x64x4096_S32x4096x64_0_2_1 : S32x64x4096.Transposes [0, 2, 1] S32x4096x64
  dot_S32x64x4120_S4096x4120_S32x64x4096_2_1_01_0_n_n_wf : DotDims.WF S32x64x4120 S4096x4120 S32x64x4096 [2] [1] [0, 1] [0] [] []

variable [Facts₀]

def dot_S32x64x4120_S4096x4120_S32x64x4096_2_1_01_0_n_n : DotDims S32x64x4120 S4096x4120 S32x64x4096 where
  lhsContracting := [2]
  rhsContracting := [1]
  lhsNonContracting := [0, 1]
  rhsNonContracting := [0]
  lhsBatch := []
  rhsBatch := []
  wf := dot_S32x64x4120_S4096x4120_S32x64x4096_2_1_01_0_n_n_wf

class Facts : Prop extends Facts₀ where

variable [Facts]
-- ==== Proof.BitsEntry.lean ====
/-
  The program up to its one region. Before the region the host computes the 25 generalized diagonals
  W[o, o+k] (k = 0..24) of the weight matrix, lays them side by side as a 4096 x 25 band, and reshapes the
  bias to a column; none of these lines writes an argument. The region then runs over an 8 x 4 grid: the
  first coordinate picks four batches, the second a tile of 1024 output rows. A scratch buffer holds the
  four batches' sequence with its first and last 12 rows repeated at the ends (4120 rows); it is filled at
  the first row tile of each batch group and read at all four.
-/
import proofs.«139231_j10806137717199_2_alg».proof.Proof.Gen.Kernel.Launch
import proofs.«139231_j10806137717199_2_alg».proof.Proof.Gen.Kernel.Skeleton
import proofs.«139231_j10806137717199_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s TensorCore buffers when the region is entered: after the 26 lines of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25]) (fun b => m (c, b)) b

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
theorem fresh0_6 : (hostOps0_6 : List (HloOp τ sig (Elt F))).Forall fun op => op.fresh = ∅ := by
  simp only [List.Forall]; repeat' constructor
theorem fresh0_7 : (hostOps0_7 : List (HloOp τ sig (Elt F))).Forall fun op => op.fresh = ∅ := by
  simp only [List.Forall]; repeat' constructor
theorem fresh0_8 : (hostOps0_8 : List (HloOp τ sig (Elt F))).Forall fun op => op.fresh = ∅ := by
  simp only [List.Forall]; repeat' constructor
theorem fresh0_9 : (hostOps0_9 : List (HloOp τ sig (Elt F))).Forall fun op => op.fresh = ∅ := by
  simp only [List.Forall]; repeat' constructor
theorem fresh0_10 : (hostOps0_10 : List (HloOp τ sig (Elt F))).Forall fun op => op.fresh = ∅ := by
  simp only [List.Forall]; repeat' constructor
theorem fresh0_11 : (hostOps0_11 : List (HloOp τ sig (Elt F))).Forall fun op => op.fresh = ∅ := by
  simp only [List.Forall]; repeat' constructor
theorem fresh0_12 : (hostOps0_12 : List (HloOp τ sig (Elt F))).Forall fun op => op.fresh = ∅ := by
  simp only [List.Forall]; repeat' constructor
theorem fresh0_13 : (hostOps0_13 : List (HloOp τ sig (Elt F))).Forall fun op => op.fresh = ∅ := by
  simp only [List.Forall]; repeat' constructor
theorem fresh0_14 : (hostOps0_14 : List (HloOp τ sig (Elt F))).Forall fun op => op.fresh = ∅ := by
  simp only [List.Forall]; repeat' constructor
theorem fresh0_15 : (hostOps0_15 : List (HloOp τ sig (Elt F))).Forall fun op => op.fresh = ∅ := by
  simp only [List.Forall]; repeat' constructor
theorem fresh0_16 : (hostOps0_16 : List (HloOp τ sig (Elt F))).Forall fun op => op.fresh = ∅ := by
  simp only [List.Forall]; repeat' constructor
theorem fresh0_17 : (hostOps0_17 : List (HloOp τ sig (Elt F))).Forall fun op => op.fresh = ∅ := by
  simp only [List.Forall]; repeat' constructor
theorem fresh0_18 : (hostOps0_18 : List (HloOp τ sig (Elt F))).Forall fun op => op.fresh = ∅ := by
  simp only [List.Forall]; repeat' constructor
theorem fresh0_19 : (hostOps0_19 : List (HloOp τ sig (Elt F))).Forall fun op => op.fresh = ∅ := by
  simp only [List.Forall]; repeat' constructor
theorem fresh0_20 : (hostOps0_20 : List (HloOp τ sig (Elt F))).Forall fun op => op.fresh = ∅ := by
  simp only [List.Forall]; repeat' constructor
theorem fresh0_21 : (hostOps0_21 : List (HloOp τ sig (Elt F))).Forall fun op => op.fresh = ∅ := by
  simp only [List.Forall]; repeat' constructor
theorem fresh0_22 : (hostOps0_22 : List (HloOp τ sig (Elt F))).Forall fun op => op.fresh = ∅ := by
  simp only [List.Forall]; repeat' constructor
theorem fresh0_23 : (hostOps0_23 : List (HloOp τ sig (Elt F))).Forall fun op => op.fresh = ∅ := by
  simp only [List.Forall]; repeat' constructor
theorem fresh0_24 : (hostOps0_24 : List (HloOp τ sig (Elt F))).Forall fun op => op.fresh = ∅ := by
  simp only [List.Forall]; repeat' constructor
theorem fresh0_25 : (hostOps0_25 : List (HloOp τ sig (Elt F))).Forall fun op => op.fresh = ∅ := by
  simp only [List.Forall]; repeat' constructor

/-- @main is the host lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub⟩)
    (by simp only [List.Forall]; exact ⟨fresh0, fresh0_1, fresh0_2, fresh0_3, fresh0_4, fresh0_5, fresh0_6, fresh0_7, fresh0_8, fresh0_9, fresh0_10, fresh0_11, fresh0_12, fresh0_13, fresh0_14, fresh0_15, fresh0_16, fresh0_17, fresh0_18, fresh0_19, fresh0_20, fresh0_21, fresh0_22, fresh0_23, fresh0_24, fresh0_25⟩) main_chain

/-! ## No host line writes an argument -/

theorem keeps0 : ∀ op ∈ (hostOps0 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_1 : ∀ op ∈ (hostOps0_1 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_2 : ∀ op ∈ (hostOps0_2 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_3 : ∀ op ∈ (hostOps0_3 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_4 : ∀ op ∈ (hostOps0_4 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_5 : ∀ op ∈ (hostOps0_5 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_6 : ∀ op ∈ (hostOps0_6 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_7 : ∀ op ∈ (hostOps0_7 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_8 : ∀ op ∈ (hostOps0_8 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_9 : ∀ op ∈ (hostOps0_9 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_10 : ∀ op ∈ (hostOps0_10 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_10, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_11 : ∀ op ∈ (hostOps0_11 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_11, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_12 : ∀ op ∈ (hostOps0_12 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_12, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_13 : ∀ op ∈ (hostOps0_13 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_13, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_14 : ∀ op ∈ (hostOps0_14 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_14, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_15 : ∀ op ∈ (hostOps0_15 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_15, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_16 : ∀ op ∈ (hostOps0_16 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_16, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_17 : ∀ op ∈ (hostOps0_17 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_17, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_18 : ∀ op ∈ (hostOps0_18 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_18, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_19 : ∀ op ∈ (hostOps0_19 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_19, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_20 : ∀ op ∈ (hostOps0_20 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_20, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_21 : ∀ op ∈ (hostOps0_21 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_21, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_22 : ∀ op ∈ (hostOps0_22 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_22, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_23 : ∀ op ∈ (hostOps0_23 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_23, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_24 : ∀ op ∈ (hostOps0_24 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_24, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_25 : ∀ op ∈ (hostOps0_25 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_25, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- An operation of any of the host lines writes none of the three arguments. -/
theorem keeps_all : ∀ op ∈ (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25] : List (HloOp τ sig (Elt F))),
    Proc.devRef .tc main_arg0 ∉ op.writes ∧ Proc.devRef .tc main_arg1 ∉ op.writes ∧ Proc.devRef .tc main_arg2 ∉ op.writes := by
  intro op hop
  obtain ⟨l, hl, hol⟩ := List.mem_flatten.mp hop
  simp only [List.mem_cons, List.mem_nil_iff, or_false] at hl
  rcases hl with rfl | rfl | rfl | rfl | rfl | rfl | rfl | rfl | rfl | rfl | rfl | rfl | rfl | rfl | rfl | rfl | rfl | rfl | rfl | rfl | rfl | rfl | rfl | rfl | rfl | rfl
  · exact keeps0 op hol
  · exact keeps0_1 op hol
  · exact keeps0_2 op hol
  · exact keeps0_3 op hol
  · exact keeps0_4 op hol
  · exact keeps0_5 op hol
  · exact keeps0_6 op hol
  · exact keeps0_7 op hol
  · exact keeps0_8 op hol
  · exact keeps0_9 op hol
  · exact keeps0_10 op hol
  · exact keeps0_11 op hol
  · exact keeps0_12 op hol
  · exact keeps0_13 op hol
  · exact keeps0_14 op hol
  · exact keeps0_15 op hol
  · exact keeps0_16 op hol
  · exact keeps0_17 op hol
  · exact keeps0_18 op hol
  · exact keeps0_19 op hol
  · exact keeps0_20 op hol
  · exact keeps0_21 op hol
  · exact keeps0_22 op hol
  · exact keeps0_23 op hol
  · exact keeps0_24 op hol
  · exact keeps0_25 op hol

theorem V_main_arg0 (c : Dev nD) : V m c main_arg0 = m ((c : Thread nD τ).loc main_arg0) :=
  StableHlo.after_of_forall_not_mem (b := Proc.devRef .tc main_arg0) _ _ (fun op h => (keeps_all op h).1)
theorem V_main_arg1 (c : Dev nD) : V m c main_arg1 = m ((c : Thread nD τ).loc main_arg1) :=
  StableHlo.after_of_forall_not_mem (b := Proc.devRef .tc main_arg1) _ _ (fun op h => (keeps_all op h).2.1)
theorem V_main_arg2 (c : Dev nD) : V m c main_arg2 = m ((c : Thread nD τ).loc main_arg2) :=
  StableHlo.after_of_forall_not_mem (b := Proc.devRef .tc main_arg2) _ _ (fun op h => (keeps_all op h).2.2)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's one branch: the scratch is refilled at the first row tile -/

/-- The condition of the body's `scf.if`: the row-tile coordinate is zero. -/
abbrev fillCond (i : grid0.Coords) : Prop := (Scalar.cmpi .ne (Scalar.extui (Scalar.cmpi .eq (BitVec.ofNat 32 (i 1).val) 0#32)) 0#32) = 1#1
/-- It holds at the points ≡ 0 (mod 4): the grid is 8 x 4, the row tile the fast coordinate. -/
theorem fillCond_iff : ∀ t : Fin cfg0.N, fillCond (grid0.coords t) ↔ t.val % 4 = 0 :=
  (by decide +kernel : ∀ t : Fin grid0.N, fillCond (grid0.coords t) ↔ t.val % 4 = 0)

/-- No window is ever idle: every point reads its three inputs' blocks and stores its output block. -/
theorem live0 : ∀ (w : Fin cfg0.W) (t : Fin cfg0.N), cfg0.idle w (grid0.coords t) = false := by decide +kernel

/-! ## The memrefs the body is called with -/

abbrev ms0 (t : Fin cfg0.N) : Memref sig .tc .vmem S4x4096x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x25 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x1024x64 .f32 := win0_3.stage (cfg0.slots t 3)
abbrev hs3 (t : Fin cfg0.N) : (ms3 t).IsWhole := hstage0_3 ((cfg0.slots t 3).cast nbuf0_3)
/-- The scratch: a whole scoped buffer of the kernel's own. -/
abbrev scM : Memref sig .tc .vmem S4x4120x64 .f32 := Memref.whole cc0_scratch0
/-- The scratch as a view: what it holds is stated through it. -/
abbrev VS : View sig .tc .vmem S4x4120x64 .f32 := (scM : Memref sig .tc .vmem S4x4120x64 .f32).view
/-- One staging buffer of the output window, through which its contents are stated. -/
abbrev VO : View sig .tc .vmem S4x1024x64 .f32 := (Memref.whole cc0_stg3_0 : Memref sig .tc .vmem S4x1024x64 .f32).view

/-- The region's invariant between points when nothing is known of the scratch: the scratch owned at some
    contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Frame

end
-- ==== Proof.BitsRunFill.lean ====
/-
  The body at a point that refills the scratch (row tile 0). It copies the first 12 rows of the four
  batches' block to rows 0..11 of the scratch, the whole block to rows 12..4107, the last 12 rows to rows
  4108..4119; then, for each of the 25 taps k, reads rows k .. k+1023 of the scratch, multiplies row r by the
  band's entry (r, k), adds the products up from zero, adds the bias, and stores the tile. What each buffer
  ends with is found by running the body symbolically.
-/
import proofs.«139231_j10806137717199_2_alg».proof.Proof.BitsEntry

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the output's staging buffer and in the scratch, as lists of pieces, with the
    proof that from whole memrefs — the three inputs at given contents, the output's and the scratch at anything —
    the body runs to its end holding the inputs as they were and the two written buffers with those pieces. -/
noncomputable def runFill (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : fillCond i)
    (x0 : Vec F S4x4096x64 .f32) (w0 : Vec F S1024x25 .f32) (b0 : Vec F S1024x1 .f32) :
    Σ' (L3 : List (View.Piece (Elt F) S4x1024x64 .f32)), { LS : List (View.Piece (Elt F) S4x4120x64 .f32) //
      ∀ (E : Set ℕ) (K : PUnit → sProp 𝕄),
        iprop(owns (c : Thread nD τ) arg2 fullShare x0 ∗ owns (c : Thread nD τ) arg3 fullShare w0 ∗ owns (c : Thread nD τ) arg4 fullShare b0
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare w0 ∗ owns (c : Thread nD τ) arg4 fullShare b0
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__local_window_kernel i arg2 harg2 arg3 harg3 arg4 harg4 arg5 harg5 arg6 harg6) K } := by
  refine ⟨?_, ?_, fun E K => ?run⟩
  case run =>
    simp only [cc0__local_window_kernel_eq_skeleton]; unfold cc0__local_window_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.Kernel.Frame

end
-- ==== Proof.BitsRunKeep.lean ====
/-
  The body at a point that keeps the scratch (row tiles 1, 2, 3): it reads rows 1024 j + k .. 1024 j + k + 1023
  of the scratch for each tap k, and computes and stores the tile as at the first row tile; the scratch is only read.
-/
import proofs.«139231_j10806137717199_2_alg».proof.Proof.BitsRunFill

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the output's staging buffer, as a list of pieces, with the proof that from whole
    memrefs — the three inputs and the scratch at given contents, the output's at anything — the body runs to its end
    holding the inputs and the scratch as they were and the output's buffer with those pieces. -/
noncomputable def runKeep (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : ¬fillCond i)
    (x0 : Vec F S4x4096x64 .f32) (w0 : Vec F S1024x25 .f32) (b0 : Vec F S1024x1 .f32) (xs : Vec F S4x4120x64 .f32) :
    { L3 : List (View.Piece (Elt F) S4x1024x64 .f32) //
      ∀ (E : Set ℕ) (K : PUnit → sProp 𝕄),
        iprop(owns (c : Thread nD τ) arg2 fullShare x0 ∗ owns (c : Thread nD τ) arg3 fullShare w0 ∗ owns (c : Thread nD τ) arg4 fullShare b0
            ∗ (∃ d, owns (c : Thread nD τ) arg5 fullShare d) ∗ owns (c : Thread nD τ) arg6 fullShare xs
            ∗ (iprop(owns (c : Thread nD τ) arg2 fullShare x0 ∗ owns (c : Thread nD τ) arg3 fullShare w0 ∗ owns (c : Thread nD τ) arg4 fullShare b0
                ∗ (∃ f, arg5.view.loc (c : Thread nD τ) ↦[arg5.view.set]{fullShare} arg5.view.writes (Elt F) f L3)
                ∗ owns (c : Thread nD τ) arg6 fullShare xs) -∗ K ⟨⟩))
          ⊢ wp frame (wpE (defs₀ (F := F)) Variants.none c none) E (cc0__local_window_kernel i arg2 harg2 arg3 harg3 arg4 harg4 arg5 harg5 arg6 harg6) K } := by
  refine ⟨?_, fun E K => ?run⟩
  case run =>
    simp only [cc0__local_window_kernel_eq_skeleton]; unfold cc0__local_window_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; isplitr; · ipureintro; exact harg6.read_unread _
    iexact HS

end Cert.Kernel.Frame

end
-- ==== Proof.BitsFrame.lean ====
/-
  The frame of the program, with what every buffer holds named. After each grid point the output's staging
  buffer holds the tile the body stored and the scratch holds the padded sequence of the current four batches:
  refilled at row tile 0, carried unchanged through row tiles 1, 2, 3. The region's invariant between points is
  the scratch at exactly those contents, so that the points that only read the scratch read known values.
-/
import proofs.«139231_j10806137717199_2_alg».proof.Proof.BitsRunKeep

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two cases leave, read back from the stores the runs found -/

/-- The tile a refilling point stores. -/
def outFill (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : fillCond i)
    (x0 : Vec F S4x4096x64 .f32) (w0 : Vec F S1024x25 .f32) (b0 : Vec F S1024x1 .f32) : Vec F S4x1024x64 .f32 :=
  VO.read (Elt F) (VO.writes (Elt F) VO.junk (runFill c i arg2 harg2 arg3 harg3 arg4 harg4 arg5 harg5 arg6 harg6 hc x0 w0 b0).1)
/-- Its one store covers the tile. -/
theorem coverFillOut (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : fillCond i)
    (x0 : Vec F S4x4096x64 .f32) (w0 : Vec F S1024x25 .f32) (b0 : Vec F S1024x1 .f32) (y : S4x1024x64.Idx) :
    ∃ pc ∈ (runFill c i arg2 harg2 arg3 harg3 arg4 harg4 arg5 harg5 arg6 harg6 hc x0 w0 b0).1, y ∈ pc.1.set :=
  View.cover_of_tiledL (runFill c i arg2 harg2 arg3 harg3 arg4 harg4 arg5 harg5 arg6 harg6 hc x0 w0 b0).1 S4x1024x64.size (by sl_kernel_rfl) y
/-- The scratch after a refilling point. -/
def scrFill (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : fillCond i)
    (x0 : Vec F S4x4096x64 .f32) (w0 : Vec F S1024x25 .f32) (b0 : Vec F S1024x1 .f32) : Vec F S4x4120x64 .f32 :=
  VS.read (Elt F) (VS.writes (Elt F) VS.junk (runFill c i arg2 harg2 arg3 harg3 arg4 harg4 arg5 harg5 arg6 harg6 hc x0 w0 b0).2.1)
/-- Its three stores — rows 0..11, 12..4107, 4108..4119 — cover the scratch (cut into blocks of 4 rows they tile it). -/
theorem coverFillScr (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : fillCond i)
    (x0 : Vec F S4x4096x64 .f32) (w0 : Vec F S1024x25 .f32) (b0 : Vec F S1024x1 .f32) (y : S4x4120x64.Idx) :
    ∃ pc ∈ (runFill c i arg2 harg2 arg3 harg3 arg4 harg4 arg5 harg5 arg6 harg6 hc x0 w0 b0).2.1, y ∈ pc.1.set :=
  View.cover_of_tiledBy (runFill c i arg2 harg2 arg3 harg3 arg4 harg4 arg5 harg5 arg6 harg6 hc x0 w0 b0).2.1 ![4, 4, 64] (by sl_kernel_rfl) y
/-- The tile a point that keeps the scratch stores. -/
def outKeep (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : ¬fillCond i)
    (x0 : Vec F S4x4096x64 .f32) (w0 : Vec F S1024x25 .f32) (b0 : Vec F S1024x1 .f32) (xs : Vec F S4x4120x64 .f32) : Vec F S4x1024x64 .f32 :=
  VO.read (Elt F) (VO.writes (Elt F) VO.junk (runKeep c i arg2 harg2 arg3 harg3 arg4 harg4 arg5 harg5 arg6 harg6 hc x0 w0 b0 xs).1)
theorem coverKeepOut (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : ¬fillCond i)
    (x0 : Vec F S4x4096x64 .f32) (w0 : Vec F S1024x25 .f32) (b0 : Vec F S1024x1 .f32) (xs : Vec F S4x4120x64 .f32) (y : S4x1024x64.Idx) :
    ∃ pc ∈ (runKeep c i arg2 harg2 arg3 harg3 arg4 harg4 arg5 harg5 arg6 harg6 hc x0 w0 b0 xs).1, y ∈ pc.1.set :=
  View.cover_of_tiledL (runKeep c i arg2 harg2 arg3 harg3 arg4 harg4 arg5 harg5 arg6 harg6 hc x0 w0 b0 xs).1 S4x1024x64.size (by sl_kernel_rfl) y

/-! ## What the output's buffer and the scratch hold after each point -/

/-- After point `n`: the tile stored there, and the scratch — refilled when `n ≡ 0 (mod 4)`, else what point `n - 1` left. -/
def outsAt (c : Dev nD) : (n : ℕ) → n < cfg0.N → Vec F S4x1024x64 .f32 × Vec F S4x4120x64 .f32
  | 0, hn => (outFill c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((fillCond_iff ⟨0, hn⟩).mpr (Nat.zero_mod _)) (iblk m c 0 ⟨0, hn⟩) (iblk m c 1 ⟨0, hn⟩) (iblk m c 2 ⟨0, hn⟩),
              scrFill c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((fillCond_iff ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (outFill c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((fillCond_iff ⟨n + 1, hn⟩).mpr h0) (iblk m c 0 ⟨n + 1, hn⟩) (iblk m c 1 ⟨n + 1, hn⟩) (iblk m c 2 ⟨n + 1, hn⟩),
       scrFill c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((fillCond_iff ⟨n + 1, hn⟩).mpr h0) (iblk m c 0 ⟨n + 1, hn⟩) (iblk m c 1 ⟨n + 1, hn⟩) (iblk m c 2 ⟨n + 1, hn⟩))
    else
      (outKeep c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((fillCond_iff ⟨n + 1, hn⟩).mp h)) (iblk m c 0 ⟨n + 1, hn⟩) (iblk m c 1 ⟨n + 1, hn⟩) (iblk m c 2 ⟨n + 1, hn⟩) (outsAt c n (Nat.lt_of_succ_lt hn)).2,
       (outsAt c n (Nat.lt_of_succ_lt hn)).2)

theorem outsAt_fill (c : Dev nD) (t : Fin cfg0.N) (h0 : t.val % 4 = 0) :
    outsAt m c t.val t.isLt = (outFill c (grid0.coords t) (ms0 t) (hs0 t) (ms1 t) (hs1 t) (ms2 t) (hs2 t) (ms3 t) (hs3 t) scM (Memref.isWhole_whole _) ((fillCond_iff t).mpr h0) (iblk m c 0 t) (iblk m c 1 t) (iblk m c 2 t),
      scrFill c (grid0.coords t) (ms0 t) (hs0 t) (ms1 t) (hs1 t) (ms2 t) (hs2 t) (ms3 t) (hs3 t) scM (Memref.isWhole_whole _) ((fillCond_iff t).mpr h0) (iblk m c 0 t) (iblk m c 1 t) (iblk m c 2 t)) := by
  obtain ⟨n, hn⟩ := t
  cases n with
  | zero => exact rfl
  | succ n => exact (dif_pos h0).trans rfl

theorem outsAt_keep (c : Dev nD) (t : Fin cfg0.N) (h0 : ¬t.val % 4 = 0) :
    outsAt m c t.val t.isLt = (outKeep c (grid0.coords t) (ms0 t) (hs0 t) (ms1 t) (hs1 t) (ms2 t) (hs2 t) (ms3 t) (hs3 t) scM (Memref.isWhole_whole _) (fun h => h0 ((fillCond_iff t).mp h)) (iblk m c 0 t) (iblk m c 1 t) (iblk m c 2 t) (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point nothing is known of the scratch; afterwards it holds
    what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body at point `t` each input's buffer at its block and the output's
    at the tile stored there; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 4800000 in
/-- The body at any point: the inputs' buffers hold their blocks; the row-tile coordinate says which case the point is
    in; the invariant hands the body the scratch (at anything before the first point, else at what the point before
    left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 0 t], after0]
  rw [show (dats m 0 c).leavesExact 1 t = owns (c : Thread nD τ) (ms1 t) fullShare ((dats m 0 c).after 1 t) from by
    unfold Dat.leavesExact; rw [live0 1 t], after1]
  rw [show (dats m 0 c).leavesExact 2 t = owns (c : Thread nD τ) (ms2 t) fullShare ((dats m 0 c).after 2 t) from by
    unfold Dat.leavesExact; rw [live0 2 t], after2]
  rw [show (dats m 0 c).leavesExact 3 t = owns (c : Thread nD τ) (ms3 t) fullShare ((dats m 0 c).after 3 t) from by
    unfold Dat.leavesExact; rw [live0 3 t], after3]
  by_cases h0 : t.val % 4 = 0
  · rw [outsAt_fill m c t h0]
    unfold outFill scrFill; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFill c (grid0.coords t) _ _ _ _ _ _ _ _ _ _ ((fillCond_iff t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverFillScr c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFillOut c _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFill c (grid0.coords t) _ _ _ _ _ _ _ _ _ _ ((fillCond_iff t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverFillScr c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFillOut c _ _ _ _ _ _ _ _ _ _ _ _ _ _ _)
  · rw [outsAt_keep m c t h0]
    unfold outKeep; (try dsimp only)
    have hz : t.val ≠ 0 := fun h => h0 (by rw [h])
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runKeep c (grid0.coords t) _ _ _ _ _ _ _ _ _ _ (fun h => h0 ((fillCond_iff t).mp h)) (iblk m c 0 t) (iblk m c 1 t) (iblk m c 2 t) _).2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS Hg]
    · isplitl [HS]; · iexact HS
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverKeepOut c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

/-! ## The run and the frame -/

set_option backward.isDefEq.respectTransparency.types false in
/-- Every weakly fair execution of @main terminates, and in every final state every array of the region holds what
    the proof data computes and every other unscoped buffer what it held when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end without a fault and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.Kernel.Frame

end
-- ==== Proof.IdealEntry.lean ====
/-
  The program up to its one region. Before the region the host computes the 25 generalized diagonals
  W[o, o+k] (k = 0..24) of the weight matrix, lays them side by side as a 4096 x 25 band, and reshapes the
  bias to a column; none of these lines writes an argument. The region then runs over an 8 x 4 grid: the
  first coordinate picks four batches, the second a tile of 1024 output rows. A scratch buffer holds the
  four batches' sequence with its first and last 12 rows repeated at the ends (4120 rows); it is filled at
  the first row tile of each batch group and read at all four.
-/
import proofs.«139231_j10806137717199_2_alg».proof.Proof.Gen.KernelIdeal.Launch
import proofs.«139231_j10806137717199_2_alg».proof.Proof.Gen.KernelIdeal.Skeleton
import proofs.«139231_j10806137717199_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s TensorCore buffers when the region is entered: after the 26 lines of host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25]) (fun b => m (c, b)) b

theorem fresh0 : (hostOps0 : List (HloOp τ sig (Elt F))).Forall fun op => op.fresh = ∅ := by
  simp only [List.Forall]; repeat' constructor
theorem fresh0_1 : (hostOps0_1 : List (HloOp τ sig (Elt F))).Forall fun op => op.fresh = ∅ := by
  simp only [List.Forall]; repeat' constructor
theorem fresh0_2 : (hostOps0_2 : List (HloOp τ sig (Elt F))).Forall fun op => op.fresh = ∅ := by
  simp only [List.Forall]; repeat' constructor
theorem fresh0_3 : (hostOps0_3 : List (HloOp τ sig (Elt F))).Forall fun op => op.fresh = ∅ := by
  simp only [List.Forall]; repeat' constructor
theorem fresh0_4 : (hostOps0_4 : List (HloOp τ sig (Elt F))).Forall fun op => op.fresh = ∅ := by
  simp only [List.Forall]; repeat' constructor
theorem fresh0_5 : (hostOps0_5 : List (HloOp τ sig (Elt F))).Forall fun op => op.fresh = ∅ := by
  simp only [List.Forall]; repeat' constructor
theorem fresh0_6 : (hostOps0_6 : List (HloOp τ sig (Elt F))).Forall fun op => op.fresh = ∅ := by
  simp only [List.Forall]; repeat' constructor
theorem fresh0_7 : (hostOps0_7 : List (HloOp τ sig (Elt F))).Forall fun op => op.fresh = ∅ := by
  simp only [List.Forall]; repeat' constructor
theorem fresh0_8 : (hostOps0_8 : List (HloOp τ sig (Elt F))).Forall fun op => op.fresh = ∅ := by
  simp only [List.Forall]; repeat' constructor
theorem fresh0_9 : (hostOps0_9 : List (HloOp τ sig (Elt F))).Forall fun op => op.fresh = ∅ := by
  simp only [List.Forall]; repeat' constructor
theorem fresh0_10 : (hostOps0_10 : List (HloOp τ sig (Elt F))).Forall fun op => op.fresh = ∅ := by
  simp only [List.Forall]; repeat' constructor
theorem fresh0_11 : (hostOps0_11 : List (HloOp τ sig (Elt F))).Forall fun op => op.fresh = ∅ := by
  simp only [List.Forall]; repeat' constructor
theorem fresh0_12 : (hostOps0_12 : List (HloOp τ sig (Elt F))).Forall fun op => op.fresh = ∅ := by
  simp only [List.Forall]; repeat' constructor
theorem fresh0_13 : (hostOps0_13 : List (HloOp τ sig (Elt F))).Forall fun op => op.fresh = ∅ := by
  simp only [List.Forall]; repeat' constructor
theorem fresh0_14 : (hostOps0_14 : List (HloOp τ sig (Elt F))).Forall fun op => op.fresh = ∅ := by
  simp only [List.Forall]; repeat' constructor
theorem fresh0_15 : (hostOps0_15 : List (HloOp τ sig (Elt F))).Forall fun op => op.fresh = ∅ := by
  simp only [List.Forall]; repeat' constructor
theorem fresh0_16 : (hostOps0_16 : List (HloOp τ sig (Elt F))).Forall fun op => op.fresh = ∅ := by
  simp only [List.Forall]; repeat' constructor
theorem fresh0_17 : (hostOps0_17 : List (HloOp τ sig (Elt F))).Forall fun op => op.fresh = ∅ := by
  simp only [List.Forall]; repeat' constructor
theorem fresh0_18 : (hostOps0_18 : List (HloOp τ sig (Elt F))).Forall fun op => op.fresh = ∅ := by
  simp only [List.Forall]; repeat' constructor
theorem fresh0_19 : (hostOps0_19 : List (HloOp τ sig (Elt F))).Forall fun op => op.fresh = ∅ := by
  simp only [List.Forall]; repeat' constructor
theorem fresh0_20 : (hostOps0_20 : List (HloOp τ sig (Elt F))).Forall fun op => op.fresh = ∅ := by
  simp only [List.Forall]; repeat' constructor
theorem fresh0_21 : (hostOps0_21 : List (HloOp τ sig (Elt F))).Forall fun op => op.fresh = ∅ := by
  simp only [List.Forall]; repeat' constructor
theorem fresh0_22 : (hostOps0_22 : List (HloOp τ sig (Elt F))).Forall fun op => op.fresh = ∅ := by
  simp only [List.Forall]; repeat' constructor
theorem fresh0_23 : (hostOps0_23 : List (HloOp τ sig (Elt F))).Forall fun op => op.fresh = ∅ := by
  simp only [List.Forall]; repeat' constructor
theorem fresh0_24 : (hostOps0_24 : List (HloOp τ sig (Elt F))).Forall fun op => op.fresh = ∅ := by
  simp only [List.Forall]; repeat' constructor
theorem fresh0_25 : (hostOps0_25 : List (HloOp τ sig (Elt F))).Forall fun op => op.fresh = ∅ := by
  simp only [List.Forall]; repeat' constructor

/-- @main is the host lines and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub⟩)
    (by simp only [List.Forall]; exact ⟨fresh0, fresh0_1, fresh0_2, fresh0_3, fresh0_4, fresh0_5, fresh0_6, fresh0_7, fresh0_8, fresh0_9, fresh0_10, fresh0_11, fresh0_12, fresh0_13, fresh0_14, fresh0_15, fresh0_16, fresh0_17, fresh0_18, fresh0_19, fresh0_20, fresh0_21, fresh0_22, fresh0_23, fresh0_24, fresh0_25⟩) main_chain

/-! ## No host line writes an argument -/

theorem keeps0 : ∀ op ∈ (hostOps0 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_1 : ∀ op ∈ (hostOps0_1 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_2 : ∀ op ∈ (hostOps0_2 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_3 : ∀ op ∈ (hostOps0_3 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_4 : ∀ op ∈ (hostOps0_4 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_5 : ∀ op ∈ (hostOps0_5 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_5, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_6 : ∀ op ∈ (hostOps0_6 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_6, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_7 : ∀ op ∈ (hostOps0_7 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_7, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_8 : ∀ op ∈ (hostOps0_8 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_8, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_9 : ∀ op ∈ (hostOps0_9 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_9, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_10 : ∀ op ∈ (hostOps0_10 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_10, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_11 : ∀ op ∈ (hostOps0_11 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_11, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_12 : ∀ op ∈ (hostOps0_12 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_12, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_13 : ∀ op ∈ (hostOps0_13 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_13, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_14 : ∀ op ∈ (hostOps0_14 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_14, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_15 : ∀ op ∈ (hostOps0_15 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_15, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_16 : ∀ op ∈ (hostOps0_16 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_16, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_17 : ∀ op ∈ (hostOps0_17 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_17, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_18 : ∀ op ∈ (hostOps0_18 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_18, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_19 : ∀ op ∈ (hostOps0_19 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_19, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_20 : ∀ op ∈ (hostOps0_20 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_20, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_21 : ∀ op ∈ (hostOps0_21 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_21, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_22 : ∀ op ∈ (hostOps0_22 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_22, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_23 : ∀ op ∈ (hostOps0_23 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_23, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_24 : ∀ op ∈ (hostOps0_24 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_24, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))
theorem keeps0_25 : ∀ op ∈ (hostOps0_25 : List (HloOp τ sig (Elt F))),
    Proc.devRef .tc main_arg0 ∉ op.writes ∧ Proc.devRef .tc main_arg1 ∉ op.writes ∧ Proc.devRef .tc main_arg2 ∉ op.writes :=
  List.forall_iff_forall_mem.mp (by
    simp only [hostOps0_25, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

/-- An operation of any of the host lines writes none of the three arguments. -/
theorem keeps_all : ∀ op ∈ (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25] : List (HloOp τ sig (Elt F))),
    Proc.devRef .tc main_arg0 ∉ op.writes ∧ Proc.devRef .tc main_arg1 ∉ op.writes ∧ Proc.devRef .tc main_arg2 ∉ op.writes := by
  intro op hop
  obtain ⟨l, hl, hol⟩ := List.mem_flatten.mp hop
  simp only [List.mem_cons, List.mem_nil_iff, or_false] at hl
  rcases hl with rfl | rfl | rfl | rfl | rfl | rfl | rfl | rfl | rfl | rfl | rfl | rfl | rfl | rfl | rfl | rfl | rfl | rfl | rfl | rfl | rfl | rfl | rfl | rfl | rfl | rfl
  · exact keeps0 op hol
  · exact keeps0_1 op hol
  · exact keeps0_2 op hol
  · exact keeps0_3 op hol
  · exact keeps0_4 op hol
  · exact keeps0_5 op hol
  · exact keeps0_6 op hol
  · exact keeps0_7 op hol
  · exact keeps0_8 op hol
  · exact keeps0_9 op hol
  · exact keeps0_10 op hol
  · exact keeps0_11 op hol
  · exact keeps0_12 op hol
  · exact keeps0_13 op hol
  · exact keeps0_14 op hol
  · exact keeps0_15 op hol
  · exact keeps0_16 op hol
  · exact keeps0_17 op hol
  · exact keeps0_18 op hol
  · exact keeps0_19 op hol
  · exact keeps0_20 op hol
  · exact keeps0_21 op hol
  · exact keeps0_22 op hol
  · exact keeps0_23 op hol
  · exact keeps0_24 op hol
  · exact keeps0_25 op hol

theorem V_main_arg0 (c : Dev nD) : V m c main_arg0 = m ((c : Thread nD τ).loc main_arg0) :=
  StableHlo.after_of_forall_not_mem (b := Proc.devRef .tc main_arg0) _ _ (fun op h => (keeps_all op h).1)
theorem V_main_arg1 (c : Dev nD) : V m c main_arg1 = m ((c : Thread nD τ).loc main_arg1) :=
  StableHlo.after_of_forall_not_mem (b := Proc.devRef .tc main_arg1) _ _ (fun op h => (keeps_all op h).2.1)
theorem V_main_arg2 (c : Dev nD) : V m c main_arg2 = m ((c : Thread nD τ).loc main_arg2) :=
  StableHlo.after_of_forall_not_mem (b := Proc.devRef .tc main_arg2) _ _ (fun op h => (keeps_all op h).2.2)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or kept from the point before. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's one branch: the scratch is refilled at the first row tile -/

/-- The condition of the body's `scf.if`: the row-tile coordinate is zero. -/
abbrev fillCond (i : grid0.Coords) : Prop := (Scalar.cmpi .ne (Scalar.extui (Scalar.cmpi .eq (BitVec.ofNat 32 (i 1).val) 0#32)) 0#32) = 1#1
/-- It holds at the points ≡ 0 (mod 4): the grid is 8 x 4, the row tile the fast coordinate. -/
theorem fillCond_iff : ∀ t : Fin cfg0.N, fillCond (grid0.coords t) ↔ t.val % 4 = 0 :=
  (by decide +kernel : ∀ t : Fin grid0.N, fillCond (grid0.coords t) ↔ t.val % 4 = 0)

/-- No window is ever idle: every point reads its three inputs' blocks and stores its output block. -/
theorem live0 : ∀ (w : Fin cfg0.W) (t : Fin cfg0.N), cfg0.idle w (grid0.coords t) = false := by decide +kernel

/-! ## The memrefs the body is called with -/

abbrev ms0 (t : Fin cfg0.N) : Memref sig .tc .vmem S4x4096x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x25 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x1024x64 .f32 := win0_3.stage (cfg0.slots t 3)
abbrev hs3 (t : Fin cfg0.N) : (ms3 t).IsWhole := hstage0_3 ((cfg0.slots t 3).cast nbuf0_3)
/-- The scratch: a whole scoped buffer of the kernel's own. -/
abbrev scM : Memref sig .tc .vmem S4x4120x64 .f32 := Memref.whole cc0_scratch0
/-- The scratch as a view: what it holds is stated through it. -/
abbrev VS : View sig .tc .vmem S4x4120x64 .f32 := (scM : Memref sig .tc .vmem S4x4120x64 .f32).view
/-- One staging buffer of the output window, through which its contents are stated. -/
abbrev VO : View sig .tc .vmem S4x1024x64 .f32 := (Memref.whole cc0_stg3_0 : Memref sig .tc .vmem S4x1024x64 .f32).view

/-- The region's invariant between points when nothing is known of the scratch: the scratch owned at some
    contents, the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Frame

end
-- ==== Proof.IdealRunFill.lean ====
/-
  The body at a point that refills the scratch (row tile 0). It copies the first 12 rows of the four
  batches' block to rows 0..11 of the scratch, the whole block to rows 12..4107, the last 12 rows to rows
  4108..4119; then, for each of the 25 taps k, reads rows k .. k+1023 of the scratch, multiplies row r by the
  band's entry (r, k), adds the products up from zero, adds the bias, and stores the tile. What each buffer
  ends with is found by running the body symbolically.
-/
import proofs.«139231_j10806137717199_2_alg».proof.Proof.IdealEntry

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the output's staging buffer and in the scratch, as lists of pieces, with the
    proof that from whole memrefs — the three inputs at given contents, the output's and the scratch at anything —
    the body runs to its end holding the inputs as they were and the two written buffers with those pieces. -/
noncomputable def runFill (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : fillCond i)
    (x0 : Vec F S4x4096x64 .f32) (w0 : Vec F S1024x25 .f32) (b0 : Vec F S1024x1 .f32) :
    Σ' (L3 : List (View.Piece (Elt F) S4x1024x64 .f32)), { LS : List (View.Piece (Elt F) S4x4120x64 .f32) //
      ∀ (E : Set ℕ) (K : PUnit → sProp 𝕄),
        iprop(owns (c : Thread nD τ) arg2 fullShare x0 ∗ owns (c : Thread nD τ) arg3 fullShare w0 ∗ owns (c : Thread nD τ) arg4 fullShare b0
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare w0 ∗ owns (c : Thread nD τ) arg4 fullShare b0
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__local_window_kernel i arg2 harg2 arg3 harg3 arg4 harg4 arg5 harg5 arg6 harg6) K } := by
  refine ⟨?_, ?_, fun E K => ?run⟩
  case run =>
    simp only [cc0__local_window_kernel_eq_skeleton]; unfold cc0__local_window_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg2.eq_unread hf0; obtain rfl := harg3.eq_unread hf1; obtain rfl := harg4.eq_unread hf2
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS

end Cert.KernelIdeal.Frame

end
-- ==== Proof.IdealRunKeep.lean ====
/-
  The body at a point that keeps the scratch (row tiles 1, 2, 3): it reads rows 1024 j + k .. 1024 j + k + 1023
  of the scratch for each tap k, and computes and stores the tile as at the first row tile; the scratch is only read.
-/
import proofs.«139231_j10806137717199_2_alg».proof.Proof.IdealRunFill

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body leaves in the output's staging buffer, as a list of pieces, with the proof that from whole
    memrefs — the three inputs and the scratch at given contents, the output's at anything — the body runs to its end
    holding the inputs and the scratch as they were and the output's buffer with those pieces. -/
noncomputable def runKeep (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : ¬fillCond i)
    (x0 : Vec F S4x4096x64 .f32) (w0 : Vec F S1024x25 .f32) (b0 : Vec F S1024x1 .f32) (xs : Vec F S4x4120x64 .f32) :
    { L3 : List (View.Piece (Elt F) S4x1024x64 .f32) //
      ∀ (E : Set ℕ) (K : PUnit → sProp 𝕄),
        iprop(owns (c : Thread nD τ) arg2 fullShare x0 ∗ owns (c : Thread nD τ) arg3 fullShare w0 ∗ owns (c : Thread nD τ) arg4 fullShare b0
            ∗ (∃ d, owns (c : Thread nD τ) arg5 fullShare d) ∗ owns (c : Thread nD τ) arg6 fullShare xs
            ∗ (iprop(owns (c : Thread nD τ) arg2 fullShare x0 ∗ owns (c : Thread nD τ) arg3 fullShare w0 ∗ owns (c : Thread nD τ) arg4 fullShare b0
                ∗ (∃ f, arg5.view.loc (c : Thread nD τ) ↦[arg5.view.set]{fullShare} arg5.view.writes (Elt F) f L3)
                ∗ owns (c : Thread nD τ) arg6 fullShare xs) -∗ K ⟨⟩))
          ⊢ wp frame (wpE (defs₀ (F := F)) Variants.none c none) E (cc0__local_window_kernel i arg2 harg2 arg3 harg3 arg4 harg4 arg5 harg5 arg6 harg6) K } := by
  refine ⟨?_, fun E K => ?run⟩
  case run =>
    simp only [cc0__local_window_kernel_eq_skeleton]; unfold cc0__local_window_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; isplitr; · ipureintro; exact harg6.read_unread _
    iexact HS

end Cert.KernelIdeal.Frame

end
-- ==== Proof.IdealFrame.lean ====
/-
  The frame of the program, with what every buffer holds named. After each grid point the output's staging
  buffer holds the tile the body stored and the scratch holds the padded sequence of the current four batches:
  refilled at row tile 0, carried unchanged through row tiles 1, 2, 3. The region's invariant between points is
  the scratch at exactly those contents, so that the points that only read the scratch read known values.
-/
import proofs.«139231_j10806137717199_2_alg».proof.Proof.IdealRunKeep

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the two cases leave, read back from the stores the runs found -/

/-- The tile a refilling point stores. -/
def outFill (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : fillCond i)
    (x0 : Vec F S4x4096x64 .f32) (w0 : Vec F S1024x25 .f32) (b0 : Vec F S1024x1 .f32) : Vec F S4x1024x64 .f32 :=
  VO.read (Elt F) (VO.writes (Elt F) VO.junk (runFill c i arg2 harg2 arg3 harg3 arg4 harg4 arg5 harg5 arg6 harg6 hc x0 w0 b0).1)
/-- Its one store covers the tile. -/
theorem coverFillOut (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : fillCond i)
    (x0 : Vec F S4x4096x64 .f32) (w0 : Vec F S1024x25 .f32) (b0 : Vec F S1024x1 .f32) (y : S4x1024x64.Idx) :
    ∃ pc ∈ (runFill c i arg2 harg2 arg3 harg3 arg4 harg4 arg5 harg5 arg6 harg6 hc x0 w0 b0).1, y ∈ pc.1.set :=
  View.cover_of_tiledL (runFill c i arg2 harg2 arg3 harg3 arg4 harg4 arg5 harg5 arg6 harg6 hc x0 w0 b0).1 S4x1024x64.size (by sl_kernel_rfl) y
/-- The scratch after a refilling point. -/
def scrFill (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : fillCond i)
    (x0 : Vec F S4x4096x64 .f32) (w0 : Vec F S1024x25 .f32) (b0 : Vec F S1024x1 .f32) : Vec F S4x4120x64 .f32 :=
  VS.read (Elt F) (VS.writes (Elt F) VS.junk (runFill c i arg2 harg2 arg3 harg3 arg4 harg4 arg5 harg5 arg6 harg6 hc x0 w0 b0).2.1)
/-- Its three stores — rows 0..11, 12..4107, 4108..4119 — cover the scratch (cut into blocks of 4 rows they tile it). -/
theorem coverFillScr (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : fillCond i)
    (x0 : Vec F S4x4096x64 .f32) (w0 : Vec F S1024x25 .f32) (b0 : Vec F S1024x1 .f32) (y : S4x4120x64.Idx) :
    ∃ pc ∈ (runFill c i arg2 harg2 arg3 harg3 arg4 harg4 arg5 harg5 arg6 harg6 hc x0 w0 b0).2.1, y ∈ pc.1.set :=
  View.cover_of_tiledBy (runFill c i arg2 harg2 arg3 harg3 arg4 harg4 arg5 harg5 arg6 harg6 hc x0 w0 b0).2.1 ![4, 4, 64] (by sl_kernel_rfl) y
/-- The tile a point that keeps the scratch stores. -/
def outKeep (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : ¬fillCond i)
    (x0 : Vec F S4x4096x64 .f32) (w0 : Vec F S1024x25 .f32) (b0 : Vec F S1024x1 .f32) (xs : Vec F S4x4120x64 .f32) : Vec F S4x1024x64 .f32 :=
  VO.read (Elt F) (VO.writes (Elt F) VO.junk (runKeep c i arg2 harg2 arg3 harg3 arg4 harg4 arg5 harg5 arg6 harg6 hc x0 w0 b0 xs).1)
theorem coverKeepOut (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : ¬fillCond i)
    (x0 : Vec F S4x4096x64 .f32) (w0 : Vec F S1024x25 .f32) (b0 : Vec F S1024x1 .f32) (xs : Vec F S4x4120x64 .f32) (y : S4x1024x64.Idx) :
    ∃ pc ∈ (runKeep c i arg2 harg2 arg3 harg3 arg4 harg4 arg5 harg5 arg6 harg6 hc x0 w0 b0 xs).1, y ∈ pc.1.set :=
  View.cover_of_tiledL (runKeep c i arg2 harg2 arg3 harg3 arg4 harg4 arg5 harg5 arg6 harg6 hc x0 w0 b0 xs).1 S4x1024x64.size (by sl_kernel_rfl) y

/-! ## What the output's buffer and the scratch hold after each point -/

/-- After point `n`: the tile stored there, and the scratch — refilled when `n ≡ 0 (mod 4)`, else what point `n - 1` left. -/
def outsAt (c : Dev nD) : (n : ℕ) → n < cfg0.N → Vec F S4x1024x64 .f32 × Vec F S4x4120x64 .f32
  | 0, hn => (outFill c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((fillCond_iff ⟨0, hn⟩).mpr (Nat.zero_mod _)) (iblk m c 0 ⟨0, hn⟩) (iblk m c 1 ⟨0, hn⟩) (iblk m c 2 ⟨0, hn⟩),
              scrFill c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) scM (Memref.isWhole_whole _) ((fillCond_iff ⟨0, hn⟩).mpr (Nat.zero_mod _)) (iblk m c 0 ⟨0, hn⟩) (iblk m c 1 ⟨0, hn⟩) (iblk m c 2 ⟨0, hn⟩))
  | n + 1, hn =>
    if h0 : (n + 1) % 4 = 0 then
      (outFill c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((fillCond_iff ⟨n + 1, hn⟩).mpr h0) (iblk m c 0 ⟨n + 1, hn⟩) (iblk m c 1 ⟨n + 1, hn⟩) (iblk m c 2 ⟨n + 1, hn⟩),
       scrFill c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) ((fillCond_iff ⟨n + 1, hn⟩).mpr h0) (iblk m c 0 ⟨n + 1, hn⟩) (iblk m c 1 ⟨n + 1, hn⟩) (iblk m c 2 ⟨n + 1, hn⟩))
    else
      (outKeep c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) scM (Memref.isWhole_whole _) (fun h => h0 ((fillCond_iff ⟨n + 1, hn⟩).mp h)) (iblk m c 0 ⟨n + 1, hn⟩) (iblk m c 1 ⟨n + 1, hn⟩) (iblk m c 2 ⟨n + 1, hn⟩) (outsAt c n (Nat.lt_of_succ_lt hn)).2,
       (outsAt c n (Nat.lt_of_succ_lt hn)).2)

theorem outsAt_fill (c : Dev nD) (t : Fin cfg0.N) (h0 : t.val % 4 = 0) :
    outsAt m c t.val t.isLt = (outFill c (grid0.coords t) (ms0 t) (hs0 t) (ms1 t) (hs1 t) (ms2 t) (hs2 t) (ms3 t) (hs3 t) scM (Memref.isWhole_whole _) ((fillCond_iff t).mpr h0) (iblk m c 0 t) (iblk m c 1 t) (iblk m c 2 t),
      scrFill c (grid0.coords t) (ms0 t) (hs0 t) (ms1 t) (hs1 t) (ms2 t) (hs2 t) (ms3 t) (hs3 t) scM (Memref.isWhole_whole _) ((fillCond_iff t).mpr h0) (iblk m c 0 t) (iblk m c 1 t) (iblk m c 2 t)) := by
  obtain ⟨n, hn⟩ := t
  cases n with
  | zero => exact rfl
  | succ n => exact (dif_pos h0).trans rfl

theorem outsAt_keep (c : Dev nD) (t : Fin cfg0.N) (h0 : ¬t.val % 4 = 0) :
    outsAt m c t.val t.isLt = (outKeep c (grid0.coords t) (ms0 t) (hs0 t) (ms1 t) (hs1 t) (ms2 t) (hs2 t) (ms3 t) (hs3 t) scM (Memref.isWhole_whole _) (fun h => h0 ((fillCond_iff t).mp h)) (iblk m c 0 t) (iblk m c 1 t) (iblk m c 2 t) (outsAt m c (t.val - 1) (Nat.lt_of_le_of_lt (Nat.sub_le _ _) t.isLt)).2,
      (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The invariant before position `n`: before the first point nothing is known of the scratch; afterwards it holds
    what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outsAt m c n hn).2)) ∗ (∃ r, prngReg c r)) := rfl
theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The proof data -/

/-- The arrays as the region finds them; after the body at point `t` each input's buffer at its block and the output's
    at the tile stored there; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

set_option maxHeartbeats 4800000 in
/-- The body at any point: the inputs' buffers hold their blocks; the row-tile coordinate says which case the point is
    in; the invariant hands the body the scratch (at anything before the first point, else at what the point before
    left) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0 t) fullShare ((dats m 0 c).after 0 t) from by
    unfold Dat.leavesExact; rw [live0 0 t], after0]
  rw [show (dats m 0 c).leavesExact 1 t = owns (c : Thread nD τ) (ms1 t) fullShare ((dats m 0 c).after 1 t) from by
    unfold Dat.leavesExact; rw [live0 1 t], after1]
  rw [show (dats m 0 c).leavesExact 2 t = owns (c : Thread nD τ) (ms2 t) fullShare ((dats m 0 c).after 2 t) from by
    unfold Dat.leavesExact; rw [live0 2 t], after2]
  rw [show (dats m 0 c).leavesExact 3 t = owns (c : Thread nD τ) (ms3 t) fullShare ((dats m 0 c).after 3 t) from by
    unfold Dat.leavesExact; rw [live0 3 t], after3]
  by_cases h0 : t.val % 4 = 0
  · rw [outsAt_fill m c t h0]
    unfold outFill scrFill; (try dsimp only)
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩⟩
      iapply ((runFill c (grid0.coords t) _ _ _ _ _ _ _ _ _ _ ((fillCond_iff t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverFillScr c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFillOut c _ _ _ _ _ _ _ _ _ _ _ _ _ _ _)
    · rw [PhiS_castSucc m c t, PhiS_pos m c _ _ hz]
      iintro ⟨⟨HS, Hg⟩, Ho, ⟨%d0, H0⟩, ⟨%d1, H1⟩, ⟨%d2, H2⟩, ⟨%d3, H3⟩⟩
      iapply ((runFill c (grid0.coords t) _ _ _ _ _ _ _ _ _ _ ((fillCond_iff t).mpr h0) (iblk m c 0 t) (iblk m c 1 t) (iblk m c 2 t)).2.2 Set.univ _)
      isplitl [H0]; · iexact H0
      isplitl [H1]; · iexact H1
      isplitl [H2]; · iexact H2
      isplitl [H3]; · iexists _; iexact H3
      isplitl [HS]; · iexists _; iexact HS
      iintro ⟨H0, H1, H2, ⟨%e3, H3⟩, ⟨%es, HS⟩⟩
      isplitl [HS Hg]
      · isplitl [HS]
        · unfold owns; iexists _; isplitr
          swap; · iexact HS
          ipureintro; exact View.read_writes_of_cover _ _ _ _ _ (coverFillScr c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverFillOut c _ _ _ _ _ _ _ _ _ _ _ _ _ _ _)
  · rw [outsAt_keep m c t h0]
    unfold outKeep; (try dsimp only)
    have hz : t.val ≠ 0 := fun h => h0 (by rw [h])
    rw [PhiS_castSucc m c t, PhiS_pos m c _ _ hz]
    iintro ⟨⟨HS, Hg⟩, Ho, ⟨%d0, H0⟩, ⟨%d1, H1⟩, ⟨%d2, H2⟩, ⟨%d3, H3⟩⟩
    iapply ((runKeep c (grid0.coords t) _ _ _ _ _ _ _ _ _ _ (fun h => h0 ((fillCond_iff t).mp h)) (iblk m c 0 t) (iblk m c 1 t) (iblk m c 2 t) _).2 Set.univ _)
    isplitl [H0]; · iexact H0
    isplitl [H1]; · iexact H1
    isplitl [H2]; · iexact H2
    isplitl [H3]; · iexists _; iexact H3
    isplitl [HS]; · iexact HS
    iintro ⟨H0, H1, H2, ⟨%e3, H3⟩, HS⟩
    isplitl [HS Hg]
    · isplitl [HS]; · iexact HS
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (coverKeepOut c _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 32 := N_0; omega
  rw [show (dats m 0 c).Φ (Fin.last cfg0.N) = PhiS m c (Fin.last cfg0.N).val (Nat.le_of_lt_succ (Fin.last cfg0.N).isLt) from rfl, PhiS_pos m c _ _ ht, PhiA_eq]
  iintro ⟨HS, Hg⟩
  isplitl [HS]
  · iexists _; iexact HS
  iexact Hg

/-! ## The run and the frame -/

set_option backward.isDefEq.respectTransparency.types false in
/-- Every weakly fair execution of @main terminates, and in every final state every array of the region holds what
    the proof data computes and every other unscoped buffer what it held when the region was entered. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to its end without a fault and leaves its three arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Frame

end
-- ==== Proof.TileEntry.lean ====
/-
  The body's arithmetic read at one entry of the tile. The body keeps a [4,1024,64] accumulator. For each of the 25
  taps it loads a [4,1024,64] window of the scratch and a [1024,1] column of the band block, spreads the column over
  the batch and channel axes, multiplies entrywise and adds to the accumulator; last it adds the bias column spread the
  same way. At entry (b, r, c) this is: zero, plus for each tap the window's entry (b, r, c) times the column's entry
  r, plus the bias column's entry r.
-/
import proofs.«139231_j10806137717199_2_alg».proof.Proof.Gen.KernelIdeal.Skeleton
import Idealize.ShloMosaic.Lib.ValueIdx
import Idealize.ShloMosaic.Lib.Pipeline.Value
import Idealize.ShloMosaic.Lib.Pipeline.FrameBody
import Idealize.ShloMosaic.PureOps.Ideal.Laws

set_option maxRecDepth 16384

noncomputable section

namespace Cert.KernelIdeal.Tile

open Idealize.ShloMosaic Idealize.ShloMosaic.ValueIdx Idealize.ShloMosaic.View
open Cert.KernelIdeal Cert.KernelIdeal.Gen

/-- A length-1024 column [1024,1] spread over a [4,1024,64] tile: the entry at (b, r, c) is the column's entry r. -/
theorem spread_apply {α : Type} (wv : S1024x1.Idx → α) (b : Fin 4) (r : Fin 1024) (c : Fin 64) :
    broadcastTo S4x1024x64 (shapeCast S1x1024x1 (shapeCast S1024 wv shapeCasts_S1024x1_S1024) shapeCasts_S1024_S1x1024x1) broadcasts_S1x1024x1_S4x1024x64 (ix3 b r c)
      = wv (ix2 r (0 : Fin 1)) := by
  rw [broadcastTo_apply _ _ _ (ix3 (0 : Fin 1) r (0 : Fin 1)) (fun a => by match a with | ⟨0, _⟩ => rfl | ⟨1, _⟩ => rfl | ⟨2, _⟩ => rfl),
    shapeCast_apply _ _ _ (ix1 r) (by rw [Shape.rowMajor_val_one, Shape.rowMajor_val_three]; show r.val = ((0 * 1024 + r.val) * 1 + 0); omega),
    shapeCast_apply _ _ _ (ix2 r (0 : Fin 1)) (by rw [Shape.rowMajor_val_one, Shape.rowMajor_val_two]; show r.val * 1 + 0 = r.val; omega)]

/-- One tap at an entry: the window's entry times the column's entry of its row. -/
theorem tap_apply (xv : FVec Ideal S4x1024x64 .f32) (wv : Vec Ideal S1024x1 .f32) (b : Fin 4) (r : Fin 1024) (c : Fin 64) :
    mulf xv (broadcastTo S4x1024x64 (shapeCast S1x1024x1 (shapeCast S1024 wv shapeCasts_S1024x1_S1024) shapeCasts_S1024_S1x1024x1) broadcasts_S1x1024x1_S4x1024x64) (ix3 b r c)
      = xv (ix3 b r c) * wv (ix2 r (0 : Fin 1)) := by
  rw [mulf_apply, spread_apply]

/-- The body's arithmetic at one entry (b, r, c) of the tile: starting from zero, the 25 products of window k's entry
    with column k's entry of row r are added in order, and then the bias column's entry of row r. -/
theorem tile_entry (x0 x1 x2 x3 x4 x5 x6 x7 x8 x9 x10 x11 x12 x13 x14 x15 x16 x17 x18 x19 x20 x21 x22 x23 x24 : Vec Ideal S4x1024x64 .f32) (w0 w1 w2 w3 w4 w5 w6 w7 w8 w9 w10 w11 w12 w13 w14 w15 w16 w17 w18 w19 w20 w21 w22 w23 w24 : Vec Ideal S1024x1 .f32)
    (bv : Vec Ideal S1024x1 .f32) (b : Fin 4) (r : Fin 1024) (c : Fin 64) :
    (k0_pay1 (k0_pay11 (k0_pay10 (k0_pay9 (k0_pay7 (k0_pay6 (k0_pay5 x0 w0 x1 w1 x2 w2) x3 w3 x4 w4 x5 w5 x6 w6) x7 w7 x8 w8 x9 w9 x10 w10) (k0_pay8 x11 w11) x12 w12 x13 w13 x14 w14 x15 w15) x16 w16 x17 w17 x18 w18 x19 w19) x20 w20 x21 w21 x22 w22 x23 w23) x24 (k0_pay12 w24) bv : FVec Ideal S4x1024x64 .f32) (ix3 b r c)
      = (((((((((((((((((((((((((0 + x0 (ix3 b r c) * w0 (ix2 r (0 : Fin 1))) + x1 (ix3 b r c) * w1 (ix2 r (0 : Fin 1))) + x2 (ix3 b r c) * w2 (ix2 r (0 : Fin 1))) + x3 (ix3 b r c) * w3 (ix2 r (0 : Fin 1))) + x4 (ix3 b r c) * w4 (ix2 r (0 : Fin 1))) + x5 (ix3 b r c) * w5 (ix2 r (0 : Fin 1))) + x6 (ix3 b r c) * w6 (ix2 r (0 : Fin 1))) + x7 (ix3 b r c) * w7 (ix2 r (0 : Fin 1))) + x8 (ix3 b r c) * w8 (ix2 r (0 : Fin 1))) + x9 (ix3 b r c) * w9 (ix2 r (0 : Fin 1))) + x10 (ix3 b r c) * w10 (ix2 r (0 : Fin 1))) + x11 (ix3 b r c) * w11 (ix2 r (0 : Fin 1))) + x12 (ix3 b r c) * w12 (ix2 r (0 : Fin 1))) + x13 (ix3 b r c) * w13 (ix2 r (0 : Fin 1))) + x14 (ix3 b r c) * w14 (ix2 r (0 : Fin 1))) + x15 (ix3 b r c) * w15 (ix2 r (0 : Fin 1))) + x16 (ix3 b r c) * w16 (ix2 r (0 : Fin 1))) + x17 (ix3 b r c) * w17 (ix2 r (0 : Fin 1))) + x18 (ix3 b r c) * w18 (ix2 r (0 : Fin 1))) + x19 (ix3 b r c) * w19 (ix2 r (0 : Fin 1))) + x20 (ix3 b r c) * w20 (ix2 r (0 : Fin 1))) + x21 (ix3 b r c) * w21 (ix2 r (0 : Fin 1))) + x22 (ix3 b r c) * w22 (ix2 r (0 : Fin 1))) + x23 (ix3 b r c) * w23 (ix2 r (0 : Fin 1))) + x24 (ix3 b r c) * w24 (ix2 r (0 : Fin 1))) + bv (ix2 r (0 : Fin 1)) := by
  unfold k0_pay1 k0_pay5 k0_pay6 k0_pay7 k0_pay8 k0_pay9 k0_pay10 k0_pay11 k0_pay12
  simp only [addf_apply, tap_apply, spread_apply, broadcast_apply]
  rw [Ideal.ofBits_def, Ideal.ofBits_zero_f32]

/-! ## Loads through unit-stride rectangles, read at an entry -/

theorem hz3 : (![0, 0, 0] : Fin 3 → Nat) = fun _ => 0 := funext fun a => by fin_cases a <;> rfl
theorem hz2 : (![0, 0] : Fin 2 → Nat) = fun _ => 0 := funext fun a => by fin_cases a <;> rfl

/-- A window of 1024 rows of the scratch that starts at row `off 1` (and at 0 on the other two axes): its entry
    (b, r, c) is the scratch's entry (b, off 1 + r, c). -/
theorem ld_win {Val : EltTy → Type} {e : EltTy} (xs : S4x4120x64.Idx → Val e) (off : Fin 3 → ℕ) (h0 : off 0 = 0) (h2 : off 2 = 0)
    (inb : ∀ a, off a + S4x1024x64.size a ≤ S4x4120x64.size a) (b : Fin 4) (r : Fin 1024) (c : Fin 64) :
    View.ld xs (Rect.unit (s := S4x4120x64) off S4x1024x64.size inb) (ix3 b r c)
      = xs (ix3 b ⟨off 1 + r.val, by have h := inb 1; change off 1 + 1024 ≤ 4120 at h; have := r.isLt; omega⟩ c) :=
  congrArg xs (funext fun a => Fin.ext (by
    match a with
    | ⟨0, _⟩ => show off 0 + 1 * b.val = b.val; omega
    | ⟨1, _⟩ => show off 1 + 1 * r.val = off 1 + r.val; omega
    | ⟨2, _⟩ => show off 2 + 1 * c.val = c.val; omega))

/-- Column `k` of the band block: its entry (r, 0) is the block's entry (r, k). -/
theorem ld_col {Val : EltTy → Type} {e : EltTy} (w0 : S1024x25.Idx → Val e) (k : ℕ)
    (inb : ∀ a, (![0, k] : Fin 2 → ℕ) a + S1024x1.size a ≤ S1024x25.size a) (r : Fin 1024) :
    View.ld w0 (Rect.unit (s := S1024x25) ![0, k] S1024x1.size inb) (ix2 r (0 : Fin 1))
      = w0 (ix2 r ⟨k, by have h := inb 1; change k + 1 ≤ 25 at h; omega⟩) :=
  congrArg w0 (funext fun a => Fin.ext (by
    match a with
    | ⟨0, _⟩ => show 0 + 1 * r.val = r.val; omega
    | ⟨1, _⟩ => show k + 1 * 0 = k; omega))

end Cert.KernelIdeal.Tile

end
-- ==== Proof.BandSpec.lean ====
/-
  The banded linear layer that both programs compute, as one function of the three argument arrays.

  The sequence x[b, ·, c] of 4096 rows is lengthened to 4120 rows by repeating its first 12 rows in front and its
  last 12 rows behind (row p of the lengthened sequence is row `padRow p` of the sequence). Output row o is the
  weighted sum of the 25 lengthened rows o, o+1, …, o+24 with the weights W[o, o], W[o, o+1], …, W[o, o+24] — the
  entries of row o of W on its 25 generalized diagonals — plus the bias b[o].
-/
import Idealize.ShloMosaic.PureOps.Ideal
import Idealize.ShloMosaic.Lib.ValueIdx

noncomputable section

open scoped BigOperators

namespace Cert.BandSpec

open Idealize.ShloMosaic Idealize.ShloMosaic.ValueIdx

/-- Row `p` of the lengthened sequence (4120 rows) is row `padRow p` of the sequence (4096 rows): rows 0..11, then
    every row, then rows 4084..4095 once more. -/
def padRow (p : ℕ) : ℕ := if p < 12 then p else if p < 4108 then p - 12 else p - 24

theorem padRow_lt {p : ℕ} (h : p < 4120) : padRow p < 4096 := by
  unfold padRow; split_ifs <;> omega

theorem tap_lt (o : Fin 4096) (k : Fin 25) : o.val + k.val < 4120 := by
  have := o.isLt; have := k.isLt; omega

/-- out[b, o, c] = Σ_{k < 25} xpad[b, o + k, c] · W[o, o + k] + bias[o]. -/
def layer (x : (⟨3, ![32, 4096, 64]⟩ : Shape).Idx → EReal) (W : (⟨2, ![4096, 4120]⟩ : Shape).Idx → EReal)
    (b : (⟨1, ![4096]⟩ : Shape).Idx → EReal) (bi : Fin 32) (o : Fin 4096) (ch : Fin 64) : EReal :=
  (∑ k : Fin 25, x (ix3 bi ⟨padRow (o.val + k.val), padRow_lt (tap_lt o k)⟩ ch) * W (ix2 o ⟨o.val + k.val, tap_lt o k⟩))
    + b (ix1 o)

end Cert.BandSpec

end
-- ==== Proof.TileValue.lean ====
/-
  What a grid point stores, as a function of what the scratch holds, and what a refilling point leaves in the scratch.

  The tile is the body's arithmetic over 25 windows of the scratch (tap k reads 1024 rows from the tap's first row),
  the 25 columns of the band block and the bias block; it is the same function of the scratch's contents whether the
  point refilled the scratch first or found it filled. A refilling point leaves the four batches' block lengthened:
  rows 0..11 of the block, then the whole block, then its rows 4084..4095 (three copies that tile the 4120 rows).
-/
import proofs.«139231_j10806137717199_2_alg».proof.Proof.IdealFrame
import proofs.«139231_j10806137717199_2_alg».proof.Proof.TileEntry
import proofs.«139231_j10806137717199_2_alg».proof.Proof.BandSpec

set_option maxRecDepth 16384

noncomputable section

namespace Cert.KernelIdeal.Tile

open Idealize.ShloMosaic Idealize.ShloMosaic.TcCoe Idealize.ShloMosaic.ValueIdx Idealize.ShloMosaic.View Idealize.ShloMosaic.Tactic
open Idealize.SL Idealize.SL.Sem
open Cert.KernelIdeal Cert.KernelIdeal.Gen Cert.KernelIdeal.Frame

/-- The scratch row tap `k` reads for row `r` of the tile at grid point `i`: the tap's first row, which the body
    computes from the row-tile coordinate, plus `r`. -/
def tapRow (i : grid0.Coords) (k : Fin 25) (r : Fin 1024) : Fin 4120 :=
  ⟨(k0_off1 i (BitVec.ofNat 32 k.val)) 1 + r.val, by
    have h := k0_off1_inb i k 1; change _ + 1024 ≤ 4120 at h; have := r.isLt; omega⟩

section AnyFloat
variable {F : FTy → Type} [FloatOps F]

/-- The tile as a function of the scratch's contents, the band block and the bias block: the body's arithmetic over
    window k of the scratch, column k of the band block (k = 0..24) and the bias block. -/
def tileOf (i : grid0.Coords) (xs : Vec F S4x4120x64 .f32) (w0 : Vec F S1024x25 .f32) (b0 : Vec F S1024x1 .f32) :
    FVec F S4x1024x64 .f32 :=
  k0_pay1 (k0_pay11 (k0_pay10 (k0_pay9 (k0_pay7 (k0_pay6 (k0_pay5 (View.ld xs (Rect.unit (s := S4x4120x64) (k0_off1 i 0#32) S4x1024x64.size (k0_off1_inb i 0))) (View.ld w0 (Rect.unit (s := S1024x25) ![0, 0] S1024x1.size inb_S1024x25_S1024x1_0_0)) (View.ld xs (Rect.unit (s := S4x4120x64) (k0_off1 i 1#32) S4x1024x64.size (k0_off1_inb i 1))) (View.ld w0 (Rect.unit (s := S1024x25) ![0, 1] S1024x1.size inb_S1024x25_S1024x1_0_1)) (View.ld xs (Rect.unit (s := S4x4120x64) (k0_off1 i 2#32) S4x1024x64.size (k0_off1_inb i 2))) (View.ld w0 (Rect.unit (s := S1024x25) ![0, 2] S1024x1.size inb_S1024x25_S1024x1_0_2))) (View.ld xs (Rect.unit (s := S4x4120x64) (k0_off1 i 3#32) S4x1024x64.size (k0_off1_inb i 3))) (View.ld w0 (Rect.unit (s := S1024x25) ![0, 3] S1024x1.size inb_S1024x25_S1024x1_0_3)) (View.ld xs (Rect.unit (s := S4x4120x64) (k0_off1 i 4#32) S4x1024x64.size (k0_off1_inb i 4))) (View.ld w0 (Rect.unit (s := S1024x25) ![0, 4] S1024x1.size inb_S1024x25_S1024x1_0_4)) (View.ld xs (Rect.unit (s := S4x4120x64) (k0_off1 i 5#32) S4x1024x64.size (k0_off1_inb i 5))) (View.ld w0 (Rect.unit (s := S1024x25) ![0, 5] S1024x1.size inb_S1024x25_S1024x1_0_5)) (View.ld xs (Rect.unit (s := S4x4120x64) (k0_off1 i 6#32) S4x1024x64.size (k0_off1_inb i 6))) (View.ld w0 (Rect.unit (s := S1024x25) ![0, 6] S1024x1.size inb_S1024x25_S1024x1_0_6))) (View.ld xs (Rect.unit (s := S4x4120x64) (k0_off1 i 7#32) S4x1024x64.size (k0_off1_inb i 7))) (View.ld w0 (Rect.unit (s := S1024x25) ![0, 7] S1024x1.size inb_S1024x25_S1024x1_0_7)) (View.ld xs (Rect.unit (s := S4x4120x64) (k0_off1 i 8#32) S4x1024x64.size (k0_off1_inb i 8))) (View.ld w0 (Rect.unit (s := S1024x25) ![0, 8] S1024x1.size inb_S1024x25_S1024x1_0_8)) (View.ld xs (Rect.unit (s := S4x4120x64) (k0_off1 i 9#32) S4x1024x64.size (k0_off1_inb i 9))) (View.ld w0 (Rect.unit (s := S1024x25) ![0, 9] S1024x1.size inb_S1024x25_S1024x1_0_9)) (View.ld xs (Rect.unit (s := S4x4120x64) (k0_off1 i 10#32) S4x1024x64.size (k0_off1_inb i 10))) (View.ld w0 (Rect.unit (s := S1024x25) ![0, 10] S1024x1.size inb_S1024x25_S1024x1_0_10))) (k0_pay8 (View.ld xs (Rect.unit (s := S4x4120x64) (k0_off1 i 11#32) S4x1024x64.size (k0_off1_inb i 11))) (View.ld w0 (Rect.unit (s := S1024x25) ![0, 11] S1024x1.size inb_S1024x25_S1024x1_0_11))) (View.ld xs (Rect.unit (s := S4x4120x64) (k0_off1 i 12#32) S4x1024x64.size (k0_off1_inb i 12))) (View.ld w0 (Rect.unit (s := S1024x25) ![0, 12] S1024x1.size inb_S1024x25_S1024x1_0_12)) (View.ld xs (Rect.unit (s := S4x4120x64) (k0_off1 i 13#32) S4x1024x64.size (k0_off1_inb i 13))) (View.ld w0 (Rect.unit (s := S1024x25) ![0, 13] S1024x1.size inb_S1024x25_S1024x1_0_13)) (View.ld xs (Rect.unit (s := S4x4120x64) (k0_off1 i 14#32) S4x1024x64.size (k0_off1_inb i 14))) (View.ld w0 (Rect.unit (s := S1024x25) ![0, 14] S1024x1.size inb_S1024x25_S1024x1_0_14)) (View.ld xs (Rect.unit (s := S4x4120x64) (k0_off1 i 15#32) S4x1024x64.size (k0_off1_inb i 15))) (View.ld w0 (Rect.unit (s := S1024x25) ![0, 15] S1024x1.size inb_S1024x25_S1024x1_0_15))) (View.ld xs (Rect.unit (s := S4x4120x64) (k0_off1 i 16#32) S4x1024x64.size (k0_off1_inb i 16))) (View.ld w0 (Rect.unit (s := S1024x25) ![0, 16] S1024x1.size inb_S1024x25_S1024x1_0_16)) (View.ld xs (Rect.unit (s := S4x4120x64) (k0_off1 i 17#32) S4x1024x64.size (k0_off1_inb i 17))) (View.ld w0 (Rect.unit (s := S1024x25) ![0, 17] S1024x1.size inb_S1024x25_S1024x1_0_17)) (View.ld xs (Rect.unit (s := S4x4120x64) (k0_off1 i 18#32) S4x1024x64.size (k0_off1_inb i 18))) (View.ld w0 (Rect.unit (s := S1024x25) ![0, 18] S1024x1.size inb_S1024x25_S1024x1_0_18)) (View.ld xs (Rect.unit (s := S4x4120x64) (k0_off1 i 19#32) S4x1024x64.size (k0_off1_inb i 19))) (View.ld w0 (Rect.unit (s := S1024x25) ![0, 19] S1024x1.size inb_S1024x25_S1024x1_0_19))) (View.ld xs (Rect.unit (s := S4x4120x64) (k0_off1 i 20#32) S4x1024x64.size (k0_off1_inb i 20))) (View.ld w0 (Rect.unit (s := S1024x25) ![0, 20] S1024x1.size inb_S1024x25_S1024x1_0_20)) (View.ld xs (Rect.unit (s := S4x4120x64) (k0_off1 i 21#32) S4x1024x64.size (k0_off1_inb i 21))) (View.ld w0 (Rect.unit (s := S1024x25) ![0, 21] S1024x1.size inb_S1024x25_S1024x1_0_21)) (View.ld xs (Rect.unit (s := S4x4120x64) (k0_off1 i 22#32) S4x1024x64.size (k0_off1_inb i 22))) (View.ld w0 (Rect.unit (s := S1024x25) ![0, 22] S1024x1.size inb_S1024x25_S1024x1_0_22)) (View.ld xs (Rect.unit (s := S4x4120x64) (k0_off1 i 23#32) S4x1024x64.size (k0_off1_inb i 23))) (View.ld w0 (Rect.unit (s := S1024x25) ![0, 23] S1024x1.size inb_S1024x25_S1024x1_0_23))) (View.ld xs (Rect.unit (s := S4x4120x64) (k0_off1 i 24#32) S4x1024x64.size (k0_off1_inb i 24))) (k0_pay12 (View.ld w0 (Rect.unit (s := S1024x25) ![0, 24] S1024x1.size inb_S1024x25_S1024x1_0_24))) (View.ld b0 (Rect.unit (s := S1024x1) ![0, 0] S1024x1.size inb_S1024x1_S1024x1_0_0))

set_option maxHeartbeats 1600000 in
/-- A point that finds the scratch filled stores the tile of what the scratch holds. -/
theorem outKeep_eq (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : ¬fillCond i)
    (x0 : Vec F S4x4096x64 .f32) (w0 : Vec F S1024x25 .f32) (b0 : Vec F S1024x1 .f32) (xs : Vec F S4x4120x64 .f32) :
    outKeep c i arg2 harg2 arg3 harg3 arg4 harg4 arg5 harg5 arg6 harg6 hc x0 w0 b0 xs = tileOf i xs w0 b0 := by
  unfold outKeep tileOf
  rw [View.read_writes_eq_canon _ _ _ (coverKeepOut c i arg2 harg2 arg3 harg3 arg4 harg4 arg5 harg5 arg6 harg6 hc x0 w0 b0 xs)]
  unfold runKeep
  dsimp only
  sl_unfold_words
  rw [View.canon_unit_zero hz3]
  simp only [View.readAt_eq_ld, harg3.read_unread, harg4.read_unread, harg6.read_unread]

/-! ## The refill -/

/-- The four batches' block lengthened from 4096 to 4120 rows: row p is the block's row `padRow p`. -/
def padBlock (x0 : Vec F S4x4096x64 .f32) : Vec F S4x4120x64 .f32 :=
  fun y => x0 (ix3 (⟨(y 0).val, (y 0).isLt⟩ : Fin 4) (⟨Cert.BandSpec.padRow (y 1).val, Cert.BandSpec.padRow_lt (y 1).isLt⟩ : Fin 4096)
    (⟨(y 2).val, (y 2).isLt⟩ : Fin 64))

/-- The three copies a refilling point stores into the scratch, last first: the block's rows 4084..4095 to rows
    4108..4119, the whole block to rows 12..4107, the block's rows 0..11 to rows 0..11. -/
abbrev fillPieces (x0 : Vec F S4x4096x64 .f32) : List (View.Piece (Elt F) S4x4120x64 .f32) :=
  [⟨Rect.unit (s := S4x4120x64) ![0, 4108, 0] S4x12x64.size inb_S4x4120x64_S4x12x64_0_4108_0,
      k0_pay4 (View.ld x0 (Rect.unit (s := S4x4096x64) ![0, 4084, 0] S4x12x64.size inb_S4x4096x64_S4x12x64_0_4084_0))⟩,
   ⟨Rect.unit (s := S4x4120x64) ![0, 12, 0] S4x4096x64.size inb_S4x4120x64_S4x4096x64_0_12_0,
      k0_pay3 (View.ld x0 (Rect.unit (s := S4x4096x64) ![0, 0, 0] S4x4096x64.size inb_S4x4096x64_S4x4096x64_0_0_0))⟩,
   ⟨Rect.unit (s := S4x4120x64) ![0, 0, 0] S4x12x64.size inb_S4x4120x64_S4x12x64_0_0_0,
      k0_pay2 (View.ld x0 (Rect.unit (s := S4x4096x64) ![0, 0, 0] S4x12x64.size inb_S4x4096x64_S4x12x64_0_0_0))⟩]

/-- They cover the scratch: cut into blocks of 4 rows they tile it. -/
theorem fillPieces_cover (x0 : Vec F S4x4096x64 .f32) (y : S4x4120x64.Idx) : ∃ p ∈ fillPieces x0, y ∈ p.1.set :=
  View.cover_of_tiledBy (fillPieces x0) ![4, 4, 64] (by sl_kernel_rfl) y

/-- Each copy agrees with the lengthened block on its rows: 4084 + j = padRow (4108 + j), j = padRow (12 + j),
    j = padRow j for j < 12. -/
theorem fillPieces_agree (x0 : Vec F S4x4096x64 .f32) :
    ∀ p ∈ fillPieces x0, ∀ x : p.1.shape.Idx, p.2 x = padBlock x0 (p.1.emb x) := by
  intro p hp
  simp only [List.mem_cons, List.mem_nil_iff, or_false] at hp
  rcases hp with rfl | rfl | rfl
  · intro x
    have h1 : (x 1).val < 12 := (x 1).isLt
    unfold k0_pay4; rw [shapeCast_self]
    refine congrArg x0 (funext fun a => Fin.ext ?_)
    match a with
    | ⟨0, _⟩ => rfl
    | ⟨1, _⟩ =>
      show 4084 + 1 * (x 1).val = Cert.BandSpec.padRow (4108 + 1 * (x 1).val)
      unfold Cert.BandSpec.padRow; split_ifs <;> omega
    | ⟨2, _⟩ => rfl
  · intro x
    have h1 : (x 1).val < 4096 := (x 1).isLt
    unfold k0_pay3; rw [shapeCast_self]
    refine congrArg x0 (funext fun a => Fin.ext ?_)
    match a with
    | ⟨0, _⟩ => rfl
    | ⟨1, _⟩ =>
      show 0 + 1 * (x 1).val = Cert.BandSpec.padRow (12 + 1 * (x 1).val)
      unfold Cert.BandSpec.padRow; split_ifs <;> omega
    | ⟨2, _⟩ => rfl
  · intro x
    have h1 : (x 1).val < 12 := (x 1).isLt
    unfold k0_pay2; rw [shapeCast_self]
    refine congrArg x0 (funext fun a => Fin.ext ?_)
    match a with
    | ⟨0, _⟩ => rfl
    | ⟨1, _⟩ =>
      show 0 + 1 * (x 1).val = Cert.BandSpec.padRow (0 + 1 * (x 1).val)
      unfold Cert.BandSpec.padRow; split_ifs <;> omega
    | ⟨2, _⟩ => rfl

/-- So what the three copies leave is the lengthened block. -/
theorem fill_canon [∀ e, Nonempty (Elt F e)] (x0 : Vec F S4x4096x64 .f32) : View.canon (fillPieces x0) = padBlock x0 :=
  funext fun y => View.canon_apply_of_pieces (padBlock x0) (fillPieces x0) (fillPieces_agree x0) y (fillPieces_cover x0 y)

set_option maxHeartbeats 1600000 in
/-- A refilling point leaves the lengthened block in the scratch. -/
theorem scrFill_eq [∀ e, Nonempty (Elt F e)] (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : fillCond i)
    (x0 : Vec F S4x4096x64 .f32) (w0 : Vec F S1024x25 .f32) (b0 : Vec F S1024x1 .f32) :
    scrFill c i arg2 harg2 arg3 harg3 arg4 harg4 arg5 harg5 arg6 harg6 hc x0 w0 b0 = padBlock x0 := by
  unfold scrFill
  rw [View.read_writes_eq_canon _ _ _ (coverFillScr c i arg2 harg2 arg3 harg3 arg4 harg4 arg5 harg5 arg6 harg6 hc x0 w0 b0)]
  unfold runFill
  dsimp only
  sl_unfold_words
  simp only [View.readAt_eq_ld, harg2.read_unread]
  exact fill_canon x0

set_option maxHeartbeats 1600000 in
/-- A refilling point stores the tile of the lengthened block: its windows read the scratch after the three copies. -/
theorem outFill_eq [∀ e, Nonempty (Elt F e)] (c : Dev nD) (i : grid0.Coords) (arg2 : Memref sig .tc .vmem S4x4096x64 .f32) (harg2 : arg2.IsWhole) (arg3 : Memref sig .tc .vmem S1024x25 .f32) (harg3 : arg3.IsWhole) (arg4 : Memref sig .tc .vmem S1024x1 .f32) (harg4 : arg4.IsWhole) (arg5 : Memref sig .tc .vmem S4x1024x64 .f32) (harg5 : arg5.IsWhole) (arg6 : Memref sig .tc .vmem S4x4120x64 .f32) (harg6 : arg6.IsWhole) (hc : fillCond i)
    (x0 : Vec F S4x4096x64 .f32) (w0 : Vec F S1024x25 .f32) (b0 : Vec F S1024x1 .f32) :
    outFill c i arg2 harg2 arg3 harg3 arg4 harg4 arg5 harg5 arg6 harg6 hc x0 w0 b0 = tileOf i (padBlock x0) w0 b0 := by
  unfold outFill tileOf
  rw [View.read_writes_eq_canon _ _ _ (coverFillOut c i arg2 harg2 arg3 harg3 arg4 harg4 arg5 harg5 arg6 harg6 hc x0 w0 b0)]
  unfold runFill
  dsimp only
  sl_unfold_words
  rw [View.canon_unit_zero hz3]
  simp only [View.readAt_eq_ld, harg2.read_unread, harg3.read_unread, harg4.read_unread,
    View.read_writes_eq_canon arg6.view arg6.view.junk _ (fillPieces_cover x0), fill_canon]

end AnyFloat

set_option maxHeartbeats 1600000 in
/-- At entry (b, r, c) the tile is: zero, plus for each tap k the scratch's entry (b, tapRow k r, c) times the band
    block's entry (r, k), plus the bias block's entry r. -/
theorem tileOf_entry (i : grid0.Coords) (xs : Vec Ideal S4x4120x64 .f32) (w0 : Vec Ideal S1024x25 .f32) (b0 : Vec Ideal S1024x1 .f32)
    (b : Fin 4) (r : Fin 1024) (c' : Fin 64) :
    tileOf (F := Ideal) i xs w0 b0 (ix3 b r c')
      = (((((((((((((((((((((((((0 + xs (ix3 b (tapRow i (0 : Fin 25) r) c') * w0 (ix2 r (0 : Fin 25))) + xs (ix3 b (tapRow i (1 : Fin 25) r) c') * w0 (ix2 r (1 : Fin 25))) + xs (ix3 b (tapRow i (2 : Fin 25) r) c') * w0 (ix2 r (2 : Fin 25))) + xs (ix3 b (tapRow i (3 : Fin 25) r) c') * w0 (ix2 r (3 : Fin 25))) + xs (ix3 b (tapRow i (4 : Fin 25) r) c') * w0 (ix2 r (4 : Fin 25))) + xs (ix3 b (tapRow i (5 : Fin 25) r) c') * w0 (ix2 r (5 : Fin 25))) + xs (ix3 b (tapRow i (6 : Fin 25) r) c') * w0 (ix2 r (6 : Fin 25))) + xs (ix3 b (tapRow i (7 : Fin 25) r) c') * w0 (ix2 r (7 : Fin 25))) + xs (ix3 b (tapRow i (8 : Fin 25) r) c') * w0 (ix2 r (8 : Fin 25))) + xs (ix3 b (tapRow i (9 : Fin 25) r) c') * w0 (ix2 r (9 : Fin 25))) + xs (ix3 b (tapRow i (10 : Fin 25) r) c') * w0 (ix2 r (10 : Fin 25))) + xs (ix3 b (tapRow i (11 : Fin 25) r) c') * w0 (ix2 r (11 : Fin 25))) + xs (ix3 b (tapRow i (12 : Fin 25) r) c') * w0 (ix2 r (12 : Fin 25))) + xs (ix3 b (tapRow i (13 : Fin 25) r) c') * w0 (ix2 r (13 : Fin 25))) + xs (ix3 b (tapRow i (14 : Fin 25) r) c') * w0 (ix2 r (14 : Fin 25))) + xs (ix3 b (tapRow i (15 : Fin 25) r) c') * w0 (ix2 r (15 : Fin 25))) + xs (ix3 b (tapRow i (16 : Fin 25) r) c') * w0 (ix2 r (16 : Fin 25))) + xs (ix3 b (tapRow i (17 : Fin 25) r) c') * w0 (ix2 r (17 : Fin 25))) + xs (ix3 b (tapRow i (18 : Fin 25) r) c') * w0 (ix2 r (18 : Fin 25))) + xs (ix3 b (tapRow i (19 : Fin 25) r) c') * w0 (ix2 r (19 : Fin 25))) + xs (ix3 b (tapRow i (20 : Fin 25) r) c') * w0 (ix2 r (20 : Fin 25))) + xs (ix3 b (tapRow i (21 : Fin 25) r) c') * w0 (ix2 r (21 : Fin 25))) + xs (ix3 b (tapRow i (22 : Fin 25) r) c') * w0 (ix2 r (22 : Fin 25))) + xs (ix3 b (tapRow i (23 : Fin 25) r) c') * w0 (ix2 r (23 : Fin 25))) + xs (ix3 b (tapRow i (24 : Fin 25) r) c') * w0 (ix2 r (24 : Fin 25))) + b0 (ix2 r (0 : Fin 1)) := by
  unfold tileOf
  rw [tile_entry]
  rw [View.ld_unit_zero (S := S1024x1) hz2 inb_S1024x1_S1024x1_0_0 b0]
  simp only [ld_col w0 0 inb_S1024x25_S1024x1_0_0, ld_col w0 1 inb_S1024x25_S1024x1_0_1, ld_col w0 2 inb_S1024x25_S1024x1_0_2, ld_col w0 3 inb_S1024x25_S1024x1_0_3, ld_col w0 4 inb_S1024x25_S1024x1_0_4, ld_col w0 5 inb_S1024x25_S1024x1_0_5, ld_col w0 6 inb_S1024x25_S1024x1_0_6, ld_col w0 7 inb_S1024x25_S1024x1_0_7, ld_col w0 8 inb_S1024x25_S1024x1_0_8, ld_col w0 9 inb_S1024x25_S1024x1_0_9, ld_col w0 10 inb_S1024x25_S1024x1_0_10, ld_col w0 11 inb_S1024x25_S1024x1_0_11, ld_col w0 12 inb_S1024x25_S1024x1_0_12, ld_col w0 13 inb_S1024x25_S1024x1_0_13, ld_col w0 14 inb_S1024x25_S1024x1_0_14, ld_col w0 15 inb_S1024x25_S1024x1_0_15, ld_col w0 16 inb_S1024x25_S1024x1_0_16, ld_col w0 17 inb_S1024x25_S1024x1_0_17, ld_col w0 18 inb_S1024x25_S1024x1_0_18, ld_col w0 19 inb_S1024x25_S1024x1_0_19, ld_col w0 20 inb_S1024x25_S1024x1_0_20, ld_col w0 21 inb_S1024x25_S1024x1_0_21, ld_col w0 22 inb_S1024x25_S1024x1_0_22, ld_col w0 23 inb_S1024x25_S1024x1_0_23, ld_col w0 24 inb_S1024x25_S1024x1_0_24,
    ld_win xs (k0_off1 i 0#32) rfl rfl (k0_off1_inb i 0),
    ld_win xs (k0_off1 i 1#32) rfl rfl (k0_off1_inb i 1),
    ld_win xs (k0_off1 i 2#32) rfl rfl (k0_off1_inb i 2),
    ld_win xs (k0_off1 i 3#32) rfl rfl (k0_off1_inb i 3),
    ld_win xs (k0_off1 i 4#32) rfl rfl (k0_off1_inb i 4),
    ld_win xs (k0_off1 i 5#32) rfl rfl (k0_off1_inb i 5),
    ld_win xs (k0_off1 i 6#32) rfl rfl (k0_off1_inb i 6),
    ld_win xs (k0_off1 i 7#32) rfl rfl (k0_off1_inb i 7),
    ld_win xs (k0_off1 i 8#32) rfl rfl (k0_off1_inb i 8),
    ld_win xs (k0_off1 i 9#32) rfl rfl (k0_off1_inb i 9),
    ld_win xs (k0_off1 i 10#32) rfl rfl (k0_off1_inb i 10),
    ld_win xs (k0_off1 i 11#32) rfl rfl (k0_off1_inb i 11),
    ld_win xs (k0_off1 i 12#32) rfl rfl (k0_off1_inb i 12),
    ld_win xs (k0_off1 i 13#32) rfl rfl (k0_off1_inb i 13),
    ld_win xs (k0_off1 i 14#32) rfl rfl (k0_off1_inb i 14),
    ld_win xs (k0_off1 i 15#32) rfl rfl (k0_off1_inb i 15),
    ld_win xs (k0_off1 i 16#32) rfl rfl (k0_off1_inb i 16),
    ld_win xs (k0_off1 i 17#32) rfl rfl (k0_off1_inb i 17),
    ld_win xs (k0_off1 i 18#32) rfl rfl (k0_off1_inb i 18),
    ld_win xs (k0_off1 i 19#32) rfl rfl (k0_off1_inb i 19),
    ld_win xs (k0_off1 i 20#32) rfl rfl (k0_off1_inb i 20),
    ld_win xs (k0_off1 i 21#32) rfl rfl (k0_off1_inb i 21),
    ld_win xs (k0_off1 i 22#32) rfl rfl (k0_off1_inb i 22),
    ld_win xs (k0_off1 i 23#32) rfl rfl (k0_off1_inb i 23),
    ld_win xs (k0_off1 i 24#32) rfl rfl (k0_off1_inb i 24)]
  rfl

end Cert.KernelIdeal.Tile

end
-- ==== Proof.HostBand.lean ====
/-
  What the host lines leave in the two buffers the region's windows read besides the input.

  Before the region the host takes, for k = 0 … 24, the k-th generalized diagonal of the weight matrix W (4096 x 4120): the
  vector whose entry o is W[o, o + k]. Each is one gather of single entries at start indices [row, column] built from the
  row number: the row index is the row number, the column index the row number plus k, each passed through the host's
  "a negative index has the extent added" step, which leaves them as they are since both are small natural numbers. The gather
  reads its start indices signed and clamps them into range; they are in range (o ≤ 4095, o + k ≤ 4119), so entry o of
  diagonal k is W[o, o + k]. The 25 vectors, each as a one-column matrix, are then laid side by side (sixteen, nine, and the
  two blocks together) into the 4096 x 25 band, whose entry (o, k) is therefore W[o, o + k]; and the bias vector is reshaped to a
  one-column matrix, whose entry (o, 0) is b[o].
-/
import proofs.«139231_j10806137717199_2_alg».proof.Proof.IdealEntry
import Idealize.ShloMosaic.Lib.ValueIdx
import Idealize.ShloMosaic.Lib.Pipeline.Value

set_option maxRecDepth 16384

noncomputable section

namespace Cert.KernelIdeal.HostBand

open Idealize.ShloMosaic Idealize.ShloMosaic.TcCoe Idealize.ShloMosaic.ValueIdx
open Cert.KernelIdeal Cert.KernelIdeal.Gen Cert.KernelIdeal.Frame

variable {F : FTy → Type} [FloatOps F]

section Pure
variable {α : Type}

/-- Dimension numbers of a gather of single entries of a matrix: operand [N, M], start indices [R, 2] (row, column),
    result [R]; both operand axes collapsed, slice sizes [1, 1]. -/
abbrev entryDims (N M R : Nat) (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- **The gather read at row `t`**: the operand at the start indices `idx[t, 0]`, `idx[t, 1]`, each read signed and clamped into
    range. -/
theorem gather_entry_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (t : Fin R) :
    Host.gather (entryDims N M R wf) x idx (ix1 t)
      = x (ix2 ⟨min (idx (ix2 t (0 : Fin 2))).toInt.toNat (N - 1), by omega⟩
               ⟨min (idx (ix2 t (1 : Fin 2))).toInt.toNat (M - 1), by omega⟩) := by
  unfold Host.gather
  congr 1
  funext a
  refine Fin.ext ?_
  show (entryDims N M R wf).start (ix1 t) idx a + (entryDims N M R wf).batchCoord (ix1 t) a + (entryDims N M R wf).offCoord (ix1 t) a = _
  rw [GatherDims.batchCoord_eq_zero _ _ _ List.not_mem_nil]
  have ha : a = (0 : Fin 2) ∨ a = (1 : Fin 2) := by
    rcases a with ⟨v, hv⟩
    have hv2 : v < 2 := hv
    rcases v with _ | _ | v
    · exact Or.inl rfl
    · exact Or.inr rfl
    · omega
  rcases ha with rfl | rfl
  ·
    rw [GatherDims.offCoord_eq_zero _ _ _ (fun h => ((GatherDims.mem_sKept _ _).mp h).1 List.mem_cons_self)]
    simp only [Nat.add_zero]
    unfold GatherDims.start
    rw [dif_pos (show (0 : Fin 2) ∈ (entryDims N M R wf).startIndexMap from List.mem_cons_self)]
    have hsi : (entryDims N M R wf).siIdx (ix1 t) ⟨List.idxOf (0 : Fin 2) (entryDims N M R wf).startIndexMap,
        List.idxOf_lt_length_iff.2 List.mem_cons_self⟩ = ix2 t (0 : Fin 2) := by
      funext b; refine Fin.ext ?_
      match b with
      | ⟨0, _⟩ => rfl
      | ⟨1, _⟩ => rfl
    rw [hsi]
    rfl
  ·
    rw [GatherDims.offCoord_eq_zero _ _ _ (fun h => ((GatherDims.mem_sKept _ _).mp h).1 (List.mem_cons_of_mem _ List.mem_cons_self))]
    simp only [Nat.add_zero]
    unfold GatherDims.start
    rw [dif_pos (show (1 : Fin 2) ∈ (entryDims N M R wf).startIndexMap from (List.mem_cons_of_mem _ List.mem_cons_self))]
    have hsi : (entryDims N M R wf).siIdx (ix1 t) ⟨List.idxOf (1 : Fin 2) (entryDims N M R wf).startIndexMap,
        List.idxOf_lt_length_iff.2 (List.mem_cons_of_mem _ List.mem_cons_self)⟩ = ix2 t (1 : Fin 2) := by
      funext b; refine Fin.ext ?_
      match b with
      | ⟨0, _⟩ => rfl
      | ⟨1, _⟩ => rfl
    rw [hsi]
    rfl

end Pure

/-! ## The index arithmetic of one diagonal -/

/-- A 32-bit word at every row. -/
abbrev splat (b : BitVec 32) : IVec S4096 32 := broadcastInDim S4096 ![] bcast_S_S4096 (constantI S_ 32 b)
/-- The row number as a word. -/
abbrev rows : IVec S4096 32 := iotaInDim S4096 32 0
/-- An index made non-negative the way the host does it: a negative one has the extent added. -/
abbrev wrap (ext : BitVec 32) (v : IVec S4096 32) : IVec S4096 32 := select (cmpi .slt v (splat 0#32)) (addi v (splat ext)) v
/-- The start indices [row, column] of the gather, row by row. -/
abbrev startIx (r c : IVec S4096 32) : IVec S4096x2 32 :=
  concatenate S4096x2 1 [⟨S4096x1, broadcastInDim S4096x1 ![0] bcast_S4096_S4096x1_0 r⟩, ⟨S4096x1, broadcastInDim S4096x1 ![0] bcast_S4096_S4096x1_0 c⟩]
    concatenates_S4096x1_S4096x1_S4096x2_d1
/-- The gather of the entries at (row, column) from a matrix. -/
abbrev pick {α : Type} (c : IVec S4096 32) (W : S4096x4120.Idx → α) : S4096.Idx → α :=
  Host.gather gather_S4096x4120_S4096x2_S4096_n_01_n_n_01_1_11 W (startIx (wrap 4096#32 rows) c)
/-- The column indices of diagonal number `kk`: the offset plus the row number, wrapped. -/
abbrev colsOf (kk : BitVec 32) : IVec S4096 32 := wrap 4120#32 (addi (splat kk) rows)

/-! ## Words -/

/-- A word below 2³¹ is not negative: the host's wraparound leaves it. -/
theorem wrap_word (ext x : BitVec 32) (hx : x.toNat < 2 ^ 31) :
    Scalar.select (IntOp.cmpi .slt x 0#32) (IntOp.addi x ext) x = x := by
  have h : IntOp.cmpi .slt x 0#32 = 0#1 := by
    unfold IntOp.cmpi
    have : x.slt 0#32 = false := by
      simp only [BitVec.slt, BitVec.toInt_eq_toNat_cond, BitVec.toNat_ofNat]
      simp only [decide_eq_false_iff_not]
      omega
    rw [this]; rfl
  rw [h]; exact select_zero _ _

/-- Such a word read signed is its natural number. -/
theorem toInt_toNat_word (x : BitVec 32) (hx : x.toNat < 2 ^ 31) : x.toInt.toNat = x.toNat := by
  rw [BitVec.toInt_eq_toNat_cond]
  have : 2 * x.toNat < 2 ^ 32 := by omega
  rw [if_pos this]; rfl

/-! ## The start indices and the gather at a row -/

theorem startIx_row (r c : IVec S4096 32) (o : Fin 4096) : startIx r c (ix2 o (0 : Fin 2)) = r (ix1 o) := by
  unfold startIx
  rw [concatenate_pair_apply_left (s₁ := S4096x1) (s₂ := S4096x1) (1 : Fin 2) _ _ _ (ix2 o (0 : Fin 2)) rfl (ix2 o (0 : Fin 1)) (by intro b; fin_cases b <;> rfl)]
  exact broadcastInDim_apply _ _ r _ (ix1 o) (by intro a; fin_cases a; rfl)

theorem startIx_col (r c : IVec S4096 32) (o : Fin 4096) : startIx r c (ix2 o (1 : Fin 2)) = c (ix1 o) := by
  unfold startIx
  rw [concatenate_pair_apply_right (s₁ := S4096x1) (s₂ := S4096x1) (1 : Fin 2) _ _ _ (ix2 o (1 : Fin 2)) rfl rfl (ix2 o (0 : Fin 1))
    (by intro b hb; fin_cases b; · rfl
        · exact absurd rfl hb) rfl]
  exact broadcastInDim_apply _ _ c _ (ix1 o) (by intro a; fin_cases a; rfl)

theorem rows_apply (o : Fin 4096) : rows (ix1 o) = BitVec.ofNat 32 o.val := rfl

theorem wrap_apply (ext : BitVec 32) (v : IVec S4096 32) (o : Fin 4096) (hv : (v (ix1 o)).toNat < 2 ^ 31) :
    wrap ext v (ix1 o) = v (ix1 o) := by
  show Scalar.select (IntOp.cmpi .slt (v (ix1 o)) (splat 0#32 (ix1 o))) (IntOp.addi (v (ix1 o)) (splat ext (ix1 o))) (v (ix1 o)) = _
  rw [show splat 0#32 (ix1 o) = 0#32 from rfl, show splat ext (ix1 o) = ext from rfl]
  exact wrap_word ext _ hv

/-- **The gather at a row**: when the column index at row `o` is the word of a column number `j` below 4120, the gather
    reads the matrix at `(o, j)`. -/
theorem pick_apply {α : Type} (c : IVec S4096 32) (W : S4096x4120.Idx → α) (o : Fin 4096) (j : Fin 4120)
    (hc : c (ix1 o) = BitVec.ofNat 32 j.val) : pick c W (ix1 o) = W (ix2 o j) := by
  unfold pick
  rw [show gather_S4096x4120_S4096x2_S4096_n_01_n_n_01_1_11 = entryDims 4096 4120 4096 gather_S4096x4120_S4096x2_S4096_n_01_n_n_01_1_11_wf from rfl,
    gather_entry_apply (by norm_num) (by norm_num)]
  have ho := o.isLt; have hj := j.isLt
  have e0 : startIx (wrap 4096#32 rows) c (ix2 o (0 : Fin 2)) = BitVec.ofNat 32 o.val := by
    rw [startIx_row, wrap_apply _ _ _ (by rw [rows_apply, BitVec.toNat_ofNat]; omega), rows_apply]
  have e1 : startIx (wrap 4096#32 rows) c (ix2 o (1 : Fin 2)) = BitVec.ofNat 32 j.val := by
    rw [startIx_col, hc]
  congr 1
  funext a
  refine Fin.ext ?_
  have ha : a = (0 : Fin 2) ∨ a = (1 : Fin 2) := by
    rcases a with ⟨v, hv⟩
    have hv2 : v < 2 := hv
    rcases v with _ | _ | v
    · exact Or.inl rfl
    · exact Or.inr rfl
    · omega
  rcases ha with rfl | rfl
  · show min (startIx (wrap 4096#32 rows) c (ix2 o (0 : Fin 2))).toInt.toNat (4096 - 1) = o.val
    rw [e0, toInt_toNat_word _ (by rw [BitVec.toNat_ofNat]; omega), BitVec.toNat_ofNat]; omega
  · show min (startIx (wrap 4096#32 rows) c (ix2 o (1 : Fin 2))).toInt.toNat (4120 - 1) = j.val
    rw [e1, toInt_toNat_word _ (by rw [BitVec.toNat_ofNat]; omega), BitVec.toNat_ofNat]; omega

/-- Diagonal number `k` (below 25) at row `o` is the matrix at `(o, o + k)`. -/
theorem pick_colsOf {α : Type} (k : Nat) (hk : k < 25) (W : S4096x4120.Idx → α) (o : Fin 4096) :
    pick (colsOf (BitVec.ofNat 32 k)) W (ix1 o) = W (ix2 o ⟨o.val + k, by have := o.isLt; omega⟩) := by
  have ho := o.isLt
  have hadd : addi (splat (BitVec.ofNat 32 k)) rows (ix1 o) = BitVec.ofNat 32 (o.val + k) := by
    show BitVec.ofNat 32 k + BitVec.ofNat 32 o.val = _
    rw [← BitVec.ofNat_add, Nat.add_comm]
  refine pick_apply _ W o ⟨o.val + k, by omega⟩ ?_
  show wrap 4120#32 (addi (splat (BitVec.ofNat 32 k)) rows) (ix1 o) = _
  rw [wrap_apply _ _ _ (by rw [hadd, BitVec.toNat_ofNat]; omega), hadd]

/-- The main diagonal at row `o` is the matrix at `(o, o)`. -/
theorem pick_rows {α : Type} (W : S4096x4120.Idx → α) (o : Fin 4096) :
    pick (wrap 4120#32 rows) W (ix1 o) = W (ix2 o ⟨o.val + 0, by have := o.isLt; omega⟩) := by
  have ho := o.isLt
  refine pick_apply _ W o ⟨o.val + 0, by omega⟩ ?_
  rw [wrap_apply _ _ _ (by rw [rows_apply, BitVec.toNat_ofNat]; omega), rows_apply]
  rfl

/-! ## The band: 25 columns side by side -/

/-- A vector as a one-column matrix. -/
abbrev col {α : Type} (x : S4096.Idx → α) : S4096x1.Idx → α := broadcastInDim S4096x1 ![0] bcast_S4096_S4096x1_0 x

theorem col_apply {α : Type} (x : S4096.Idx → α) (o : Fin 4096) : col x (ix2 o (0 : Fin 1)) = x (ix1 o) :=
  broadcastInDim_apply _ _ x _ (ix1 o) (by intro a; fin_cases a; rfl)

/-- Sixteen one-column matrices side by side, read at column `k`. -/
theorem cat16_apply {α : Type} (u : Fin 16 → (S4096x1.Idx → α)) (o : Fin 4096) (k : Fin 16) :
    concatenate S4096x16 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩, ⟨S4096x1, u 8⟩, ⟨S4096x1, u 9⟩, ⟨S4096x1, u 10⟩, ⟨S4096x1, u 11⟩, ⟨S4096x1, u 12⟩, ⟨S4096x1, u 13⟩, ⟨S4096x1, u 14⟩, ⟨S4096x1, u 15⟩]
      concatenates_S4096x1_S4096x1_S4096x1_S4096x1_S4096x1_S4096x1_S4096x1_S4096x1_S4096x1_S4096x1_S4096x1_S4096x1_S4096x1_S4096x1_S4096x1_S4096x1_S4096x16_d1 (ix2 o k) = u k (ix2 o (0 : Fin 1)) :=
  concatenate_ofFn_unit_apply (t := S4096x16) (s₁ := S4096x1) (1 : Fin 2) u concatenates_S4096x1_S4096x1_S4096x1_S4096x1_S4096x1_S4096x1_S4096x1_S4096x1_S4096x1_S4096x1_S4096x1_S4096x1_S4096x1_S4096x1_S4096x1_S4096x1_S4096x16_d1 rfl rfl (ix2 o k) k rfl (ix2 o (0 : Fin 1))
    (by intro b hb; fin_cases b
        · rfl
        · exact absurd rfl hb)

/-- Nine one-column matrices side by side, read at column `k`. -/
theorem cat9_apply {α : Type} (u : Fin 9 → (S4096x1.Idx → α)) (o : Fin 4096) (k : Fin 9) :
    concatenate S4096x9 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩, ⟨S4096x1, u 8⟩]
      concatenates_S4096x1_S4096x1_S4096x1_S4096x1_S4096x1_S4096x1_S4096x1_S4096x1_S4096x1_S4096x9_d1 (ix2 o k) = u k (ix2 o (0 : Fin 1)) :=
  concatenate_ofFn_unit_apply (t := S4096x9) (s₁ := S4096x1) (1 : Fin 2) u concatenates_S4096x1_S4096x1_S4096x1_S4096x1_S4096x1_S4096x1_S4096x1_S4096x1_S4096x1_S4096x9_d1 rfl rfl (ix2 o k) k rfl (ix2 o (0 : Fin 1))
    (by intro b hb; fin_cases b
        · rfl
        · exact absurd rfl hb)

/-- Sixteen columns beside nine: a column below 16 is the left block's. -/
theorem cat25_left {α : Type} (a : S4096x16.Idx → α) (b : S4096x9.Idx → α) (o : Fin 4096) (k : Fin 16) :
    concatenate S4096x25 1 [⟨S4096x16, a⟩, ⟨S4096x9, b⟩] concatenates_S4096x16_S4096x9_S4096x25_d1
      (ix2 o (⟨k.val, by have := k.isLt; omega⟩ : Fin 25)) = a (ix2 o k) :=
  concatenate_pair_apply_left (t := S4096x25) (s₁ := S4096x16) (s₂ := S4096x9) (1 : Fin 2) a b concatenates_S4096x16_S4096x9_S4096x25_d1
    (ix2 o (⟨k.val, by have := k.isLt; omega⟩ : Fin 25)) rfl (ix2 o k) (by intro b; fin_cases b <;> rfl)

/-- … and column `16 + k` is the right block's column `k`. -/
theorem cat25_right {α : Type} (a : S4096x16.Idx → α) (b : S4096x9.Idx → α) (o : Fin 4096) (k : Fin 9) :
    concatenate S4096x25 1 [⟨S4096x16, a⟩, ⟨S4096x9, b⟩] concatenates_S4096x16_S4096x9_S4096x25_d1
      (ix2 o (⟨16 + k.val, by have := k.isLt; omega⟩ : Fin 25)) = b (ix2 o k) :=
  concatenate_pair_apply_right (t := S4096x25) (s₁ := S4096x16) (s₂ := S4096x9) (1 : Fin 2) a b concatenates_S4096x16_S4096x9_S4096x25_d1
    (ix2 o (⟨16 + k.val, by have := k.isLt; omega⟩ : Fin 25)) rfl rfl (ix2 o k)
    (by intro b hb; fin_cases b
        · rfl
        · exact absurd rfl hb)
    (by show k.val + 16 = 16 + k.val; omega)

/-- The band built from 25 vectors: each a column, the first sixteen side by side, the last nine side by side, the two blocks
    side by side. -/
abbrev bandOf {α : Type} (d : Fin 25 → (S4096.Idx → α)) : S4096x25.Idx → α :=
  concatenate S4096x25 1
    [⟨S4096x16, concatenate S4096x16 1 [⟨S4096x1, col (d 0)⟩, ⟨S4096x1, col (d 1)⟩, ⟨S4096x1, col (d 2)⟩, ⟨S4096x1, col (d 3)⟩, ⟨S4096x1, col (d 4)⟩, ⟨S4096x1, col (d 5)⟩, ⟨S4096x1, col (d 6)⟩, ⟨S4096x1, col (d 7)⟩, ⟨S4096x1, col (d 8)⟩, ⟨S4096x1, col (d 9)⟩, ⟨S4096x1, col (d 10)⟩, ⟨S4096x1, col (d 11)⟩, ⟨S4096x1, col (d 12)⟩, ⟨S4096x1, col (d 13)⟩, ⟨S4096x1, col (d 14)⟩, ⟨S4096x1, col (d 15)⟩]
        concatenates_S4096x1_S4096x1_S4096x1_S4096x1_S4096x1_S4096x1_S4096x1_S4096x1_S4096x1_S4096x1_S4096x1_S4096x1_S4096x1_S4096x1_S4096x1_S4096x1_S4096x16_d1⟩,
     ⟨S4096x9, concatenate S4096x9 1 [⟨S4096x1, col (d 16)⟩, ⟨S4096x1, col (d 17)⟩, ⟨S4096x1, col (d 18)⟩, ⟨S4096x1, col (d 19)⟩, ⟨S4096x1, col (d 20)⟩, ⟨S4096x1, col (d 21)⟩, ⟨S4096x1, col (d 22)⟩, ⟨S4096x1, col (d 23)⟩, ⟨S4096x1, col (d 24)⟩]
        concatenates_S4096x1_S4096x1_S4096x1_S4096x1_S4096x1_S4096x1_S4096x1_S4096x1_S4096x1_S4096x9_d1⟩]
    concatenates_S4096x16_S4096x9_S4096x25_d1

/-- The band at `(o, k)` is vector `k` at `o`. -/
theorem bandOf_apply {α : Type} (d : Fin 25 → (S4096.Idx → α)) (o : Fin 4096) (k : Fin 25) : bandOf d (ix2 o k) = d k (ix1 o) := by
  obtain ⟨kv, hkv⟩ := k
  rcases Nat.lt_or_ge kv 16 with hk | hk
  · exact (cat25_left _ _ o ⟨kv, hk⟩).trans
      ((cat16_apply (fun n : Fin 16 => col (d ⟨n.val, by have := n.isLt; omega⟩)) o ⟨kv, hk⟩).trans (col_apply (d ⟨kv, hkv⟩) o))
  · obtain ⟨n, rfl⟩ : ∃ n, kv = 16 + n := ⟨kv - 16, by omega⟩
    exact (cat25_right _ _ o ⟨n, by omega⟩).trans
      ((cat9_apply (fun j : Fin 9 => col (d ⟨16 + j.val, by have := j.isLt; omega⟩)) o ⟨n, by omega⟩).trans (col_apply (d ⟨16 + n, hkv⟩) o))

/-- A vector reshaped to a one-column matrix, read at a row. -/
theorem reshape_col_apply {α : Type} (x : S4096.Idx → α) (o : Fin 4096) :
    shapeCast S4096x1 x shapeCasts_S4096_S4096x1 (ix2 o (0 : Fin 1)) = x (ix1 o) :=
  shapeCast_apply x _ _ (ix1 o) (by rw [Shape.rowMajor_val_one, Shape.rowMajor_val_two]; show o.val = o.val * 1 + 0; omega)

/-! ## What the host lines leave in the band and in the bias column -/

variable (m : (ℓ : Loc nD τ sig) → Buf (Elt F) ℓ)

/-- The column indices of the 25 diagonals. -/
abbrev diagCols : Fin 25 → IVec S4096 32 :=
  ![wrap 4120#32 rows, colsOf 1#32, colsOf 2#32, colsOf 3#32, colsOf 4#32, colsOf 5#32, colsOf 6#32, colsOf 7#32, colsOf 8#32, colsOf 9#32, colsOf 10#32, colsOf 11#32, colsOf 12#32, colsOf 13#32, colsOf 14#32, colsOf 15#32, colsOf 16#32, colsOf 17#32, colsOf 18#32, colsOf 19#32, colsOf 20#32, colsOf 21#32, colsOf 22#32, colsOf 23#32, colsOf 24#32]

/-- Diagonal `k` at row `o` is the matrix at `(o, o + k)`. -/
theorem diag_apply {α : Type} (W : S4096x4120.Idx → α) (o : Fin 4096) :
    ∀ k : Fin 25, pick (diagCols k) W (ix1 o) = W (ix2 o ⟨o.val + k.val, by have := o.isLt; have := k.isLt; omega⟩)
  | ⟨0, _⟩ => pick_rows W o
  | ⟨1, _⟩ => pick_colsOf 1 (by decide) W o
  | ⟨2, _⟩ => pick_colsOf 2 (by decide) W o
  | ⟨3, _⟩ => pick_colsOf 3 (by decide) W o
  | ⟨4, _⟩ => pick_colsOf 4 (by decide) W o
  | ⟨5, _⟩ => pick_colsOf 5 (by decide) W o
  | ⟨6, _⟩ => pick_colsOf 6 (by decide) W o
  | ⟨7, _⟩ => pick_colsOf 7 (by decide) W o
  | ⟨8, _⟩ => pick_colsOf 8 (by decide) W o
  | ⟨9, _⟩ => pick_colsOf 9 (by decide) W o
  | ⟨10, _⟩ => pick_colsOf 10 (by decide) W o
  | ⟨11, _⟩ => pick_colsOf 11 (by decide) W o
  | ⟨12, _⟩ => pick_colsOf 12 (by decide) W o
  | ⟨13, _⟩ => pick_colsOf 13 (by decide) W o
  | ⟨14, _⟩ => pick_colsOf 14 (by decide) W o
  | ⟨15, _⟩ => pick_colsOf 15 (by decide) W o
  | ⟨16, _⟩ => pick_colsOf 16 (by decide) W o
  | ⟨17, _⟩ => pick_colsOf 17 (by decide) W o
  | ⟨18, _⟩ => pick_colsOf 18 (by decide) W o
  | ⟨19, _⟩ => pick_colsOf 19 (by decide) W o
  | ⟨20, _⟩ => pick_colsOf 20 (by decide) W o
  | ⟨21, _⟩ => pick_colsOf 21 (by decide) W o
  | ⟨22, _⟩ => pick_colsOf 22 (by decide) W o
  | ⟨23, _⟩ => pick_colsOf 23 (by decide) W o
  | ⟨24, _⟩ => pick_colsOf 24 (by decide) W o
  | ⟨n + 25, h⟩ => absurd h (by omega)

/-- After the host lines the band buffer holds the 25 diagonals of the weight matrix side by side: the run of the lines,
    unfolded operation by operation. -/
theorem V_band (c : Dev nD) :
    (V m c main_v52 : S4096x25.Idx → F .f32)
      = bandOf (fun k => pick (diagCols k) (m ((c : Thread nD τ).loc main_arg1) : S4096x4120.Idx → F .f32)) := by
  sl_kernel_rfl

/-- After the host lines the bias column holds the bias vector reshaped: the run of the lines, unfolded. -/
theorem V_bias (c : Dev nD) :
    (V m c main_v53 : S4096x1.Idx → F .f32)
      = shapeCast S4096x1 (m ((c : Thread nD τ).loc main_arg2) : S4096.Idx → F .f32) shapeCasts_S4096_S4096x1 := by
  sl_kernel_rfl

/-- **The band as the region finds it**: entry `(o, k)` is the weight matrix at `(o, o + k)`. -/
theorem band_entry (c : Dev nD) (o : Fin 4096) (k : Fin 25) :
    (V m c main_v52 : S4096x25.Idx → F .f32) (ix2 o k)
      = (m ((c : Thread nD τ).loc main_arg1) : S4096x4120.Idx → F .f32)
          (ix2 o ⟨o.val + k.val, by have := o.isLt; have := k.isLt; omega⟩) :=
  (congrFun (V_band m c) (ix2 o k)).trans ((bandOf_apply _ o k).trans (diag_apply _ o k))

/-- **The bias column as the region finds it**: entry `(o, 0)` is the bias at `o`. -/
theorem bias_entry (c : Dev nD) (o : Fin 4096) :
    (V m c main_v53 : S4096x1.Idx → F .f32) (ix2 o (0 : Fin 1))
      = (m ((c : Thread nD τ).loc main_arg2) : S4096.Idx → F .f32) (ix1 o) :=
  (congrFun (V_bias m c) (ix2 o (0 : Fin 1))).trans (reshape_col_apply _ o)

end Cert.KernelIdeal.HostBand
-- ==== Proof.KernelArray.lean ====
/-
  The result array of the idealized kernel, whole.

  Window 0 gives point t the four batches 4⌊t/4⌋ .. 4⌊t/4⌋+3 of x; windows 1 and 2 give it rows 1024(t mod 4) ..
  of the band and of the bias column; the output window takes its tile to batches 4⌊t/4⌋.. and rows 1024(t mod 4)..
  of the result. By induction on the point the scratch always holds the lengthened block of the current four batches
  (a refilling point writes it; the other points leave it, and their batches are the point-before's). Tap k of row r
  at point t reads scratch row 1024(t mod 4) + k + r. So entry (b, o, c) of the result is the sum over the 25 taps of
  the lengthened sequence's entry (b, o + k, c) times the band's entry (o, k), plus the bias column's entry o; and the
  32 tiles cover the result.
-/
import proofs.«139231_j10806137717199_2_alg».proof.Proof.IdealFrame
import proofs.«139231_j10806137717199_2_alg».proof.Proof.TileValue
import proofs.«139231_j10806137717199_2_alg».proof.Proof.BandSpec
import proofs.«139231_j10806137717199_2_alg».proof.Proof.HostBand

set_option maxRecDepth 16384

noncomputable section

open scoped BigOperators

namespace Cert.KernelIdeal.Tile

open Idealize.ShloMosaic Idealize.ShloMosaic.TcCoe Idealize.ShloMosaic.ValueIdx Idealize.ShloMosaic.View Idealize.ShloMosaic.Tactic
open Idealize.SL Idealize.SL.Sem
open Idealize.ShloMosaic.Pipeline (Dat)
open Cert.KernelIdeal Cert.KernelIdeal.Gen Cert.KernelIdeal.Frame Cert.BandSpec

/-! ## The index maps and the taps' first rows, decided over the 32 grid points -/

theorem idx0 : ∀ t : Fin cfg0.N, win0_0.index t (0 : Fin 3) = t.val / 4 ∧ win0_0.index t (1 : Fin 3) = 0 ∧ win0_0.index t (2 : Fin 3) = 0 :=
  (by decide +kernel : ∀ t : Fin grid0.N, win0_0.index t (0 : Fin 3) = t.val / 4 ∧ win0_0.index t (1 : Fin 3) = 0 ∧ win0_0.index t (2 : Fin 3) = 0)
theorem idx1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem idx2 : ∀ t : Fin cfg0.N, win0_2.index t (0 : Fin 2) = t.val % 4 ∧ win0_2.index t (1 : Fin 2) = 0 :=
  (by decide +kernel : ∀ t : Fin grid0.N, win0_2.index t (0 : Fin 2) = t.val % 4 ∧ win0_2.index t (1 : Fin 2) = 0)
theorem idx3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, win0_3.index t (0 : Fin 3) = t.val / 4 ∧ win0_3.index t (1 : Fin 3) = t.val % 4 ∧ win0_3.index t (2 : Fin 3) = 0)
/-- Tap k's first scratch row at point t is 1024 (t mod 4) + k. -/
theorem taps : ∀ t : Fin cfg0.N, ∀ k : Fin 25, (k0_off1 (grid0.coords t) (BitVec.ofNat 32 k.val)) 1 = 1024 * (t.val % 4) + k.val :=
  (by decide +kernel : ∀ t : Fin grid0.N, ∀ k : Fin 25, (k0_off1 (grid0.coords t) (BitVec.ofNat 32 k.val)) 1 = 1024 * (t.val % 4) + k.val)

variable (m : (ℓ : Loc nD τ sig) → Buf (Elt Ideal) ℓ) (ρ : Dev nD → PrngReg)

theorem lt32 (t : Fin cfg0.N) : t.val < 32 := lt_of_lt_of_eq t.isLt (show cfg0.N = 32 from N_0)

/-! ## The input blocks at an entry -/

theorem iblk0_entry (c : Dev nD) (t : Fin cfg0.N) (b : Fin 4) (p : Fin 4096) (ch : Fin 64) :
    (iblk m c 0 t : Vec Ideal S4x4096x64 .f32) (ix3 b p ch)
      = (V m c main_arg0 : Vec Ideal S32x4096x64 .f32) (ix3 (⟨4 * (t.val / 4) + b.val, by have := lt32 t; have := b.isLt; omega⟩ : Fin 32) p ch) := by
  unfold iblk
  rw [View.read_apply]
  refine congrArg (V m c main_arg0 : Vec Ideal S32x4096x64 .f32) (funext fun a => Fin.ext ?_)
  match a with
  | ⟨0, _⟩ => show win0_0.index t 0 * 4 + 1 * b.val = 4 * (t.val / 4) + b.val; rw [(idx0 t).1]; omega
  | ⟨1, _⟩ => show win0_0.index t 1 * 4096 + 1 * p.val = p.val; rw [(idx0 t).2.1]; omega
  | ⟨2, _⟩ => show win0_0.index t 2 * 64 + 1 * ch.val = ch.val; rw [(idx0 t).2.2]; omega

theorem iblk1_entry (c : Dev nD) (t : Fin cfg0.N) (r : Fin 1024) (k : Fin 25) :
    (iblk m c 1 t : Vec Ideal S1024x25 .f32) (ix2 r k)
      = (V m c main_v52 : Vec Ideal S4096x25 .f32) (ix2 (⟨1024 * (t.val % 4) + r.val, by have := r.isLt; omega⟩ : Fin 4096) k) := by
  unfold iblk
  rw [View.read_apply]
  refine congrArg (V m c main_v52 : Vec Ideal S4096x25 .f32) (funext fun a => Fin.ext ?_)
  match a with
  | ⟨0, _⟩ => show win0_1.index t 0 * 1024 + 1 * r.val = 1024 * (t.val % 4) + r.val; rw [(idx1 t).1]; omega
  | ⟨1, _⟩ => show win0_1.index t 1 * 25 + 1 * k.val = k.val; rw [(idx1 t).2]; omega

theorem iblk2_entry (c : Dev nD) (t : Fin cfg0.N) (r : Fin 1024) :
    (iblk m c 2 t : Vec Ideal S1024x1 .f32) (ix2 r (0 : Fin 1))
      = (V m c main_v53 : Vec Ideal S4096x1 .f32) (ix2 (⟨1024 * (t.val % 4) + r.val, by have := r.isLt; omega⟩ : Fin 4096) (0 : Fin 1)) := by
  unfold iblk
  rw [View.read_apply]
  refine congrArg (V m c main_v53 : Vec Ideal S4096x1 .f32) (funext fun a => Fin.ext ?_)
  match a with
  | ⟨0, _⟩ => show win0_2.index t 0 * 1024 + 1 * r.val = 1024 * (t.val % 4) + r.val; rw [(idx2 t).1]; omega
  | ⟨1, _⟩ => show win0_2.index t 1 * 1 + 1 * 0 = 0; rw [(idx2 t).2]

/-- Within a group of four points the batches' block does not change. -/
theorem iblk0_step (c : Dev nD) (n : ℕ) (h : n + 1 < cfg0.N) (h0 : ¬(n + 1) % 4 = 0) :
    (iblk m c 0 ⟨n, Nat.lt_of_succ_lt h⟩ : Vec Ideal S4x4096x64 .f32) = iblk m c 0 ⟨n + 1, h⟩ := by
  funext y
  obtain ⟨b, p, ch, rfl⟩ : ∃ (b : Fin 4) (p : Fin 4096) (ch : Fin 64), y = ix3 b p ch := ⟨y 0, y 1, y 2, eq_ix3 y⟩
  rw [iblk0_entry, iblk0_entry]
  exact congrArg (fun q : Fin 32 => (V m c main_arg0 : Vec Ideal S32x4096x64 .f32) (ix3 q p ch)) (Fin.ext (by
    show 4 * (n / 4) + b.val = 4 * ((n + 1) / 4) + b.val; omega))

/-! ## The scratch and the tile at every point -/

set_option maxHeartbeats 2000000 in
/-- After every point the scratch holds the lengthened block of that point's four batches. -/
theorem scratch_at (c : Dev nD) : ∀ (n : ℕ) (h : n < cfg0.N), (outsAt m c n h).2 = padBlock (iblk m c 0 ⟨n, h⟩)
  | 0, h => by
    rw [outsAt.eq_1]
    dsimp only
    exact scrFill_eq (F := Ideal) ..
  | n + 1, h => by
    by_cases h0 : (n + 1) % 4 = 0
    · rw [outsAt.eq_2, dif_pos h0]
      dsimp only
      exact scrFill_eq (F := Ideal) ..
    · rw [outsAt.eq_2, dif_neg h0]
      dsimp only
      rw [scratch_at c n, iblk0_step m c n h h0]

set_option maxHeartbeats 2000000 in
/-- Every point stores the tile of the lengthened block of its four batches, of its band block and its bias block. -/
theorem tile_at (c : Dev nD) : ∀ (n : ℕ) (h : n < cfg0.N),
    (outsAt m c n h).1 = tileOf (grid0.coords ⟨n, h⟩) (padBlock (iblk m c 0 ⟨n, h⟩)) (iblk m c 1 ⟨n, h⟩) (iblk m c 2 ⟨n, h⟩)
  | 0, h => by
    rw [outsAt.eq_1]
    dsimp only
    exact outFill_eq (F := Ideal) ..
  | n + 1, h => by
    by_cases h0 : (n + 1) % 4 = 0
    · rw [outsAt.eq_2, dif_pos h0]
      dsimp only
      exact outFill_eq (F := Ideal) ..
    · rw [outsAt.eq_2, dif_neg h0]
      dsimp only
      rw [outKeep_eq, scratch_at m c n, iblk0_step m c n h h0]

/-! ## The result at an entry -/

/-- Twenty-five terms added one after the other from zero are their sum. -/
theorem chain25 {M : Type} [AddCommMonoid M] (f : Fin 25 → M) :
    (((((((((((((((((((((((((0 + f 0) + f 1) + f 2) + f 3) + f 4) + f 5) + f 6) + f 7) + f 8) + f 9) + f 10) + f 11) + f 12) + f 13) + f 14) + f 15) + f 16) + f 17) + f 18) + f 19) + f 20) + f 21) + f 22) + f 23) + f 24) = ∑ k : Fin 25, f k := by
  simp only [Fin.sum_univ_castSucc, Fin.sum_univ_zero]
  rfl

/-- Entry (b, r) of point t's tile is batch 4⌊t/4⌋ + b and row 1024 (t mod 4) + r of the result. -/
abbrev batchOf (t : Fin cfg0.N) (b : Fin 4) : Fin 32 := ⟨4 * (t.val / 4) + b.val, by have := lt32 t; have := b.isLt; omega⟩
abbrev rowOf (t : Fin cfg0.N) (r : Fin 1024) : Fin 4096 := ⟨1024 * (t.val % 4) + r.val, by have := r.isLt; omega⟩

theorem padBlock_apply (X : Vec Ideal S4x4096x64 .f32) (b : Fin 4) (q : Fin 4120) (ch : Fin 64) :
    padBlock X (ix3 b q ch) = X (ix3 b ⟨padRow q.val, padRow_lt q.isLt⟩ ch) := rfl

/-- An array of floats at the ideal instance, as a function into the extended reals. -/
abbrev asReal {s : Shape} (f : s.Idx → EReal) : s.Idx → EReal := f

/-- Tap k's product at entry (b, r, c) of point t's tile, in terms of the arguments: the lengthened sequence's entry
    (batch, row + k, c) times the weight matrix's entry (row, row + k). -/
def tapTerm (c : Dev nD) (t : Fin cfg0.N) (b : Fin 4) (r : Fin 1024) (ch : Fin 64) (k : Fin 25) : EReal :=
  asReal (s := S32x4096x64) (m ((c : Thread nD τ).loc main_arg0))
      (ix3 (batchOf t b) ⟨padRow ((rowOf t r).val + k.val), padRow_lt (tap_lt (rowOf t r) k)⟩ ch)
    * asReal (s := S4096x4120) (m ((c : Thread nD τ).loc main_arg1)) (ix2 (rowOf t r) ⟨(rowOf t r).val + k.val, tap_lt (rowOf t r) k⟩)

theorem term_eq (c : Dev nD) (t : Fin cfg0.N) (b : Fin 4) (r : Fin 1024) (ch : Fin 64) (k : Fin 25) :
    padBlock (iblk m c 0 t) (ix3 b (tapRow (grid0.coords t) k r) ch) * (iblk m c 1 t : Vec Ideal S1024x25 .f32) (ix2 r k)
      = tapTerm m c t b r ch k := by
  have hq : (tapRow (grid0.coords t) k r).val = (rowOf t r).val + k.val := by
    show (k0_off1 (grid0.coords t) (BitVec.ofNat 32 k.val)) 1 + r.val = (1024 * (t.val % 4) + r.val) + k.val
    rw [taps t k]; omega
  unfold tapTerm
  rw [padBlock_apply, iblk0_entry, iblk1_entry, HostBand.band_entry, V_main_arg0]
  congr 1
  exact congrArg (fun q : Fin 4096 => asReal (s := S32x4096x64) (m ((c : Thread nD τ).loc main_arg0)) (ix3 (batchOf t b) q ch))
    (Fin.ext (by show padRow _ = padRow _; rw [hq]))

set_option maxHeartbeats 2000000 in
/-- Entry (b, r, c) of the tile point t stores is the layer's value at (batch, row, c). -/
theorem result_entry (c : Dev nD) (t : Fin cfg0.N) (b : Fin 4) (r : Fin 1024) (ch : Fin 64) :
    (outsAt m c t.val t.isLt).1 (ix3 b r ch)
      = layer (m ((c : Thread nD τ).loc main_arg0)) (m ((c : Thread nD τ).loc main_arg1)) (m ((c : Thread nD τ).loc main_arg2))
          (batchOf t b) (rowOf t r) ch := by
  obtain ⟨n, hn⟩ := t
  rw [tile_at m c n hn, tileOf_entry]
  simp only [term_eq m c ⟨n, hn⟩ b r ch]
  rw [chain25 (tapTerm m c ⟨n, hn⟩ b r ch), iblk2_entry, HostBand.bias_entry]
  rfl

/-! ## The write-backs and the whole array -/

/-- The result array: the layer of the three arguments. -/
def kerOut (c : Dev nD) : Buf (Elt Ideal) ((c : Thread nD τ).loc main_v54) :=
  fun i => layer (m ((c : Thread nD τ).loc main_arg0)) (m ((c : Thread nD τ).loc main_arg1)) (m ((c : Thread nD τ).loc main_arg2))
    ⟨(i 0).val, (i 0).isLt⟩ ⟨(i 1).val, (i 1).isLt⟩ ⟨(i 2).val, (i 2).isLt⟩

set_option maxHeartbeats 2000000 in
/-- What point t writes back is block t of the layer. -/
theorem flushed_eq (c : Dev nD) (t : Fin cfg0.N) :
    (dats m 0 c).flushed 3 t = ((cfg0.win 3).blk t).view.read (Elt Ideal) (kerOut m c) := by
  show (cfg0.win 3).cut (grid0.coords t) ((dats m 0 c).after 3 t) = _
  rw [after3]
  funext y
  obtain ⟨b, r, ch, rfl⟩ : ∃ (b : Fin 4) (r : Fin 1024) (ch : Fin 64), y = ix3 b r ch := ⟨y 0, y 1, y 2, eq_ix3 y⟩
  refine (result_entry m c t b r ch).trans ?_
  rw [View.read_apply]
  unfold kerOut
  obtain ⟨e0, e1, e2⟩ := idx3 t
  congr 1
  · exact Fin.ext (by show 4 * (t.val / 4) + b.val = win0_3.index t 0 * 4 + 1 * b.val; rw [e0]; omega)
  · exact Fin.ext (by show 1024 * (t.val % 4) + r.val = win0_3.index t 1 * 1024 + 1 * r.val; rw [e1]; omega)
  · exact Fin.ext (by show ch.val = win0_3.index t 2 * 64 + 1 * ch.val; rw [e2]; omega)

/-- An index of the result is in point t's block iff each coordinate is in the block's range on its axis. -/
theorem mem_blk3 (t : Fin cfg0.N) (i : S32x4096x64.Idx) :
    i ∈ ((cfg0.win 3).blk t).view.set ↔ ∀ a : Fin 3, win0_3.index t a * S4x1024x64.size a ≤ (i a).val ∧ (i a).val < win0_3.index t a * S4x1024x64.size a + S4x1024x64.size a := by
  show i ∈ ((View.whole main_v54).slice (win0_3.rect t)).set ↔ _
  rw [View.set_slice_whole, Rect.mem_set_unit]
  exact Iff.rfl

/-- Every index of the result is in the block of the point with batch group ⌊batch/4⌋ and row tile ⌊row/1024⌋. -/
theorem cover3 (i : S32x4096x64.Idx) : ∃ t : Fin cfg0.N, (cfg0.win 3).flush t = true ∧ i ∈ ((cfg0.win 3).blk t).view.set := by
  have h0 : (i 0).val < 32 := (i 0).isLt
  have h1 : (i 1).val < 4096 := (i 1).isLt
  have h2 : (i 2).val < 64 := (i 2).isLt
  have hN : cfg0.N = 32 := N_0
  have hlt : 4 * ((i 0).val / 4) + (i 1).val / 1024 < cfg0.N := by rw [hN]; omega
  refine ⟨⟨4 * ((i 0).val / 4) + (i 1).val / 1024, hlt⟩, flush0_3 _, ?_⟩
  rw [mem_blk3]
  obtain ⟨e0, e1, e2⟩ := idx3 ⟨4 * ((i 0).val / 4) + (i 1).val / 1024, hlt⟩
  intro a
  match a with
  | ⟨0, _⟩ =>
    show win0_3.index ⟨4 * ((i 0).val / 4) + (i 1).val / 1024, hlt⟩ 0 * 4 ≤ (i 0).val ∧ (i 0).val < win0_3.index ⟨4 * ((i 0).val / 4) + (i 1).val / 1024, hlt⟩ 0 * 4 + 4
    rw [e0]; dsimp only; omega
  | ⟨1, _⟩ =>
    show win0_3.index ⟨4 * ((i 0).val / 4) + (i 1).val / 1024, hlt⟩ 1 * 1024 ≤ (i 1).val ∧ (i 1).val < win0_3.index ⟨4 * ((i 0).val / 4) + (i 1).val / 1024, hlt⟩ 1 * 1024 + 1024
    rw [e1]; dsimp only; omega
  | ⟨2, _⟩ =>
    show win0_3.index ⟨4 * ((i 0).val / 4) + (i 1).val / 1024, hlt⟩ 2 * 64 ≤ (i 2).val ∧ (i 2).val < win0_3.index ⟨4 * ((i 0).val / 4) + (i 1).val / 1024, hlt⟩ 2 * 64 + 64
    rw [e2]; omega

/-- So the result array ends holding the layer of the arguments. -/
theorem final3 (c : Dev nD) : (dats m 0 c).arrAt 3 cfg0.N = kerOut m c :=
  (dats m 0 c).arrAt_eq_of_cover 3 (kerOut m c) (fun t _ => flushed_eq m c t) cover3

/-- The run of the idealized kernel, read: the result array at the layer of the arguments, the arguments unchanged. -/
theorem run : θ_run defs (onTc (τ := τ) (main (F := Ideal))) ⟨m, fun _ => 0, ρ⟩ fun r => ∀ c : Dev nD,
      r.2.mem ((c.tc : Thread nD τ).loc main_v54) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.KernelIdeal.Tile

end
-- ==== Proof.RefLayer.lean ====
/-
  The reference program computes the banded linear layer.

  Read at an index, the reference's stages are: the sequence x[b, ·, c] lengthened to 4120 rows (its first 12 rows,
  then the whole sequence, then its last 12 rows, laid end to end); the band mask, 1 at (o, p) when o ≤ p < o + 25
  and 0 elsewhere; the weights times the mask; the contraction over the 4120 columns; the bias added. In the
  extended reals a term whose mask factor is 0 is 0 whatever its other factors are, so the contraction is the sum
  over the window's 25 columns o, …, o + 24, and the result at (b, o, c) is `Cert.BandSpec.layer`.
-/
import proofs.«139231_j10806137717199_2_alg».proof.Proof.BandSpec
import proofs.«139231_j10806137717199_2_alg».proof.Proof.Gen.ReferenceIdeal.Read
import Idealize.ShloMosaic.Lib.Affine
import Idealize.ShloMosaic.Lib.WordArith
import Idealize.ShloMosaic.Lib.Pipeline.Value
import Idealize.ShloMosaic.Lib.ValueIdx

noncomputable section

open scoped BigOperators

namespace Cert.ReferenceIdeal.RefValue

open Cert.ReferenceIdeal Cert.ReferenceIdeal.Gen Cert.ReferenceIdeal.Read Cert.BandSpec
open Idealize.ShloMosaic Idealize.ShloMosaic.ValueIdx Idealize.ShloMosaic.StableHlo

/-! ## The band mask -/

/-- The column number, as a 32-bit word. -/
theorem col_word (o : Fin 4096) (p : Fin 4120) :
    val_main_v10 (F := Ideal) (ix2 o p) = BitVec.ofNat 32 p.val := by
  rw [val_main_v10_apply, val_main_v9_apply, val_main_v8_apply]

theorem col_word' (o : Fin 4096) (p : Fin 4120) :
    val_main_v15 (F := Ideal) (ix2 o p) = BitVec.ofNat 32 p.val := by
  rw [val_main_v15_apply, val_main_v9_apply, val_main_v8_apply]

/-- The row number (times the stride 1), as a 32-bit word. -/
theorem row_word (o : Fin 4096) (p : Fin 4120) :
    val_main_v11 (F := Ideal) (ix2 o p) = BitVec.ofNat 32 o.val := by
  rw [val_main_v11_apply, val_main_v7_apply, val_main_v5_apply, val_main_v6_apply, val_main_v4_apply, val_main_c_apply]
  show BitVec.ofNat 32 o.val * 1#32 = BitVec.ofNat 32 o.val
  exact BitVec.mul_one _

/-- The row number plus the window length 25, as a 32-bit word. -/
theorem hi_word (o : Fin 4096) (p : Fin 4120) :
    val_main_v16 (F := Ideal) (ix2 o p) = BitVec.ofNat 32 (o.val + 25) := by
  rw [val_main_v16_apply, val_main_v14_apply, val_main_v7_apply, val_main_v5_apply, val_main_v6_apply, val_main_v4_apply,
    val_main_c_apply, val_main_v13_apply, val_main_c_0_apply]
  show BitVec.ofNat 32 o.val * 1#32 + 25#32 = BitVec.ofNat 32 (o.val + 25)
  rw [BitVec.mul_one, BitVec.ofNat_add]

/-- The mask bit at (o, p): set exactly when column p lies in row o's window o ≤ p < o + 25. The numbers involved are
    far below 2³¹, so the signed comparisons of the words are the comparisons of the numbers. -/
theorem mask_word (o : Fin 4096) (p : Fin 4120) :
    val_main_v18 (F := Ideal) (ix2 o p) = if o.val ≤ p.val ∧ p.val < o.val + 25 then 1#1 else 0#1 := by
  have ho := o.isLt
  have hp := p.isLt
  rw [val_main_v18_apply, val_main_v12_apply, val_main_v17_apply, col_word, col_word', row_word, hi_word]
  have e1 := WordArith.toInt_ofNat_small p.val (by omega)
  have e2 := WordArith.toInt_ofNat_small o.val (by omega)
  have e3 := WordArith.toInt_ofNat_small (o.val + 25) (by omega)
  split_ifs with h
  · rw [IntOp.andi_eq_one, IntOp.cmpi_sge, IntOp.cmpi_slt, e1, e2, e3]
    omega
  · apply eq_zero_of_ne_one
    rw [IntOp.andi_eq_one, IntOp.cmpi_sge, IntOp.cmpi_slt, e1, e2, e3]
    omega

/-- The mask entry at (o, p) as an extended real: 1 inside the window, 0 outside. -/
theorem mask_apply (o : Fin 4096) (p : Fin 4120) :
    val_main_v19 (F := Ideal) (ix2 o p) = if o.val ≤ p.val ∧ p.val < o.val + 25 then (1 : EReal) else 0 := by
  rw [val_main_v19_apply, mask_word]
  split_ifs with h
  · show ((((1#1 : BitVec 1).toNat : ℝ)) : EReal) = 1
    simp
  · show ((((0#1 : BitVec 1).toNat : ℝ)) : EReal) = 0
    simp

/-! ## The lengthened sequence -/

section Pad

variable (x0 : (⟨S32x4096x64, .f32⟩ : BufTy).Contents (Elt Ideal)) (bi : Fin 32) (ch : Fin 64) (p : Fin 4120)

/-- Rows 0..11 of the lengthened sequence are the first piece. -/
theorem pad_front (h : p.val < 12) :
    val_main_v3 (F := Ideal) x0 (ix3 bi ch p) = val_main_v1 (F := Ideal) x0 (ix3 bi ch ⟨p.val, h⟩) := by
  unfold val_main_v3
  exact concatenate_apply_piece 2 _ _ (ix3 bi ch p) 0 (by simp) S32x64x12 _ rfl rfl 0 rfl (ix3 bi ch ⟨p.val, h⟩)
    (fun b hb => match b, hb with
      | ⟨0, _⟩, _ => rfl
      | ⟨1, _⟩, _ => rfl
      | ⟨2, _⟩, hb => absurd rfl hb)
    (Nat.zero_add _)

/-- Rows 12..4107 are the second piece, the whole sequence, 12 rows further on. -/
theorem pad_mid (h1 : 12 ≤ p.val) (h2 : p.val < 4108) :
    val_main_v3 (F := Ideal) x0 (ix3 bi ch p)
      = val_main_v0 (F := Ideal) x0 (ix3 bi ch ⟨p.val - 12, by omega⟩) := by
  unfold val_main_v3
  exact concatenate_apply_piece 2 _ _ (ix3 bi ch p) 1 (by simp) S32x64x4096 _ rfl rfl 12 rfl
    (ix3 bi ch ⟨p.val - 12, by omega⟩)
    (fun b hb => match b, hb with
      | ⟨0, _⟩, _ => rfl
      | ⟨1, _⟩, _ => rfl
      | ⟨2, _⟩, hb => absurd rfl hb)
    (by show 12 + (p.val - 12) = p.val; omega)

/-- Rows 4108..4119 are the third piece. -/
theorem pad_back (h : 4108 ≤ p.val) :
    val_main_v3 (F := Ideal) x0 (ix3 bi ch p)
      = val_main_v2 (F := Ideal) x0 (ix3 bi ch ⟨p.val - 4108, by have := p.isLt; omega⟩) := by
  unfold val_main_v3
  exact concatenate_apply_piece 2 _ _ (ix3 bi ch p) 2 (by simp) S32x64x12 _ rfl rfl 4108 rfl
    (ix3 bi ch ⟨p.val - 4108, by have := p.isLt; omega⟩)
    (fun b hb => match b, hb with
      | ⟨0, _⟩, _ => rfl
      | ⟨1, _⟩, _ => rfl
      | ⟨2, _⟩, hb => absurd rfl hb)
    (by show 4108 + (p.val - 4108) = p.val; omega)

/-- Row p of the lengthened sequence is row `padRow p` of the sequence. -/
theorem pad_apply :
    val_main_v3 (F := Ideal) x0 (ix3 bi ch p) = x0 (ix3 bi ⟨padRow p.val, padRow_lt p.isLt⟩ ch) := by
  have hp := p.isLt
  by_cases h1 : p.val < 12
  · rw [pad_front x0 bi ch p h1, val_main_v1_apply, val_main_v0_apply]
    congr 1
    funext a
    match a with
    | ⟨0, _⟩ => rfl
    | ⟨1, _⟩ => exact Fin.ext (show p.val = padRow p.val by unfold padRow; rw [if_pos h1])
    | ⟨2, _⟩ => rfl
  · by_cases h2 : p.val < 4108
    · rw [pad_mid x0 bi ch p (by omega) h2, val_main_v0_apply]
      congr 1
      funext a
      match a with
      | ⟨0, _⟩ => rfl
      | ⟨1, _⟩ => exact Fin.ext (show p.val - 12 = padRow p.val by unfold padRow; rw [if_neg h1, if_pos h2])
      | ⟨2, _⟩ => rfl
    · rw [pad_back x0 bi ch p (by omega), val_main_v2_apply, val_main_v0_apply]
      congr 1
      funext a
      match a with
      | ⟨0, _⟩ => rfl
      | ⟨1, _⟩ => exact Fin.ext (show 4084 + (p.val - 4108) = padRow p.val by unfold padRow; rw [if_neg h1, if_neg h2]; omega)
      | ⟨2, _⟩ => rfl

end Pad

/-! ## The sum over the window -/

/-- A sum over all 4120 columns of terms that carry the window's indicator as a factor is the sum over the window's
    25 columns: a term outside the window is `· * 0 = 0` in the extended reals whatever the other factors are, and
    k ↦ o + k matches 0..24 with the window. -/
theorem band_sum (o : Fin 4096) (f w : Fin 4120 → EReal) :
    ∑ p : Fin 4120, f p * (w p * (if o.val ≤ p.val ∧ p.val < o.val + 25 then (1 : EReal) else 0))
      = ∑ k : Fin 25, f ⟨o.val + k.val, tap_lt o k⟩ * w ⟨o.val + k.val, tap_lt o k⟩ := by
  have ho := o.isLt
  have e : ∀ p : Fin 4120, f p * (w p * (if o.val ≤ p.val ∧ p.val < o.val + 25 then (1 : EReal) else 0))
      = if o.val ≤ p.val ∧ p.val < o.val + 25 then f p * w p else 0 := by
    intro p
    split_ifs
    · rw [mul_one]
    · rw [mul_zero, mul_zero]
  simp only [e]
  rw [← Finset.sum_filter]
  symm
  refine Finset.sum_bij (fun k _ => (⟨o.val + k.val, tap_lt o k⟩ : Fin 4120)) ?_ ?_ ?_ ?_
  · intro k _
    have hk := k.isLt
    rw [Finset.mem_filter]
    exact ⟨Finset.mem_univ _, by show o.val ≤ o.val + k.val; omega, by show o.val + k.val < o.val + 25; omega⟩
  · intro k₁ _ k₂ _ h
    have h' : o.val + k₁.val = o.val + k₂.val := congrArg Fin.val h
    exact Fin.ext (by omega)
  · intro p hp
    rw [Finset.mem_filter] at hp
    have hp1 := hp.2.1
    have hp2 := hp.2.2
    exact ⟨⟨p.val - o.val, by omega⟩, Finset.mem_univ _, Fin.ext (by show o.val + (p.val - o.val) = p.val; omega)⟩
  · intro k _
    rfl

/-! ## The reference's result is the banded layer -/

/-- The reference's last stage at (b, o, c) is the specification: the contraction over the 4120 columns of the
    lengthened sequence against the masked weights is the sum over the window's 25 columns, and the bias b[o] is added. -/
theorem ref_is_layer (x0 : (⟨S32x4096x64, .f32⟩ : BufTy).Contents (Elt Ideal))
    (x1 : (⟨S4096x4120, .f32⟩ : BufTy).Contents (Elt Ideal)) (x2 : (⟨S4096, .f32⟩ : BufTy).Contents (Elt Ideal))
    (bi : Fin 32) (o : Fin 4096) (ch : Fin 64) :
    val_main_v25 (F := Ideal) x0 x1 x2 (ix3 bi o ch) = layer x0 x1 x2 bi o ch := by
  have el : ∀ k : Fin 4120, lidx_main_v21 (idx_main_v25 (ix3 bi o ch)) k = ix3 bi ch k := fun k =>
    funext fun a => match a with
      | ⟨0, _⟩ => rfl
      | ⟨1, _⟩ => rfl
      | ⟨2, _⟩ => rfl
  have er : ∀ k : Fin 4120, ridx_main_v21 (idx_main_v25 (ix3 bi o ch)) k = ix2 o k := fun k =>
    funext fun a => match a with
      | ⟨0, _⟩ => rfl
      | ⟨1, _⟩ => rfl
  have eb : idx_main_v22 (idx_main_v23 (idx_main_v25 (ix3 bi o ch))) = ix1 o :=
    funext fun a => match a with
      | ⟨0, _⟩ => rfl
  rw [val_main_v25_apply, val_main_v24_apply, val_main_v21_apply, val_main_v23_apply, val_main_v22_apply]
  simp only [el, er, eb, val_main_v20_apply, pad_apply, mask_apply, Ideal.mulf_def, Ideal.addf_def]
  unfold layer
  congr 1
  exact band_sum o (fun p => x0 (ix3 bi ⟨padRow p.val, padRow_lt p.isLt⟩ ch)) (fun p => x1 (ix2 o p))

end Cert.ReferenceIdeal.RefValue

end
-- ==== Proof.lean ====
/- A banded linear layer over sequences: out[b, o, c] = Σ_{k<25} xpad[b, o + k, c] · W[o, o + k] + bias[o], where xpad is the
   sequence lengthened from 4096 to 4120 rows by repeating its first and its last 12 rows.

   The kernel first takes the 25 generalized diagonals of W on the host (a 4096 x 25 band) and then runs a region over an
   8 x 4 grid (four batches by a tile of 1024 output rows): it keeps the lengthened sequence of the current four batches in a
   scratch buffer, refilled at the first row tile of each batch group, and for each tile adds the 25 products of a window of the
   scratch with a column of the band, then the bias. The reference lengthens the transposed sequence, multiplies W by the 0/1
   mask of the band o ≤ p < o + 25, contracts over all 4120 columns and adds the bias.

   The three frames: each program runs to its end without a fault and leaves its arguments as they were (the kernel's two
   instances by the region's frame run with the scratch's contents carried between grid points; the reference by its
   straight-line run). The idealization rewrote nothing. At the extended reals both programs compute the layer above of the
   same arguments: the kernel's 32 tiles cover the result and each entry is the 25-term sum; in the reference the masked-out
   products are 0 · x = 0 for every extended real x, so its 4120-term contraction is the same 25-term sum. No finiteness of
   the inputs is used. -/
import proofs.«139231_j10806137717199_2_alg».proof.Defs
import proofs.«139231_j10806137717199_2_alg».proof.Proof.Gen.Kernel
import proofs.«139231_j10806137717199_2_alg».proof.Proof.Gen.KernelIdeal
import proofs.«139231_j10806137717199_2_alg».proof.Proof.Gen.ReferenceIdeal
import proofs.«139231_j10806137717199_2_alg».proof.Proof.Gen.Pre_finite_inputs
import proofs.«139231_j10806137717199_2_alg».proof.Proof.Gen.ReferenceIdeal.Run
import proofs.«139231_j10806137717199_2_alg».proof.Proof.Gen.ReferenceIdeal.Read
import proofs.«139231_j10806137717199_2_alg».proof.Proof.BitsFrame
import proofs.«139231_j10806137717199_2_alg».proof.Proof.IdealFrame
import proofs.«139231_j10806137717199_2_alg».proof.Proof.KernelArray
import proofs.«139231_j10806137717199_2_alg».proof.Proof.RefLayer
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Frame.frame (F := Bits) m ρ

theorem frame_ki : Cert.frame_KernelIdeal := fun m ρ _ => Cert.KernelIdeal.Frame.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's result term, of the kernel's arguments, is the kernel's result array: entry by entry both are the layer. -/
theorem ref_eq_ker (m : (ℓ : Loc Cert.KernelIdeal.nD Cert.KernelIdeal.τ Cert.KernelIdeal.sig) → Buf (Elt Ideal) ℓ) (c : Dev Cert.KernelIdeal.nD) :
    Cert.ReferenceIdeal.Read.val_main_v25 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Tile.kerOut m c := by
  funext i
  obtain ⟨bi, o, ch, rfl⟩ : ∃ (bi : Fin 32) (o : Fin 4096) (ch : Fin 64), i = ix3 bi o ch := ⟨i 0, i 1, i 2, eq_ix3 i⟩
  rw [Cert.ReferenceIdeal.RefValue.ref_is_layer]
  rfl

/-- At the extended reals the idealized kernel and the idealized reference end with the same result. -/
theorem algebraic : Cert.algebraic_KernelIdeal_ReferenceIdeal := by
  intro m ρ m' ρ' _ hagree
  refine ⟨fun c => Cert.KernelIdeal.Tile.kerOut m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v25_eq _ _ _).trans (ref_eq_ker m c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
